-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x50 : Shape := ⟨2, ![16384, 50]⟩
abbrev S16384 : Shape := ⟨1, ![16384]⟩
abbrev S30x128 : Shape := ⟨2, ![30, 128]⟩
abbrev S10x128 : Shape := ⟨2, ![10, 128]⟩
abbrev S512x128 : Shape := ⟨2, ![512, 128]⟩
abbrev S128 : Shape := ⟨1, ![128]⟩
abbrev S_ : Shape := ⟨0, ![]⟩

class Facts : Prop where
  bcast_S_S30x128 : S_.BroadcastsInDim S30x128 (![] : Fin 0 → Fin S30x128.rank)
  reducesTo_S30x128_S_d0_1 : S30x128.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S16384x50 : S_.BroadcastsInDim S16384x50 (![] : Fin 0 → Fin S16384x50.rank)
  reducesTo_S16384x50_S_d0_1 : S16384x50.ReducesTo [0, 1] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg1 : IVec S16384x50 32) (main_arg2 : IVec S16384 32) (main_v28 : IVec S_ 1) (main_v33 : IVec S16384x50 1) : IVec S_ 1 :=
  let main_c_12 : IVec S_ 1 := constantI S_ 1 1#1
  let main_v34 : IVec S_ 1 := (fun x v => Host.reduce IntOp.andi x v reducesTo_S16384x50_S_d0_1 h_S_) main_v33 main_c_12
  let main_v35 : IVec S_ 1 := andi main_v28 main_v34
  let main_c_13 : IVec S_ 32 := constantI S_ 32 0#32
  let main_v36 : IVec S16384x50 32 := broadcastInDim S16384x50 ![] bcast_S_S16384x50 main_c_13
  let main_v37 : IVec S16384x50 1 := cmpi .sge main_arg1 main_v36
  let main_c_14 : IVec S_ 32 := constantI S_ 32 10#32
  let main_v38 : IVec S16384x50 32 := broadcastInDim S16384x50 ![] bcast_S_S16384x50 main_c_14
  let main_v39 : IVec S16384x50 1 := cmpi .slt main_arg1 main_v38
  let main_v40 : IVec S16384x50 1 := andi main_v37 main_v39
  let main_c_15 : IVec S_ 1 := constantI S_ 1 1#1
  let main_v41 : IVec S_ 1 := (fun x v => Host.reduce IntOp.andi x v reducesTo_S16384x50_S_d0_1 h_S_) main_v40 main_c_15
  let main_v42 : IVec S_ 1 := andi main_v35 main_v41
  let main_c_16 : IVec S_ 32 := constantI S_ 32 0#32
  let main_v43 : IVec S16384 32 := broadcastInDim S16384 ![] bcast_S_S16384 main_c_16
  let main_v44 : IVec S16384 1 := cmpi .sge main_arg2 main_v43
  let main_c_17 : IVec S_ 32 := constantI S_ 32 10#32
  let main_v45 : IVec S16384 32 := broadcastInDim S16384 ![] bcast_S_S16384 main_c_17
  let main_v46 : IVec S16384 1 := cmpi .slt main_arg2 main_v45
  let main_v47 : IVec S16384 1 := andi main_v44 main_v46
  let main_c_18 : IVec S_ 1 := constantI S_ 1 1#1
  let main_v48 : IVec S_ 1 := (fun x v => Host.reduce IntOp.andi x v reducesTo_S16384_S_d0 h_S_) main_v47 main_c_18
  let main_v49 : IVec S_ 1 := andi main_v42 main_v48
  main_v49

def fn_part1 {F : FTy → Type} [FloatOps F] (main_arg0 : IVec S16384x50 32) (main_arg1 : IVec S16384x50 32) (main_arg2 : IVec S16384 32) (main_arg7 : FVec F S128 .f32) (main_arg8 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S16384x50 32 := broadcastInDim S16384x50 ![] bcast_S_S16384x50 main_c_10
  let main_v30 : IVec S16384x50 1 := cmpi .sge main_arg0 main_v29
  let main_c_11 : IVec S_ 32 := constantI S_ 32 30#32
  let main_v31 : IVec S16384x50 32 := broadcastInDim S16384x50 ![] bcast_S_S16384x50 main_c_11
  let main_v32 : IVec S16384x50 1 := cmpi .slt main_arg0 main_v31
  let main_v33 : IVec S16384x50 1 := andi main_v30 main_v32
  fn_part2 (F := F) main_arg1 main_arg2 main_v28 main_v33

def fn {F : FTy → Type} [FloatOps F] (main_arg0 : IVec S16384x50 32) (main_arg1 : IVec S16384x50 32) (main_arg2 : IVec S16384 32) (main_arg3 : FVec F S30x128 .f32) (main_arg4 : FVec F S10x128 .f32) (main_arg5 : FVec F S10x128 .f32) (main_arg6 : FVec F S512x128 .f32) (main_arg7 : FVec F S128 .f32) (main_arg8 : FVec F S128 .f32) : IVec S_ 1 :=
  let main_v0 : FVec F S30x128 .f32 := Host.absf main_arg3
  let main_cst : FVec F S_ .f32 := constant S_ .f32 0x7F800000#32
  let main_v1 : FVec F S30x128 .f32 := broadcastInDim S30x128 ![] bcast_S_S30x128 main_cst
  let main_v2 : IVec S30x128 1 := cmpf .olt main_v0 main_v1
  let main_c : IVec S_ 1 := constantI S_ 1 1#1
  let main_v3 : IVec S_ 1 := (fun x v => Host.reduce IntOp.andi x v reducesTo_S30x128_S_d0_1 h_S_) main_v2 main_c
  let main_v4 : FVec F S10x128 .f32 := Host.absf main_arg4
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S10x128 .f32 := Host.absf main_arg5
  let main_cst_2 : FVec F S_ .f32 := constant S_ .f32 0x7F800000#32
  let main_v10 : FVec F S10x128 .f32 := broadcastInDim S10x128 ![] bcast_S_S10x128 main_cst_2
  let main_v11 : IVec S10x128 1 := cmpf .olt main_v9 main_v10
  let main_c_3 : IVec S_ 1 := constantI S_ 1 1#1
  let main_v12 : IVec S_ 1 := (fun x v => Host.reduce IntOp.andi x v reducesTo_S10x128_S_d0_1 h_S_) main_v11 main_c_3
  let main_v13 : IVec S_ 1 := andi main_v8 main_v12
  let main_v14 : FVec F S512x128 .f32 := Host.absf main_arg6
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg0 main_arg1 main_arg2 main_arg7 main_arg8 main_v13 main_v16
-- ==== Kernel.lean ====
abbrev S16384x50 : Shape := ⟨2, ![16384, 50]⟩
abbrev S16384 : Shape := ⟨1, ![16384]⟩
abbrev S30x128 : Shape := ⟨2, ![30, 128]⟩
abbrev S10x128 : Shape := ⟨2, ![10, 128]⟩
abbrev S512x128 : Shape := ⟨2, ![512, 128]⟩
abbrev S128 : Shape := ⟨1, ![128]⟩
abbrev S256x25x128 : Shape := ⟨3, ![256, 25, 128]⟩
abbrev S_ : Shape := ⟨0, ![]⟩
abbrev S819200 : Shape := ⟨1, ![819200]⟩
abbrev S78x128 : Shape := ⟨2, ![78, 128]⟩
abbrev S128x128 : Shape := ⟨2, ![128, 128]⟩
abbrev S50x128 : Shape := ⟨2, ![50, 128]⟩
abbrev S1x50x1x128 : Shape := ⟨4, ![1, 50, 1, 128]⟩
abbrev S64x50x1x128 : Shape := ⟨4, ![64, 50, 1, 128]⟩
abbrev S3200x128 : Shape := ⟨2, ![3200, 128]⟩
abbrev S1x128 : Shape := ⟨2, ![1, 128]⟩
abbrev S819200x128 : Shape := ⟨2, ![819200, 128]⟩
abbrev S1x25x128 : Shape := ⟨3, ![1, 25, 128]⟩
abbrev S1x1x128 : Shape := ⟨3, ![1, 1, 128]⟩
abbrev S128x1 : Shape := ⟨2, ![128, 1]⟩
abbrev S16384x50x128 : Shape := ⟨3, ![16384, 50, 128]⟩

abbrev nBuf : Space → Nat
  | .hbm => 31
  | .vmem => 12
  | .smem => 0
  | _ => 0

abbrev bufTy : (tb : Table) → Fin (tcTables nBuf tb) → BufTy
  | .hbm, ⟨0, _⟩ => ⟨S16384x50, .i32⟩
  | .hbm, ⟨1, _⟩ => ⟨S16384x50, .i32⟩
  | .hbm, ⟨2, _⟩ => ⟨S16384, .i32⟩
  | .hbm, ⟨3, _⟩ => ⟨S30x128, .f32⟩
  | .hbm, ⟨4, _⟩ => ⟨S10x128, .f32⟩
  | .hbm, ⟨5, _⟩ => ⟨S10x128, .f32⟩
  | .hbm, ⟨6, _⟩ => ⟨S512x128, .f32⟩
  | .hbm, ⟨7, _⟩ => ⟨S128, .f32⟩
  | .hbm, ⟨8, _⟩ => ⟨S128, .f32⟩
  | .hbm, ⟨9, _⟩ => ⟨S256x25x128, .i32⟩
  | .hbm, ⟨10, _⟩ => ⟨S256x25x128, .i32⟩
  | .hbm, ⟨11, _⟩ => ⟨S_, .i32⟩
  | .hbm, ⟨12, _⟩ => ⟨S256x25x128, .i32⟩
  | .hbm, ⟨13, _⟩ => ⟨S256x25x128, .i32⟩
  | .hbm, ⟨14, _⟩ => ⟨S16384x50, .i32⟩
  | .hbm, ⟨15, _⟩ => ⟨S819200, .i32⟩
  | .hbm, ⟨16, _⟩ => ⟨S256x25x128, .i32⟩
  | .hbm, ⟨17, _⟩ => ⟨S_, .i32⟩
  | .hbm, ⟨18, _⟩ => ⟨S256x25x128, .i32⟩
  | .hbm, ⟨19, _⟩ => ⟨S256x25x128, .i32⟩
  | .hbm, ⟨20, _⟩ => ⟨S_, .f32⟩
  | .hbm, ⟨21, _⟩ => ⟨S78x128, .f32⟩
  | .hbm, ⟨22, _⟩ => ⟨S128x128, .f32⟩
  | .hbm, ⟨23, _⟩ => ⟨S50x128, .f32⟩
  | .hbm, ⟨24, _⟩ => ⟨S1x50x1x128, .f32⟩
  | .hbm, ⟨25, _⟩ => ⟨S64x50x1x128, .f32⟩
  | .hbm, ⟨26, _⟩ => ⟨S3200x128, .f32⟩
  | .hbm, ⟨27, _⟩ => ⟨S1x128, .f32⟩
  | .hbm, ⟨28, _⟩ => ⟨S1x128, .f32⟩
  | .hbm, ⟨29, _⟩ => ⟨S819200x128, .f32⟩
  | .hbm, ⟨30, _⟩ => ⟨S16384x50x128, .f32⟩
  | .local _ .vmem, ⟨0, _⟩ => ⟨S1x25x128, .i32⟩
  | .local _ .vmem, ⟨1, _⟩ => ⟨S1x25x128, .i32⟩
  | .local _ .vmem, ⟨2, _⟩ => ⟨S1x25x128, .i32⟩
  | .local _ .vmem, ⟨3, _⟩ => ⟨S1x25x128, .i32⟩
  | .local _ .vmem, ⟨4, _⟩ => ⟨S1x25x128, .i32⟩
  | .local _ .vmem, ⟨5, _⟩ => ⟨S1x25x128, .i32⟩
  | .local _ .vmem, ⟨6, _⟩ => ⟨S128x128, .f32⟩
  | .local _ .vmem, ⟨7, _⟩ => ⟨S3200x128, .f32⟩
  | .local _ .vmem, ⟨8, _⟩ => ⟨S1x128, .f32⟩
  | .local _ .vmem, ⟨9, _⟩ => ⟨S1x128, .f32⟩
  | .local _ .vmem, ⟨10, _⟩ => ⟨S3200x128, .f32⟩
  | .local _ .vmem, ⟨11, _⟩ => ⟨S3200x128, .f32⟩
  | _, _ => ⟨S16384x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x25x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x25x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x25x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3200x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16384x50_S256x25x128 : S16384x50.ShapeCasts S256x25x128
  bcast_S_S256x25x128 : S_.BroadcastsInDim S256x25x128 (![] : Fin 0 → Fin S256x25x128.rank)
  bcast_S16384_S16384x50_0 : S16384.BroadcastsInDim S16384x50 (![0] : Fin 1 → Fin S16384x50.rank)
  shapeCasts_S16384x50_S819200 : S16384x50.ShapeCasts S819200
  shapeCasts_S819200_S256x25x128 : S819200.ShapeCasts S256x25x128
  bcast_S_S78x128 : S_.BroadcastsInDim S78x128 (![] : Fin 0 → Fin S78x128.rank)
  concatenates_S30x128_S10x128_S10x128_S78x128_S128x128_d0 : Shape.Concatenates [S30x128, S10x128, S10x128, S78x128] S128x128 0
  slices_S512x128_S50x128_0_0 : S512x128.Slices ![0, 0] S50x128
  shapeCasts_S50x128_S1x50x1x128 : S50x128.ShapeCasts S1x50x1x128
  bcast_S1x50x1x128_S64x50x1x128_0_1_2_3 : S1x50x1x128.BroadcastsInDim S64x50x1x128 (![0, 1, 2, 3] : Fin 4 → Fin S64x50x1x128.rank)
  shapeCasts_S64x50x1x128_S3200x128 : S64x50x1x128.ShapeCasts S3200x128
  shapeCasts_S128_S1x128 : S128.ShapeCasts S1x128
  iota_S128x128_d0_w32 : S128x128.Iotas .tc 32 [0]
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x25x128_S1x1x128_0_0_0 : ∀ a, (![0, 0, 0] : Fin 3 → Nat) a + S1x1x128.size a ≤ S1x25x128.size a
  h_S1x1x128 : 0 < S1x1x128.numel
  shapeCasts_S1x1x128_S1x128 : S1x1x128.ShapeCasts S1x128
  broadcasts_S1x128_S128x128 : S1x128.Broadcasts S128x128
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3200x128_S128x128_0_0 : ∀ a, (![0, 0] : Fin 2 → Nat) a + S128x128.size a ≤ S3200x128.size a
  reduces_S128x128_S128 : S128x128.Reduces [1] S128
  shapeCasts_S128_S128x1 : S128.ShapeCasts S128x1
  broadcasts_S128x1_S128x128 : S128x1.Broadcasts S128x128
  inb_S1x25x128_S1x1x128_0_1_0 : ∀ a, (![0, 1, 0] : Fin 3 → Nat) a + S1x1x128.size a ≤ S1x25x128.size a
  inb_S3200x128_S128x128_128_0 : ∀ a, (![128, 0] : Fin 2 → Nat) a + S128x128.size a ≤ S3200x128.size a
  inb_S1x25x128_S1x1x128_0_2_0 : ∀ a, (![0, 2, 0] : Fin 3 → Nat) a + S1x1x128.size a ≤ S1x25x128.size a
  inb_S3200x128_S128x128_256_0 : ∀ a, (![256, 0] : Fin 2 → Nat) a + S128x128.size a ≤ S3200x128.size a
  inb_S1x25x128_S1x1x128_0_3_0 : ∀ a, (![0, 3, 0] : Fin 3 → Nat) a + S1x1x128.size a ≤ S1x25x128.size a
  inb_S3200x128_S128x128_384_0 : ∀ a, (![384, 0] : Fin 2 → Nat) a + S128x128.size a ≤ S3200x128.size a
  inb_S1x25x128_S1x1x128_0_4_0 : ∀ a, (![0, 4, 0] : Fin 3 → Nat) a + S1x1x128.size a ≤ S1x25x128.size a
  inb_S3200x128_S128x128_512_0 : ∀ a, (![512, 0] : Fin 2 → Nat) a + S128x128.size a ≤ S3200x128.size a
  inb_S1x25x128_S1x1x128_0_5_0 : ∀ a, (![0, 5, 0] : Fin 3 → Nat) a + S1x1x128.size a ≤ S1x25x128.size a
  inb_S3200x128_S128x128_640_0 : ∀ a, (![640, 0] : Fin 2 → Nat) a + S128x128.size a ≤ S3200x128.size a
  inb_S1x25x128_S1x1x128_0_6_0 : ∀ a, (![0, 6, 0] : Fin 3 → Nat) a + S1x1x128.size a ≤ S1x25x128.size a
  inb_S3200x128_S128x128_768_0 : ∀ a, (![768, 0] : Fin 2 → Nat) a + S128x128.size a ≤ S3200x128.size a
  inb_S1x25x128_S1x1x128_0_7_0 : ∀ a, (![0, 7, 0] : Fin 3 → Nat) a + S1x1x128.size a ≤ S1x25x128.size a
  inb_S3200x128_S128x128_896_0 : ∀ a, (![896, 0] : Fin 2 → Nat) a + S128x128.size a ≤ S3200x128.size a
  inb_S1x25x128_S1x1x128_0_8_0 : ∀ a, (![0, 8, 0] : Fin 3 → Nat) a + S1x1x128.size a ≤ S1x25x128.size a
  inb_S3200x128_S128x128_1024_0 : ∀ a, (![1024, 0] : Fin 2 → Nat) a + S128x128.size a ≤ S3200x128.size a
  inb_S1x25x128_S1x1x128_0_9_0 : ∀ a, (![0, 9, 0] : Fin 3 → Nat) a + S1x1x128.size a ≤ S1x25x128.size a
  inb_S3200x128_S128x128_1152_0 : ∀ a, (![1152, 0] : Fin 2 → Nat) a + S128x128.size a ≤ S3200x128.size a
  inb_S1x25x128_S1x1x128_0_10_0 : ∀ a, (![0, 10, 0] : Fin 3 → Nat) a + S1x1x128.size a ≤ S1x25x128.size a
  inb_S3200x128_S128x128_1280_0 : ∀ a, (![1280, 0] : Fin 2 → Nat) a + S128x128.size a ≤ S3200x128.size a
  inb_S1x25x128_S1x1x128_0_11_0 : ∀ a, (![0, 11, 0] : Fin 3 → Nat) a + S1x1x128.size a ≤ S1x25x128.size a
  inb_S3200x128_S128x128_1408_0 : ∀ a, (![1408, 0] : Fin 2 → Nat) a + S128x128.size a ≤ S3200x128.size a
  inb_S1x25x128_S1x1x128_0_12_0 : ∀ a, (![0, 12, 0] : Fin 3 → Nat) a + S1x1x128.size a ≤ S1x25x128.size a
  inb_S3200x128_S128x128_1536_0 : ∀ a, (![1536, 0] : Fin 2 → Nat) a + S128x128.size a ≤ S3200x128.size a
  inb_S1x25x128_S1x1x128_0_13_0 : ∀ a, (![0, 13, 0] : Fin 3 → Nat) a + S1x1x128.size a ≤ S1x25x128.size a
  inb_S3200x128_S128x128_1664_0 : ∀ a, (![1664, 0] : Fin 2 → Nat) a + S128x128.size a ≤ S3200x128.size a
  inb_S1x25x128_S1x1x128_0_14_0 : ∀ a, (![0, 14, 0] : Fin 3 → Nat) a + S1x1x128.size a ≤ S1x25x128.size a
  inb_S3200x128_S128x128_1792_0 : ∀ a, (![1792, 0] : Fin 2 → Nat) a + S128x128.size a ≤ S3200x128.size a
  inb_S1x25x128_S1x1x128_0_15_0 : ∀ a, (![0, 15, 0] : Fin 3 → Nat) a + S1x1x128.size a ≤ S1x25x128.size a
  inb_S3200x128_S128x128_1920_0 : ∀ a, (![1920, 0] : Fin 2 → Nat) a + S128x128.size a ≤ S3200x128.size a
  inb_S1x25x128_S1x1x128_0_16_0 : ∀ a, (![0, 16, 0] : Fin 3 → Nat) a + S1x1x128.size a ≤ S1x25x128.size a
  inb_S3200x128_S128x128_2048_0 : ∀ a, (![2048, 0] : Fin 2 → Nat) a + S128x128.size a ≤ S3200x128.size a
  inb_S1x25x128_S1x1x128_0_17_0 : ∀ a, (![0, 17, 0] : Fin 3 → Nat) a + S1x1x128.size a ≤ S1x25x128.size a
  inb_S3200x128_S128x128_2176_0 : ∀ a, (![2176, 0] : Fin 2 → Nat) a + S128x128.size a ≤ S3200x128.size a
  inb_S1x25x128_S1x1x128_0_18_0 : ∀ a, (![0, 18, 0] : Fin 3 → Nat) a + S1x1x128.size a ≤ S1x25x128.size a
  inb_S3200x128_S128x128_2304_0 : ∀ a, (![2304, 0] : Fin 2 → Nat) a + S128x128.size a ≤ S3200x128.size a
  inb_S1x25x128_S1x1x128_0_19_0 : ∀ a, (![0, 19, 0] : Fin 3 → Nat) a + S1x1x128.size a ≤ S1x25x128.size a
  inb_S3200x128_S128x128_2432_0 : ∀ a, (![2432, 0] : Fin 2 → Nat) a + S128x128.size a ≤ S3200x128.size a
  inb_S1x25x128_S1x1x128_0_20_0 : ∀ a, (![0, 20, 0] : Fin 3 → Nat) a + S1x1x128.size a ≤ S1x25x128.size a
  inb_S3200x128_S128x128_2560_0 : ∀ a, (![2560, 0] : Fin 2 → Nat) a + S128x128.size a ≤ S3200x128.size a
  inb_S1x25x128_S1x1x128_0_21_0 : ∀ a, (![0, 21, 0] : Fin 3 → Nat) a + S1x1x128.size a ≤ S1x25x128.size a
  inb_S3200x128_S128x128_2688_0 : ∀ a, (![2688, 0] : Fin 2 → Nat) a + S128x128.size a ≤ S3200x128.size a
  inb_S1x25x128_S1x1x128_0_22_0 : ∀ a, (![0, 22, 0] : Fin 3 → Nat) a + S1x1x128.size a ≤ S1x25x128.size a
  inb_S3200x128_S128x128_2816_0 : ∀ a, (![2816, 0] : Fin 2 → Nat) a + S128x128.size a ≤ S3200x128.size a
  inb_S1x25x128_S1x1x128_0_23_0 : ∀ a, (![0, 23, 0] : Fin 3 → Nat) a + S1x1x128.size a ≤ S1x25x128.size a
  inb_S3200x128_S128x128_2944_0 : ∀ a, (![2944, 0] : Fin 2 → Nat) a + S128x128.size a ≤ S3200x128.size a
  inb_S1x25x128_S1x1x128_0_24_0 : ∀ a, (![0, 24, 0] : Fin 3 → Nat) a + S1x1x128.size a ≤ S1x25x128.size a
  inb_S3200x128_S128x128_3072_0 : ∀ a, (![3072, 0] : Fin 2 → Nat) a + S128x128.size a ≤ S3200x128.size a
  shapeCasts_S819200x128_S16384x50x128 : S819200x128.ShapeCasts S16384x50x128
  dot_S128x128_S128x128_S128x128_0_0_1_1_n_n_wf : DotDims.WF S128x128 S128x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25x128.size a ≤ S256x25x128.size a
  hwx0_0 : ∀ i : grid0.Coords, EltTy.bits .i32 = 32 ∨ (Rect.block (s := S256x25x128) S1x25x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x25x128.size a ≤ S256x25x128.size a
  hwx0_1 : ∀ i : grid0.Coords, EltTy.bits .i32 = 32 ∨ (Rect.block (s := S256x25x128) S1x25x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x25x128.size a ≤ S256x25x128.size a
  hwx0_2 : ∀ i : grid0.Coords, EltTy.bits .i32 = 32 ∨ (Rect.block (s := S256x25x128) S1x25x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3200x128.size a ≤ S3200x128.size a
  hwx0_4 : ∀ i : grid0.Coords, EltTy.bits .f32 = 32 ∨ (Rect.block (s := S3200x128) S3200x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x128.size a ≤ S819200x128.size a
  hwx0_7 : ∀ i : grid0.Coords, EltTy.bits .f32 = 32 ∨ (Rect.block (s := S819200x128) S3200x128.size (cc0_transform_7 i) (hinb0_7 i)).WholeWords (EltTy.packing .f32)

variable [Facts₀]

def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf

abbrev win0_0 : Pipeline.Window sig grid0 :=
  Pipeline.Window.ofSpec (Memref.whole main_v0) S1x25x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x25x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x25x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S3200x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S3200x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x50 : Shape := ⟨2, ![16384, 50]⟩
abbrev S16384 : Shape := ⟨1, ![16384]⟩
abbrev S30x128 : Shape := ⟨2, ![30, 128]⟩
abbrev S10x128 : Shape := ⟨2, ![10, 128]⟩
abbrev S512x128 : Shape := ⟨2, ![512, 128]⟩
abbrev S128 : Shape := ⟨1, ![128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x1x128 : Shape := ⟨3, ![16384, 1, 128]⟩
abbrev S16384x50x128 : Shape := ⟨3, ![16384, 50, 128]⟩
abbrev S16384x50x1 : Shape := ⟨3, ![16384, 50, 1]⟩
abbrev S1x1x1 : Shape := ⟨3, ![1, 1, 1]⟩
abbrev S50 : Shape := ⟨1, ![50]⟩
abbrev S50x1 : Shape := ⟨2, ![50, 1]⟩
abbrev S50x128 : Shape := ⟨2, ![50, 128]⟩
abbrev S1x50x128 : Shape := ⟨3, ![1, 50, 128]⟩
abbrev S1x1x128 : Shape := ⟨3, ![1, 1, 128]⟩

abbrev nBuf : Space → Nat
  | .hbm => 153
  | .vmem => 0
  | .smem => 0
  | _ => 0

abbrev hbmTy0_0 (i : Nat) : BufTy := match i % 128 with
  | 0 => ⟨S16384x50, .i32⟩
  | 1 => ⟨S16384x50, .i32⟩
  | 2 => ⟨S16384, .i32⟩
  | 3 => ⟨S30x128, .f32⟩
  | 4 => ⟨S10x128, .f32⟩
  | 5 => ⟨S10x128, .f32⟩
  | 6 => ⟨S512x128, .f32⟩
  | 7 => ⟨S128, .f32⟩
  | 8 => ⟨S128, .f32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S1, .i32⟩
  | 18 => ⟨S_, .i32⟩
  | 19 => ⟨S16384x1, .i32⟩
  | 20 => ⟨S16384x1, .i1⟩
  | 21 => ⟨S1x1, .i32⟩
  | 22 => ⟨S16384x1, .i32⟩
  | 23 => ⟨S16384x1, .i1⟩
  | 24 => ⟨S16384x1, .i1⟩
  | 25 => ⟨S_, .i1⟩
  | 26 => ⟨S16384, .i1⟩
  | 27 => ⟨S16384x128, .f32⟩
  | 28 => ⟨S16384x128, .i1⟩
  | 29 => ⟨S_, .f32⟩
  | 30 => ⟨S16384x128, .f32⟩
  | 31 => ⟨S16384x128, .f32⟩
  | 32 => ⟨S16384x1x128, .f32⟩
  | 33 => ⟨S16384x50x128, .f32⟩
  | 34 => ⟨S_, .i32⟩
  | 35 => ⟨S16384x50, .i32⟩
  | 36 => ⟨S16384x50, .i1⟩
  | 37 => ⟨S_, .i32⟩
  | 38 => ⟨S16384x50, .i32⟩
  | 39 => ⟨S16384x50, .i32⟩
  | 40 => ⟨S16384x50, .i32⟩
  | 41 => ⟨S16384x50x1, .i32⟩
  | 42 => ⟨S1, .i32⟩
  | 43 => ⟨S_, .i32⟩
  | 44 => ⟨S16384x50x1, .i32⟩
  | 45 => ⟨S16384x50x1, .i1⟩
  | 46 => ⟨S1x1x1, .i32⟩
  | 47 => ⟨S16384x50x1, .i32⟩
  | 48 => ⟨S16384x50x1, .i1⟩
  | 49 => ⟨S16384x50x1, .i1⟩
  | 50 => ⟨S_, .i1⟩
  | 51 => ⟨S16384x50, .i1⟩
  | 52 => ⟨S16384x50x128, .f32⟩
  | 53 => ⟨S16384x50x128, .i1⟩
  | 54 => ⟨S_, .f32⟩
  | 55 => ⟨S16384x50x128, .f32⟩
  | 56 => ⟨S16384x50x128, .f32⟩
  | 57 => ⟨S_, .i32⟩
  | 58 => ⟨S16384x50, .i32⟩
  | 59 => ⟨S16384x50, .i1⟩
  | 60 => ⟨S_, .i32⟩
  | 61 => ⟨S16384x50, .i32⟩
  | 62 => ⟨S16384x50, .i32⟩
  | 63 => ⟨S16384x50, .i32⟩
  | 64 => ⟨S16384x50x1, .i32⟩
  | 65 => ⟨S1, .i32⟩
  | 66 => ⟨S_, .i32⟩
  | 67 => ⟨S16384x50x1, .i32⟩
  | 68 => ⟨S16384x50x1, .i1⟩
  | 69 => ⟨S1x1x1, .i32⟩
  | 70 => ⟨S16384x50x1, .i32⟩
  | 71 => ⟨S16384x50x1, .i1⟩
  | 72 => ⟨S16384x50x1, .i1⟩
  | 73 => ⟨S_, .i1⟩
  | 74 => ⟨S16384x50, .i1⟩
  | 75 => ⟨S16384x50x128, .f32⟩
  | 76 => ⟨S16384x50x128, .i1⟩
  | 77 => ⟨S_, .f32⟩
  | 78 => ⟨S16384x50x128, .f32⟩
  | 79 => ⟨S16384x50x128, .f32⟩
  | 80 => ⟨S50, .i32⟩
  | 81 => ⟨S_, .i32⟩
  | 82 => ⟨S50, .i32⟩
  | 83 => ⟨S50, .i1⟩
  | 84 => ⟨S_, .i32⟩
  | 85 => ⟨S50, .i32⟩
  | 86 => ⟨S50, .i32⟩
  | 87 => ⟨S50, .i32⟩
  | 88 => ⟨S50x1, .i32⟩
  | 89 => ⟨S1, .i32⟩
  | 90 => ⟨S_, .i32⟩
  | 91 => ⟨S50x1, .i32⟩
  | 92 => ⟨S50x1, .i1⟩
  | 93 => ⟨S1x1, .i32⟩
  | 94 => ⟨S50x1, .i32⟩
  | 95 => ⟨S50x1, .i1⟩
  | 96 => ⟨S50x1, .i1⟩
  | 97 => ⟨S_, .i1⟩
  | 98 => ⟨S50, .i1⟩
  | 99 => ⟨S50x128, .f32⟩
  | 100 => ⟨S50x128, .i1⟩
  | 101 => ⟨S_, .f32⟩
  | 102 => ⟨S50x128, .f32⟩
  | 103 => ⟨S50x128, .f32⟩
  | 104 => ⟨S1x50x128, .f32⟩
  | 105 => ⟨S16384x50x128, .f32⟩
  | 106 => ⟨S16384x50x128, .f32⟩
  | 107 => ⟨S16384x50x128, .f32⟩
  | 108 => ⟨S16384x50x128, .f32⟩
  | 109 => ⟨S_, .f32⟩
  | 110 => ⟨S16384x50, .f32⟩
  | 111 => ⟨S16384x50x1, .f32⟩
  | 112 => ⟨S_, .f32⟩
  | 113 => ⟨S16384x50x1, .f32⟩
  | 114 => ⟨S16384x50x1, .f32⟩
  | 115 => ⟨S_, .i32⟩
  | 116 => ⟨S_, .f32⟩
  | 117 => ⟨S16384x50, .f32⟩
  | 118 => ⟨S16384x50x1, .f32⟩
  | 119 => ⟨S_, .f32⟩
  | 120 => ⟨S16384x50x1, .f32⟩
  | 121 => ⟨S16384x50x1, .f32⟩
  | 122 => ⟨S16384x50x128, .f32⟩
  | 123 => ⟨S16384x50x128, .f32⟩
  | 124 => ⟨S16384x50x128, .f32⟩
  | 125 => ⟨S_, .f32⟩
  | 126 => ⟨S_, .f32⟩
  | 127 => ⟨S_, .f32⟩
  | _ => ⟨S16384x50, .i32⟩

abbrev hbmTy0_1 (i : Nat) : BufTy := match i % 128 with
  | 0 => ⟨S_, .f32⟩
  | 1 => ⟨S16384x50, .f32⟩
  | 2 => ⟨S16384x50x1, .f32⟩
  | 3 => ⟨S16384x50x1, .f32⟩
  | 4 => ⟨S16384x50x1, .f32⟩
  | 5 => ⟨S_, .f32⟩
  | 6 => ⟨S_, .i1⟩
  | 7 => ⟨S_, .f32⟩
  | 8 => ⟨S_, .f32⟩
  | 9 => ⟨S16384x50x1, .f32⟩
  | 10 => ⟨S16384x50x1, .f32⟩
  | 11 => ⟨S16384x50x128, .f32⟩
  | 12 => ⟨S16384x50x128, .f32⟩
  | 13 => ⟨S_, .f32⟩
  | 14 => ⟨S16384x50x1, .f32⟩
  | 15 => ⟨S16384x50x1, .f32⟩
  | 16 => ⟨S16384x50x1, .f32⟩
  | 17 => ⟨S16384x50x128, .f32⟩
  | 18 => ⟨S16384x50x128, .f32⟩
  | 19 => ⟨S1x1x128, .f32⟩
  | 20 => ⟨S16384x50x128, .f32⟩
  | 21 => ⟨S16384x50x128, .f32⟩
  | 22 => ⟨S1x1x128, .f32⟩
  | 23 => ⟨S16384x50x128, .f32⟩
  | 24 => ⟨S16384x50x128, .f32⟩
  | _ => ⟨S16384x50, .i32⟩

abbrev hbmTy (i : Nat) : BufTy := match i / 128 with
  | 0 => hbmTy0_0 i
  | 1 => hbmTy0_1 i
  | _ => ⟨S16384x50, .i32⟩

abbrev bufTy : (tb : Table) → Fin (tcTables nBuf tb) → BufTy
  | .hbm, ⟨i, _⟩ => hbmTy i
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v3 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v4 : Ref sig .tc := ⟨.hbm, 79, rfl⟩
abbrev main_v5 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_call3_cst : Ref sig .tc := ⟨.hbm, 101, rfl⟩
abbrev main_call3_v15 : Ref sig .tc := ⟨.hbm, 102, rfl⟩
abbrev main_v6 : Ref sig .tc := ⟨.hbm, 103, rfl⟩
abbrev main_v7 : Ref sig .tc := ⟨.hbm, 104, rfl⟩
abbrev main_v8 : Ref sig .tc := ⟨.hbm, 105, rfl⟩
abbrev main_v9 : Ref sig .tc := ⟨.hbm, 106, rfl⟩
abbrev main_v10 : Ref sig .tc := ⟨.hbm, 107, rfl⟩
abbrev main_v11 : Ref sig .tc := ⟨.hbm, 108, rfl⟩
abbrev main_cst : Ref sig .tc := ⟨.hbm, 109, rfl⟩
abbrev main_v12 : Ref sig .tc := ⟨.hbm, 110, rfl⟩
abbrev main_v13 : Ref sig .tc := ⟨.hbm, 111, rfl⟩
abbrev main_cst_0 : Ref sig .tc := ⟨.hbm, 112, rfl⟩
abbrev main_v14 : Ref sig .tc := ⟨.hbm, 113, rfl⟩
abbrev main_v15 : Ref sig .tc := ⟨.hbm, 114, rfl⟩
abbrev main_c : Ref sig .tc := ⟨.hbm, 115, rfl⟩
abbrev main_call4_cst : Ref sig .tc := ⟨.hbm, 116, rfl⟩
abbrev main_call4_v0 : Ref sig .tc := ⟨.hbm, 117, rfl⟩
abbrev main_call4_v1 : Ref sig .tc := ⟨.hbm, 118, rfl⟩
abbrev main_call4_cst_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_v6 : Ref sig .tc := ⟨.hbm, 124, rfl⟩
abbrev main_call4_v7 : Ref sig .tc := ⟨.hbm, 125, rfl⟩
abbrev main_call4_cst_1 : Ref sig .tc := ⟨.hbm, 126, rfl⟩
abbrev main_call4_v8 : Ref sig .tc := ⟨.hbm, 127, rfl⟩
abbrev main_call4_cst_2 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_v12 : Ref sig .tc := ⟨.hbm, 132, rfl⟩
abbrev main_call4_cst_3 : Ref sig .tc := ⟨.hbm, 133, rfl⟩
abbrev main_call4_v13 : Ref sig .tc := ⟨.hbm, 134, rfl⟩
abbrev main_call4_cst_4 : Ref sig .tc := ⟨.hbm, 135, rfl⟩
abbrev main_call4_call0_v0 : Ref sig .tc := ⟨.hbm, 136, rfl⟩
abbrev main_call4_call0_v1 : Ref sig .tc := ⟨.hbm, 137, rfl⟩
abbrev main_v16 : Ref sig .tc := ⟨.hbm, 138, rfl⟩
abbrev main_v17 : Ref sig .tc := ⟨.hbm, 139, rfl⟩
abbrev main_v18 : Ref sig .tc := ⟨.hbm, 140, rfl⟩
abbrev main_cst_1 : Ref sig .tc := ⟨.hbm, 141, rfl⟩
abbrev main_v19 : Ref sig .tc := ⟨.hbm, 142, rfl⟩
abbrev main_v20 : Ref sig .tc := ⟨.hbm, 143, rfl⟩
abbrev main_v21 : Ref sig .tc := ⟨.hbm, 144, rfl⟩
abbrev main_v22 : Ref sig .tc := ⟨.hbm, 145, rfl⟩
abbrev main_v23 : Ref sig .tc := ⟨.hbm, 146, rfl⟩
abbrev main_v24 : Ref sig .tc := ⟨.hbm, 147, rfl⟩
abbrev main_v25 : Ref sig .tc := ⟨.hbm, 148, rfl⟩
abbrev main_v26 : Ref sig .tc := ⟨.hbm, 149, rfl⟩
abbrev main_v27 : Ref sig .tc := ⟨.hbm, 150, rfl⟩
abbrev main_v28 : Ref sig .tc := ⟨.hbm, 151, rfl⟩
abbrev main_v29 : Ref sig .tc := ⟨.hbm, 152, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bcast_S16384x128_S16384x1x128_0_2 : S16384x128.BroadcastsInDim S16384x1x128 (![0, 2] : Fin 2 → Fin S16384x1x128.rank)
  bcast_S16384x1x128_S16384x50x128_0_1_2 : S16384x1x128.BroadcastsInDim S16384x50x128 (![0, 1, 2] : Fin 3 → Fin S16384x50x128.rank)
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  bcast_S16384x50_S16384x50x128_0_1 : S16384x50.BroadcastsInDim S16384x50x128 (![0, 1] : Fin 2 → Fin S16384x50x128.rank)
  bcast_S_S16384x50x128 : S_.BroadcastsInDim S16384x50x128 (![] : Fin 0 → Fin S16384x50x128.rank)
  bcast_S_S50 : S_.BroadcastsInDim S50 (![] : Fin 0 → Fin S50.rank)
  bcast_S50_S50x1_0 : S50.BroadcastsInDim S50x1 (![0] : Fin 1 → Fin S50x1.rank)
  bcast_S_S50x1 : S_.BroadcastsInDim S50x1 (![] : Fin 0 → Fin S50x1.rank)
  bcast_S1x1_S50x1_0_1 : S1x1.BroadcastsInDim S50x1 (![0, 1] : Fin 2 → Fin S50x1.rank)
  reducesTo_S50x1_S50_d1 : S50x1.ReducesTo [1] S50
  bcast_S50_S50x128_0 : S50.BroadcastsInDim S50x128 (![0] : Fin 1 → Fin S50x128.rank)
  bcast_S_S50x128 : S_.BroadcastsInDim S50x128 (![] : Fin 0 → Fin S50x128.rank)
  bcast_S50x128_S1x50x128_1_2 : S50x128.BroadcastsInDim S1x50x128 (![1, 2] : Fin 2 → Fin S1x50x128.rank)
  bcast_S1x50x128_S16384x50x128_0_1_2 : S1x50x128.BroadcastsInDim S16384x50x128 (![0, 1, 2] : Fin 3 → Fin S16384x50x128.rank)
  reducesTo_S16384x50x128_S16384x50_d2 : S16384x50x128.ReducesTo [2] S16384x50
  bcast_S16384x50x1_S16384x50x128_0_1_2 : S16384x50x1.BroadcastsInDim S16384x50x128 (![0, 1, 2] : Fin 3 → Fin S16384x50x128.rank)
  bcast_S128_S1x1x128_2 : S128.BroadcastsInDim S1x1x128 (![2] : Fin 1 → Fin S1x1x128.rank)
  bcast_S1x1x128_S16384x50x128_0_1_2 : S1x1x128.BroadcastsInDim S16384x50x128 (![0, 1, 2] : Fin 3 → Fin S16384x50x128.rank)
  gather_S10x128_S16384x1_S16384x128_1_0_n_n_0_1_1128_wf : GatherDims.WF S10x128 S16384x1 S16384x128 [1] [0] [] [0] [] 1 ![1, 128]
  gather_S10x128_S16384x50x1_S16384x50x128_2_0_n_n_0_2_1128_wf : GatherDims.WF S10x128 S16384x50x1 S16384x50x128 [2] [0] [] [0] [] 2 ![1, 128]
  gather_S30x128_S16384x50x1_S16384x50x128_2_0_n_n_0_2_1128_wf : GatherDims.WF S30x128 S16384x50x1 S16384x50x128 [2] [0] [] [0] [] 2 ![1, 128]
  gather_S512x128_S50x1_S50x128_1_0_n_n_0_1_1128_wf : GatherDims.WF S512x128 S50x1 S50x128 [1] [0] [] [0] [] 1 ![1, 128]

variable [Facts₀]

def gather_S10x128_S16384x1_S16384x128_1_0_n_n_0_1_1128 : GatherDims S10x128 S16384x1 S16384x128 where
  offsetDims := [1]
  collapsedSliceDims := [0]
  operandBatchingDims := []
  startIndicesBatchingDims := []
  startIndexMap := [0]
  indexVectorDim := 1
  sliceSizes := ![1, 128]
  wf := gather_S10x128_S16384x1_S16384x128_1_0_n_n_0_1_1128_wf
def gather_S10x128_S16384x50x1_S16384x50x128_2_0_n_n_0_2_1128 : GatherDims S10x128 S16384x50x1 S16384x50x128 where
  offsetDims := [2]
  collapsedSliceDims := [0]
  operandBatchingDims := []
  startIndicesBatchingDims := []
  startIndexMap := [0]
  indexVectorDim := 2
  sliceSizes := ![1, 128]
  wf := gather_S10x128_S16384x50x1_S16384x50x128_2_0_n_n_0_2_1128_wf
def gather_S30x128_S16384x50x1_S16384x50x128_2_0_n_n_0_2_1128 : GatherDims S30x128 S16384x50x1 S16384x50x128 where
  offsetDims := [2]
  collapsedSliceDims := [0]
  operandBatchingDims := []
  startIndicesBatchingDims := []
  startIndexMap := [0]
  indexVectorDim := 2
  sliceSizes := ![1, 128]
  wf := gather_S30x128_S16384x50x1_S16384x50x128_2_0_n_n_0_2_1128_wf
def gather_S512x128_S50x1_S50x128_1_0_n_n_0_1_1128 : GatherDims S512x128 S50x1 S50x128 where
  offsetDims := [1]
  collapsedSliceDims := [0]
  operandBatchingDims := []
  startIndicesBatchingDims := []
  startIndexMap := [0]
  indexVectorDim := 1
  sliceSizes := ![1, 128]
  wf := gather_S512x128_S50x1_S50x128_1_0_n_n_0_1_1128_wf

class Facts : Prop extends Facts₀ where

variable [Facts]
-- ==== Proof.KHost.lean ====
/-
  The host side of the program around its one pipelined region.

  Before the region twenty array operations prepare the region's seven operands from the nine
  arguments (reshapes, the two index shifts, the repeated charge column, the table assembled from
  the three embedding tables and a zero block, the tiled position rows, the scale and shift rows);
  after it one reshape gives the result its final shape.  None of them writes an argument, and none
  of the later ones writes an array the region stages.  This module states what the region finds
  (`V`), reads each window's block off it (`iblk`), shows that every input window's staging buffer
  holds that block whenever the body runs, and derives the claim that the nine arguments end
  unchanged from a run of the whole program to the library's post.
-/
import proofs.«131727_g78563541778773_cont_9to1c4b_168_6_alg».proof.Proof.Gen.Kernel.Launch
import proofs.«131727_g78563541778773_cont_9to1c4b_168_6_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core `c`'s buffers hold when the region is entered: the launch contents carried through the
    twenty operations before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- The operations before the region allocate nothing. -/
theorem pre_fresh : (hostOps0 : List (HloOp τ sig (Elt F))).Forall fun op => op.fresh = ∅ := by
  simp only [List.Forall]; repeat' constructor
/-- Nor does the one after it. -/
theorem post_fresh : (hostOps1 : List (HloOp τ sig (Elt F))).Forall fun op => op.fresh = ∅ := by
  simp only [List.Forall]; repeat' constructor

/-- The program is its first twenty operations, then the region, then the last reshape: run from the launch
    memory it reaches the region at contents `V`, and goes on with the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- The reshape after the region touches only unscoped buffers of the core: arrays of the pipeline or buffers
    the pipeline leaves alone. -/
theorem tail_bufs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- It writes its own result only, which is none of the eight arrays the pipeline stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The nine arguments are written by no operation -/

/-- No operation before the region writes argument 0: the region finds it as it was at launch. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 0 is no array of the pipeline: it ends as it was at launch. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_arg0 m c

/-- No operation before the region writes argument 1: the region finds it as it was at launch. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 1 is no array of the pipeline: it ends as it was at launch. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_arg1 m c

/-- No operation before the region writes argument 2: the region finds it as it was at launch. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 2 is no array of the pipeline: it ends as it was at launch. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_arg2 m c

/-- No operation before the region writes argument 3: the region finds it as it was at launch. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 3 is no array of the pipeline: it ends as it was at launch. -/
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_arg3 m c

/-- No operation before the region writes argument 4: the region finds it as it was at launch. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 4 is no array of the pipeline: it ends as it was at launch. -/
theorem W_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_arg4 m c

/-- No operation before the region writes argument 5: the region finds it as it was at launch. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 5 is no array of the pipeline: it ends as it was at launch. -/
theorem W_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_arg5 m c

/-- No operation before the region writes argument 6: the region finds it as it was at launch. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 6 is no array of the pipeline: it ends as it was at launch. -/
theorem W_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_arg6 m c

/-- No operation before the region writes argument 7: the region finds it as it was at launch. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 7 is no array of the pipeline: it ends as it was at launch. -/
theorem W_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_arg7 m c

/-- No operation before the region writes argument 8: the region finds it as it was at launch. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 8 is no array of the pipeline: it ends as it was at launch. -/
theorem W_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_arg8 m c

/-! ## The windows' blocks -/

/-- Window `w`'s block at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: at every point its current staging buffer holds the window's block there, whether the
    pipeline fetched it at that point or an earlier fetch is still in place (the block index has then not moved). -/
theorem staged0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1: at every point its current staging buffer holds the window's block there, whether the
    pipeline fetched it at that point or an earlier fetch is still in place (the block index has then not moved). -/
theorem staged1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2: at every point its current staging buffer holds the window's block there, whether the
    pipeline fetched it at that point or an earlier fetch is still in place (the block index has then not moved). -/
theorem staged2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3: at every point its current staging buffer holds the window's block there, whether the
    pipeline fetched it at that point or an earlier fetch is still in place (the block index has then not moved). -/
theorem staged3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4: at every point its current staging buffer holds the window's block there, whether the
    pipeline fetched it at that point or an earlier fetch is still in place (the block index has then not moved). -/
theorem staged4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5: at every point its current staging buffer holds the window's block there, whether the
    pipeline fetched it at that point or an earlier fetch is still in place (the block index has then not moved). -/
theorem staged5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6: at every point its current staging buffer holds the window's block there, whether the
    pipeline fetched it at that point or an earlier fetch is still in place (the block index has then not moved). -/
theorem staged6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run of the program to the library's post — every staged array at what the proof data computes, every
    other unscoped buffer as the last reshape leaves it — the nine arguments end as they were launched: each is
    an unscoped buffer that is no array of the pipeline, written by no operation. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans (W_arg0 m dats c),
      ((h c).2 main_arg1 (Pipeline.mem_restRefs_of main_arg1 (by decide) (by decide))).trans (W_arg1 m dats c),
      ((h c).2 main_arg2 (Pipeline.mem_restRefs_of main_arg2 (by decide) (by decide))).trans (W_arg2 m dats c),
      ((h c).2 main_arg3 (Pipeline.mem_restRefs_of main_arg3 (by decide) (by decide))).trans (W_arg3 m dats c),
      ((h c).2 main_arg4 (Pipeline.mem_restRefs_of main_arg4 (by decide) (by decide))).trans (W_arg4 m dats c),
      ((h c).2 main_arg5 (Pipeline.mem_restRefs_of main_arg5 (by decide) (by decide))).trans (W_arg5 m dats c),
      ((h c).2 main_arg6 (Pipeline.mem_restRefs_of main_arg6 (by decide) (by decide))).trans (W_arg6 m dats c),
      ((h c).2 main_arg7 (Pipeline.mem_restRefs_of main_arg7 (by decide) (by decide))).trans (W_arg7 m dats c),
      ((h c).2 main_arg8 (Pipeline.mem_restRefs_of main_arg8 (by decide) (by decide))).trans (W_arg8 m dats c)⟩) h

end Cert.Kernel.Hand

end
-- ==== Proof.KChunk.lean ====
/-
  One chunk of the kernel's arithmetic as a pure function of the seven values the chunk loads.

  For a chunk of 128 rows the kernel holds, lane-major, the three index rows (token, decoration,
  charge; the last two already shifted by 30 and 40), the 128 x 128 table, the chunk's 128 rows of
  the position tile, and the scale and shift rows.  It forms the transposed one-hot matrix
      H[v, r] = [tok r = v] + [dec r = v] + [chg r = v]        (v the vocabulary id, r the row),
  contracts it with the table over v,
      e[r, d] = sum_v H[v, r] * tbl[v, d] + pos[r, d],
  and normalises every row over its 128 lanes:
      m[r] = (sum_d e[r, d]) / 128,   c = e - m,   s[r] = (sum_d c[r, d]^2) / 128,
      result[r, d] = c[r, d] * rsqrt (s[r] + eps) * g[d] + b[d].
  The definition below is that computation spelled with the very operations the printed body uses
  for its first chunk, in their order, so that it unfolds to the same term.
-/
import proofs.«131727_g78563541778773_cont_9to1c4b_168_6_alg».proof.Proof.Gen.Kernel

set_option synthInstance.maxSize 4096

noncomputable section

namespace Cert.Kernel.Hand

open Idealize.ShloMosaic Idealize.SL.Sem
open Cert.Kernel.Gen

variable {F : FTy → Type} [FloatOps F]

/-- The chunk's result from the three loaded index rows, the loaded table, the chunk's rows of the
    position tile and the loaded scale and shift rows. -/
def chunkF (tok dec chg : Vec F S1x1x128 .i32) (tbl pos : Vec F S128x128 .f32)
    (g b : Vec F S1x128 .f32) : FVec F S128x128 .f32 :=
  have v0 : IVec S128x128 32 := iota .tc S128x128 32 [0] iota_S128x128_d0_w32
  have v2 : FVec F S1x128 .f32 := shapeCast S1x128 g shapeCasts_S1x128_S1x128
  have v4 : FVec F S1x128 .f32 := shapeCast S1x128 b shapeCasts_S1x128_S1x128
  have v6 : IVec S1x128 32 := shapeCast S1x128 tok shapeCasts_S1x1x128_S1x128
  have v7 : IVec S1x128 32 := shapeCast S1x128 v6 shapeCasts_S1x128_S1x128
  have v8 : IVec S128x128 32 := broadcastTo S128x128 v7 broadcasts_S1x128_S128x128
  have v10 : IVec S1x128 32 := shapeCast S1x128 dec shapeCasts_S1x1x128_S1x128
  have v11 : IVec S1x128 32 := shapeCast S1x128 v10 shapeCasts_S1x128_S1x128
  have v12 : IVec S128x128 32 := broadcastTo S128x128 v11 broadcasts_S1x128_S128x128
  have v14 : IVec S1x128 32 := shapeCast S1x128 chg shapeCasts_S1x1x128_S1x128
  have v15 : IVec S1x128 32 := shapeCast S1x128 v14 shapeCasts_S1x128_S1x128
  have v16 : IVec S128x128 32 := broadcastTo S128x128 v15 broadcasts_S1x128_S128x128
  have v17 : IVec S128x128 1 := cmpi .eq v8 v0
  have v18 : IVec S128x128 32 := extui 32 v17 natLt_1_32
  have v19 : FVec F S128x128 .f32 := sitofp .f32 v18
  have v20 : IVec S128x128 1 := cmpi .eq v12 v0
  have v21 : IVec S128x128 32 := extui 32 v20 natLt_1_32
  have v22 : FVec F S128x128 .f32 := sitofp .f32 v21
  have v23 : FVec F S128x128 .f32 := addf v19 v22
  have v24 : IVec S128x128 1 := cmpi .eq v16 v0
  have v25 : IVec S128x128 32 := extui 32 v24 natLt_1_32
  have v26 : FVec F S128x128 .f32 := sitofp .f32 v25
  have v27 : FVec F S128x128 .f32 := addf v23 v26
  have v29 : FVec F S128x128 .f32 := shapeCast S128x128 tbl shapeCasts_S128x128_S128x128
  have cst : FVec F S128x128 .f32 := constant S128x128 .f32 0x00000000#32
  have v30 : FVec F S128x128 .f32 := matmul dot_S128x128_S128x128_S128x128_0_0_1_1_n_n none v27 v29 cst
  have v32 : FVec F S128x128 .f32 := shapeCast S128x128 pos shapeCasts_S128x128_S128x128
  have v33 : FVec F S128x128 .f32 := addf v30 v32
  have v34 : FVec F S128 .f32 := multiReduction .add [1] S128 v33 0x00000000#32 reduces_S128x128_S128 (.inl rfl) rfl
  have v35 : FVec F S128x1 .f32 := shapeCast S128x1 v34 shapeCasts_S128_S128x1
  have cst_17 : F .f32 := Scalar.ofBits .f32 0x43000000#32
  have v36 : FVec F S128x1 .f32 := broadcast S128x1 cst_17
  have v37 : FVec F S128x1 .f32 := divf v35 v36
  have v38 : FVec F S128x128 .f32 := broadcastTo S128x128 v37 broadcasts_S128x1_S128x128
  have v39 : FVec F S128x128 .f32 := subf v33 v38
  have v40 : FVec F S128x128 .f32 := mulf v39 v39
  have v41 : FVec F S128 .f32 := multiReduction .add [1] S128 v40 0x00000000#32 reduces_S128x128_S128 (.inl rfl) rfl
  have v42 : FVec F S128x1 .f32 := shapeCast S128x1 v41 shapeCasts_S128_S128x1
  have cst_19 : F .f32 := Scalar.ofBits .f32 0x43000000#32
  have v43 : FVec F S128x1 .f32 := broadcast S128x1 cst_19
  have v44 : FVec F S128x1 .f32 := divf v42 v43
  have cst_20 : F .f32 := Scalar.ofBits .f32 0x2B8CBCCC#32
  have v45 : FVec F S128x1 .f32 := broadcast S128x1 cst_20
  have v46 : FVec F S128x1 .f32 := addf v44 v45
  have v47 : FVec F S128x1 .f32 := rsqrt v46
  have v48 : FVec F S128x128 .f32 := broadcastTo S128x128 v47 broadcasts_S128x1_S128x128
  have v49 : FVec F S128x128 .f32 := mulf v39 v48
  have v50 : FVec F S128x128 .f32 := broadcastTo S128x128 v2 broadcasts_S1x128_S128x128
  have v51 : FVec F S128x128 .f32 := mulf v49 v50
  have v52 : FVec F S128x128 .f32 := broadcastTo S128x128 v4 broadcasts_S1x128_S128x128
  have v53 : FVec F S128x128 .f32 := addf v51 v52
  v53

end Cert.Kernel.Hand
-- ==== Proof.KBody.lean ====
/-
  The kernel body on its staging buffers.

  The body handles the block's 3200 rows in 25 chunks of 128.  For chunk k it reads row k of the
  three index blocks, the whole table, rows 128k .. 128k+127 of the position tile and the scale and
  shift rows, computes the chunk's result (`chunkF`) and stores it to rows 128k .. 128k+127 of the
  output buffer.  The 25 stores tile the output buffer, so what the buffer holds afterwards does not
  depend on what it held before: it is `out`, chunk k's result on rows 128k .. 128k+127.
-/
import proofs.«131727_g78563541778773_cont_9to1c4b_168_6_alg».proof.Proof.KChunk
import proofs.«131727_g78563541778773_cont_9to1c4b_168_6_alg».proof.Proof.Gen.Kernel.Skeleton
import proofs.«131727_g78563541778773_cont_9to1c4b_168_6_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The rectangles the body reads and writes -/

/-- The whole table, the whole scale (or shift) row. -/
abbrev rTbl : Rect S128x128 := Rect.unit (s := S128x128) ![0, 0] S128x128.size inb_S128x128_S128x128_0_0
abbrev rRow : Rect S1x128 := Rect.unit (s := S1x128) ![0, 0] S1x128.size inb_S1x128_S1x128_0_0
/-- Row k of an index block; rows 128k .. 128k+127 of the position tile and of the output buffer. -/
abbrev rTok0 : Rect S1x25x128 := Rect.unit (s := S1x25x128) ![0, 0, 0] S1x1x128.size inb_S1x25x128_S1x1x128_0_0_0
abbrev rPos0 : Rect S3200x128 := Rect.unit (s := S3200x128) ![0, 0] S128x128.size inb_S3200x128_S128x128_0_0
abbrev rTok1 : Rect S1x25x128 := Rect.unit (s := S1x25x128) ![0, 1, 0] S1x1x128.size inb_S1x25x128_S1x1x128_0_1_0
abbrev rPos1 : Rect S3200x128 := Rect.unit (s := S3200x128) ![128, 0] S128x128.size inb_S3200x128_S128x128_128_0
abbrev rTok2 : Rect S1x25x128 := Rect.unit (s := S1x25x128) ![0, 2, 0] S1x1x128.size inb_S1x25x128_S1x1x128_0_2_0
abbrev rPos2 : Rect S3200x128 := Rect.unit (s := S3200x128) ![256, 0] S128x128.size inb_S3200x128_S128x128_256_0
abbrev rTok3 : Rect S1x25x128 := Rect.unit (s := S1x25x128) ![0, 3, 0] S1x1x128.size inb_S1x25x128_S1x1x128_0_3_0
abbrev rPos3 : Rect S3200x128 := Rect.unit (s := S3200x128) ![384, 0] S128x128.size inb_S3200x128_S128x128_384_0
abbrev rTok4 : Rect S1x25x128 := Rect.unit (s := S1x25x128) ![0, 4, 0] S1x1x128.size inb_S1x25x128_S1x1x128_0_4_0
abbrev rPos4 : Rect S3200x128 := Rect.unit (s := S3200x128) ![512, 0] S128x128.size inb_S3200x128_S128x128_512_0
abbrev rTok5 : Rect S1x25x128 := Rect.unit (s := S1x25x128) ![0, 5, 0] S1x1x128.size inb_S1x25x128_S1x1x128_0_5_0
abbrev rPos5 : Rect S3200x128 := Rect.unit (s := S3200x128) ![640, 0] S128x128.size inb_S3200x128_S128x128_640_0
abbrev rTok6 : Rect S1x25x128 := Rect.unit (s := S1x25x128) ![0, 6, 0] S1x1x128.size inb_S1x25x128_S1x1x128_0_6_0
abbrev rPos6 : Rect S3200x128 := Rect.unit (s := S3200x128) ![768, 0] S128x128.size inb_S3200x128_S128x128_768_0
abbrev rTok7 : Rect S1x25x128 := Rect.unit (s := S1x25x128) ![0, 7, 0] S1x1x128.size inb_S1x25x128_S1x1x128_0_7_0
abbrev rPos7 : Rect S3200x128 := Rect.unit (s := S3200x128) ![896, 0] S128x128.size inb_S3200x128_S128x128_896_0
abbrev rTok8 : Rect S1x25x128 := Rect.unit (s := S1x25x128) ![0, 8, 0] S1x1x128.size inb_S1x25x128_S1x1x128_0_8_0
abbrev rPos8 : Rect S3200x128 := Rect.unit (s := S3200x128) ![1024, 0] S128x128.size inb_S3200x128_S128x128_1024_0
abbrev rTok9 : Rect S1x25x128 := Rect.unit (s := S1x25x128) ![0, 9, 0] S1x1x128.size inb_S1x25x128_S1x1x128_0_9_0
abbrev rPos9 : Rect S3200x128 := Rect.unit (s := S3200x128) ![1152, 0] S128x128.size inb_S3200x128_S128x128_1152_0
abbrev rTok10 : Rect S1x25x128 := Rect.unit (s := S1x25x128) ![0, 10, 0] S1x1x128.size inb_S1x25x128_S1x1x128_0_10_0
abbrev rPos10 : Rect S3200x128 := Rect.unit (s := S3200x128) ![1280, 0] S128x128.size inb_S3200x128_S128x128_1280_0
abbrev rTok11 : Rect S1x25x128 := Rect.unit (s := S1x25x128) ![0, 11, 0] S1x1x128.size inb_S1x25x128_S1x1x128_0_11_0
abbrev rPos11 : Rect S3200x128 := Rect.unit (s := S3200x128) ![1408, 0] S128x128.size inb_S3200x128_S128x128_1408_0
abbrev rTok12 : Rect S1x25x128 := Rect.unit (s := S1x25x128) ![0, 12, 0] S1x1x128.size inb_S1x25x128_S1x1x128_0_12_0
abbrev rPos12 : Rect S3200x128 := Rect.unit (s := S3200x128) ![1536, 0] S128x128.size inb_S3200x128_S128x128_1536_0
abbrev rTok13 : Rect S1x25x128 := Rect.unit (s := S1x25x128) ![0, 13, 0] S1x1x128.size inb_S1x25x128_S1x1x128_0_13_0
abbrev rPos13 : Rect S3200x128 := Rect.unit (s := S3200x128) ![1664, 0] S128x128.size inb_S3200x128_S128x128_1664_0
abbrev rTok14 : Rect S1x25x128 := Rect.unit (s := S1x25x128) ![0, 14, 0] S1x1x128.size inb_S1x25x128_S1x1x128_0_14_0
abbrev rPos14 : Rect S3200x128 := Rect.unit (s := S3200x128) ![1792, 0] S128x128.size inb_S3200x128_S128x128_1792_0
abbrev rTok15 : Rect S1x25x128 := Rect.unit (s := S1x25x128) ![0, 15, 0] S1x1x128.size inb_S1x25x128_S1x1x128_0_15_0
abbrev rPos15 : Rect S3200x128 := Rect.unit (s := S3200x128) ![1920, 0] S128x128.size inb_S3200x128_S128x128_1920_0
abbrev rTok16 : Rect S1x25x128 := Rect.unit (s := S1x25x128) ![0, 16, 0] S1x1x128.size inb_S1x25x128_S1x1x128_0_16_0
abbrev rPos16 : Rect S3200x128 := Rect.unit (s := S3200x128) ![2048, 0] S128x128.size inb_S3200x128_S128x128_2048_0
abbrev rTok17 : Rect S1x25x128 := Rect.unit (s := S1x25x128) ![0, 17, 0] S1x1x128.size inb_S1x25x128_S1x1x128_0_17_0
abbrev rPos17 : Rect S3200x128 := Rect.unit (s := S3200x128) ![2176, 0] S128x128.size inb_S3200x128_S128x128_2176_0
abbrev rTok18 : Rect S1x25x128 := Rect.unit (s := S1x25x128) ![0, 18, 0] S1x1x128.size inb_S1x25x128_S1x1x128_0_18_0
abbrev rPos18 : Rect S3200x128 := Rect.unit (s := S3200x128) ![2304, 0] S128x128.size inb_S3200x128_S128x128_2304_0
abbrev rTok19 : Rect S1x25x128 := Rect.unit (s := S1x25x128) ![0, 19, 0] S1x1x128.size inb_S1x25x128_S1x1x128_0_19_0
abbrev rPos19 : Rect S3200x128 := Rect.unit (s := S3200x128) ![2432, 0] S128x128.size inb_S3200x128_S128x128_2432_0
abbrev rTok20 : Rect S1x25x128 := Rect.unit (s := S1x25x128) ![0, 20, 0] S1x1x128.size inb_S1x25x128_S1x1x128_0_20_0
abbrev rPos20 : Rect S3200x128 := Rect.unit (s := S3200x128) ![2560, 0] S128x128.size inb_S3200x128_S128x128_2560_0
abbrev rTok21 : Rect S1x25x128 := Rect.unit (s := S1x25x128) ![0, 21, 0] S1x1x128.size inb_S1x25x128_S1x1x128_0_21_0
abbrev rPos21 : Rect S3200x128 := Rect.unit (s := S3200x128) ![2688, 0] S128x128.size inb_S3200x128_S128x128_2688_0
abbrev rTok22 : Rect S1x25x128 := Rect.unit (s := S1x25x128) ![0, 22, 0] S1x1x128.size inb_S1x25x128_S1x1x128_0_22_0
abbrev rPos22 : Rect S3200x128 := Rect.unit (s := S3200x128) ![2816, 0] S128x128.size inb_S3200x128_S128x128_2816_0
abbrev rTok23 : Rect S1x25x128 := Rect.unit (s := S1x25x128) ![0, 23, 0] S1x1x128.size inb_S1x25x128_S1x1x128_0_23_0
abbrev rPos23 : Rect S3200x128 := Rect.unit (s := S3200x128) ![2944, 0] S128x128.size inb_S3200x128_S128x128_2944_0
abbrev rTok24 : Rect S1x25x128 := Rect.unit (s := S1x25x128) ![0, 24, 0] S1x1x128.size inb_S1x25x128_S1x1x128_0_24_0
abbrev rPos24 : Rect S3200x128 := Rect.unit (s := S3200x128) ![3072, 0] S128x128.size inb_S3200x128_S128x128_3072_0

/-! ## What the body leaves in the output buffer -/

/-- The output buffer after the body, from the seven input blocks: the 25 stores as pieces, the last store first,
    chunk k's piece the chunk's result over rows 128k .. 128k+127. -/
def out (x0 x1 x2 : Vec F S1x25x128 .i32) (x3 : Vec F S128x128 .f32) (x4 : Vec F S3200x128 .f32)
    (x5 x6 : Vec F S1x128 .f32) : Vec F S3200x128 .f32 :=
  View.canon [
    ⟨rPos24, chunkF (View.ld x0 rTok24) (View.ld x1 rTok24) (View.ld x2 rTok24) (View.ld x3 rTbl) (View.ld x4 rPos24) (View.ld x5 rRow) (View.ld x6 rRow)⟩,
    ⟨rPos23, chunkF (View.ld x0 rTok23) (View.ld x1 rTok23) (View.ld x2 rTok23) (View.ld x3 rTbl) (View.ld x4 rPos23) (View.ld x5 rRow) (View.ld x6 rRow)⟩,
    ⟨rPos22, chunkF (View.ld x0 rTok22) (View.ld x1 rTok22) (View.ld x2 rTok22) (View.ld x3 rTbl) (View.ld x4 rPos22) (View.ld x5 rRow) (View.ld x6 rRow)⟩,
    ⟨rPos21, chunkF (View.ld x0 rTok21) (View.ld x1 rTok21) (View.ld x2 rTok21) (View.ld x3 rTbl) (View.ld x4 rPos21) (View.ld x5 rRow) (View.ld x6 rRow)⟩,
    ⟨rPos20, chunkF (View.ld x0 rTok20) (View.ld x1 rTok20) (View.ld x2 rTok20) (View.ld x3 rTbl) (View.ld x4 rPos20) (View.ld x5 rRow) (View.ld x6 rRow)⟩,
    ⟨rPos19, chunkF (View.ld x0 rTok19) (View.ld x1 rTok19) (View.ld x2 rTok19) (View.ld x3 rTbl) (View.ld x4 rPos19) (View.ld x5 rRow) (View.ld x6 rRow)⟩,
    ⟨rPos18, chunkF (View.ld x0 rTok18) (View.ld x1 rTok18) (View.ld x2 rTok18) (View.ld x3 rTbl) (View.ld x4 rPos18) (View.ld x5 rRow) (View.ld x6 rRow)⟩,
    ⟨rPos17, chunkF (View.ld x0 rTok17) (View.ld x1 rTok17) (View.ld x2 rTok17) (View.ld x3 rTbl) (View.ld x4 rPos17) (View.ld x5 rRow) (View.ld x6 rRow)⟩,
    ⟨rPos16, chunkF (View.ld x0 rTok16) (View.ld x1 rTok16) (View.ld x2 rTok16) (View.ld x3 rTbl) (View.ld x4 rPos16) (View.ld x5 rRow) (View.ld x6 rRow)⟩,
    ⟨rPos15, chunkF (View.ld x0 rTok15) (View.ld x1 rTok15) (View.ld x2 rTok15) (View.ld x3 rTbl) (View.ld x4 rPos15) (View.ld x5 rRow) (View.ld x6 rRow)⟩,
    ⟨rPos14, chunkF (View.ld x0 rTok14) (View.ld x1 rTok14) (View.ld x2 rTok14) (View.ld x3 rTbl) (View.ld x4 rPos14) (View.ld x5 rRow) (View.ld x6 rRow)⟩,
    ⟨rPos13, chunkF (View.ld x0 rTok13) (View.ld x1 rTok13) (View.ld x2 rTok13) (View.ld x3 rTbl) (View.ld x4 rPos13) (View.ld x5 rRow) (View.ld x6 rRow)⟩,
    ⟨rPos12, chunkF (View.ld x0 rTok12) (View.ld x1 rTok12) (View.ld x2 rTok12) (View.ld x3 rTbl) (View.ld x4 rPos12) (View.ld x5 rRow) (View.ld x6 rRow)⟩,
    ⟨rPos11, chunkF (View.ld x0 rTok11) (View.ld x1 rTok11) (View.ld x2 rTok11) (View.ld x3 rTbl) (View.ld x4 rPos11) (View.ld x5 rRow) (View.ld x6 rRow)⟩,
    ⟨rPos10, chunkF (View.ld x0 rTok10) (View.ld x1 rTok10) (View.ld x2 rTok10) (View.ld x3 rTbl) (View.ld x4 rPos10) (View.ld x5 rRow) (View.ld x6 rRow)⟩,
    ⟨rPos9, chunkF (View.ld x0 rTok9) (View.ld x1 rTok9) (View.ld x2 rTok9) (View.ld x3 rTbl) (View.ld x4 rPos9) (View.ld x5 rRow) (View.ld x6 rRow)⟩,
    ⟨rPos8, chunkF (View.ld x0 rTok8) (View.ld x1 rTok8) (View.ld x2 rTok8) (View.ld x3 rTbl) (View.ld x4 rPos8) (View.ld x5 rRow) (View.ld x6 rRow)⟩,
    ⟨rPos7, chunkF (View.ld x0 rTok7) (View.ld x1 rTok7) (View.ld x2 rTok7) (View.ld x3 rTbl) (View.ld x4 rPos7) (View.ld x5 rRow) (View.ld x6 rRow)⟩,
    ⟨rPos6, chunkF (View.ld x0 rTok6) (View.ld x1 rTok6) (View.ld x2 rTok6) (View.ld x3 rTbl) (View.ld x4 rPos6) (View.ld x5 rRow) (View.ld x6 rRow)⟩,
    ⟨rPos5, chunkF (View.ld x0 rTok5) (View.ld x1 rTok5) (View.ld x2 rTok5) (View.ld x3 rTbl) (View.ld x4 rPos5) (View.ld x5 rRow) (View.ld x6 rRow)⟩,
    ⟨rPos4, chunkF (View.ld x0 rTok4) (View.ld x1 rTok4) (View.ld x2 rTok4) (View.ld x3 rTbl) (View.ld x4 rPos4) (View.ld x5 rRow) (View.ld x6 rRow)⟩,
    ⟨rPos3, chunkF (View.ld x0 rTok3) (View.ld x1 rTok3) (View.ld x2 rTok3) (View.ld x3 rTbl) (View.ld x4 rPos3) (View.ld x5 rRow) (View.ld x6 rRow)⟩,
    ⟨rPos2, chunkF (View.ld x0 rTok2) (View.ld x1 rTok2) (View.ld x2 rTok2) (View.ld x3 rTbl) (View.ld x4 rPos2) (View.ld x5 rRow) (View.ld x6 rRow)⟩,
    ⟨rPos1, chunkF (View.ld x0 rTok1) (View.ld x1 rTok1) (View.ld x2 rTok1) (View.ld x3 rTbl) (View.ld x4 rPos1) (View.ld x5 rRow) (View.ld x6 rRow)⟩,
    ⟨rPos0, chunkF (View.ld x0 rTok0) (View.ld x1 rTok0) (View.ld x2 rTok0) (View.ld x3 rTbl) (View.ld x4 rPos0) (View.ld x5 rRow) (View.ld x6 rRow)⟩]

/-- The 25 stores tile the output buffer in blocks of 128 rows, so every element lies in one of them. -/
theorem cover (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (p15 : Vec F S128x128 .f32) (p16 : Vec F S128x128 .f32) (p17 : Vec F S128x128 .f32) (p18 : Vec F S128x128 .f32) (p19 : Vec F S128x128 .f32) (p20 : Vec F S128x128 .f32) (p21 : Vec F S128x128 .f32) (p22 : Vec F S128x128 .f32) (p23 : Vec F S128x128 .f32) (p24 : Vec F S128x128 .f32) (y : S3200x128.Idx) :
    ∃ pc ∈ ([⟨rPos24, p24⟩, ⟨rPos23, p23⟩, ⟨rPos22, p22⟩, ⟨rPos21, p21⟩, ⟨rPos20, p20⟩, ⟨rPos19, p19⟩, ⟨rPos18, p18⟩, ⟨rPos17, p17⟩, ⟨rPos16, p16⟩, ⟨rPos15, p15⟩, ⟨rPos14, p14⟩, ⟨rPos13, p13⟩, ⟨rPos12, p12⟩, ⟨rPos11, p11⟩, ⟨rPos10, p10⟩, ⟨rPos9, p9⟩, ⟨rPos8, p8⟩, ⟨rPos7, p7⟩, ⟨rPos6, p6⟩, ⟨rPos5, p5⟩, ⟨rPos4, p4⟩, ⟨rPos3, p3⟩, ⟨rPos2, p2⟩, ⟨rPos1, p1⟩, ⟨rPos0, p0⟩] : List (View.Piece (Elt F) S3200x128 .f32)), y ∈ pc.1.set :=
  View.cover_of_tiled [⟨rPos24, p24⟩, ⟨rPos23, p23⟩, ⟨rPos22, p22⟩, ⟨rPos21, p21⟩, ⟨rPos20, p20⟩, ⟨rPos19, p19⟩, ⟨rPos18, p18⟩, ⟨rPos17, p17⟩, ⟨rPos16, p16⟩, ⟨rPos15, p15⟩, ⟨rPos14, p14⟩, ⟨rPos13, p13⟩, ⟨rPos12, p12⟩, ⟨rPos11, p11⟩, ⟨rPos10, p10⟩, ⟨rPos9, p9⟩, ⟨rPos8, p8⟩, ⟨rPos7, p7⟩, ⟨rPos6, p6⟩, ⟨rPos5, p5⟩, ⟨rPos4, p4⟩, ⟨rPos3, p3⟩, ⟨rPos2, p2⟩, ⟨rPos1, p1⟩, ⟨rPos0, p0⟩] S128x128.size (by rfl) y

/-! ## The body's triple -/

set_option maxHeartbeats 4000000 in
/-- The body on whole staging memrefs — the seven inputs' held at contents read as `x0 … x6`, the output's at
    anything — runs to its continuation with the inputs' as they were and the output's read as `out x0 … x6`:
    every load reads its rectangle of an unchanged input (the output buffer's loaded values are used nowhere),
    and the 25 stores, which cover the output buffer, leave the chunk results whatever it held before. -/
theorem sound_kernel (c : Dev nD) (E : Set ℕ) (i : grid0.Coords) (arg1 : Memref sig .tc .vmem S1x25x128 .i32) (harg1 : arg1.IsWhole) (arg2 : Memref sig .tc .vmem S1x25x128 .i32) (harg2 : arg2.IsWhole) (arg3 : Memref sig .tc .vmem S1x25x128 .i32) (harg3 : arg3.IsWhole) (arg4 : Memref sig .tc .vmem S128x128 .f32) (harg4 : arg4.IsWhole) (arg5 : Memref sig .tc .vmem S3200x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S3200x128 .f32) (harg8 : arg8.IsWhole)
    (x0 x1 x2 : Vec F S1x25x128 .i32) (x3 : Vec F S128x128 .f32) (x4 : Vec F S3200x128 .f32) (x5 x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out x0 x1 x2 x3 x4 x5 x6)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _ _ _ _ _ _ _ _ _ _ _ _ _ _ _ _ _ _ _ _ _ _ _ _ _)

end Cert.Kernel.Hand

end
-- ==== Proof.KRun.lean ====
/-
  The whole program's run.

  The proof data of the one pipeline says what each window's staging buffer holds after the body at
  each of the 256 grid points: an input window's buffer its block, the output window's buffer the
  25 chunk results over the seven input blocks.  With the body's triple at a generic point this
  gives the library's run of the program around its region, and from it the nine arguments end
  unchanged.
-/
import proofs.«131727_g78563541778773_cont_9to1c4b_168_6_alg».proof.Proof.KHost
import proofs.«131727_g78563541778773_cont_9to1c4b_168_6_alg».proof.Proof.KBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the eight arrays as the region finds them; after the body at grid point `t` each input
    window's staging buffer still at the window's block there, and the output window's at `out` of the seven
    input blocks; between points the buffers the pipeline does not stage and the generator register, untouched;
    full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the record projected, nothing unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out (iblk m c 0 t) (iblk m c 1 t) (iblk m c 2 t) (iblk m c 3 t) (iblk m c 4 t) (iblk m c 5 t) (iblk m c 6 t) := by dsimp only [dats]

/-- Every input window's current staging buffer holds its block when the body runs. -/
theorem before0 (c : Dev nD) (t : Fin cfg0.N) (d) : (dats m 0 c).before 0 t d = iblk m c 0 t :=
  staged0 m (dats m 0 c) (A_eq m c 0) (after0 m c) t d
theorem before1 (c : Dev nD) (t : Fin cfg0.N) (d) : (dats m 0 c).before 1 t d = iblk m c 1 t :=
  staged1 m (dats m 0 c) (A_eq m c 1) (after1 m c) t d
theorem before2 (c : Dev nD) (t : Fin cfg0.N) (d) : (dats m 0 c).before 2 t d = iblk m c 2 t :=
  staged2 m (dats m 0 c) (A_eq m c 2) (after2 m c) t d
theorem before3 (c : Dev nD) (t : Fin cfg0.N) (d) : (dats m 0 c).before 3 t d = iblk m c 3 t :=
  staged3 m (dats m 0 c) (A_eq m c 3) (after3 m c) t d
theorem before4 (c : Dev nD) (t : Fin cfg0.N) (d) : (dats m 0 c).before 4 t d = iblk m c 4 t :=
  staged4 m (dats m 0 c) (A_eq m c 4) (after4 m c) t d
theorem before5 (c : Dev nD) (t : Fin cfg0.N) (d) : (dats m 0 c).before 5 t d = iblk m c 5 t :=
  staged5 m (dats m 0 c) (A_eq m c 5) (after5 m c) t d
theorem before6 (c : Dev nD) (t : Fin cfg0.N) (d) : (dats m 0 c).before 6 t d = iblk m c 6 t :=
  staged6 m (dats m 0 c) (A_eq m c 6) (after6 m c) t d

/-! ## The body at a grid point -/

/-- What the body is called with at point `t`: the invariant, the core's debts, and each window's current
    staging buffer at what the pipeline left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns: the same with each buffer at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the body's triple applies; the invariant and
    the debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's obligation on the body, at every point. -/
theorem body_obligation (c : Dev nD) : BodyObligation (dats (F := F) m 0 c) (defs₀ (F := F)) Variants.none () Set.univ := fun t => by
  rw [bigSep_W0, bigSep_W0]
  exact sound_body m c t

/-! ## The run, and the arguments unchanged -/

set_option backward.isDefEq.respectTransparency.types false in
/-- From any launch memory with zero semaphore counters every weakly fair execution of the program terminates
    without fault, every staged array ending at what the proof data computes and every other unscoped buffer as
    the last reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_bufs) (hfresh := tail_fresh) (hkeep := tail_keeps)
    (hmain := hmain m Variants.none) (hA := A_eq m) (hΦ := fun _ _ => rfl)

/-- The program runs, and its nine arguments end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.Kernel.Hand

end
-- ==== Proof.KIChunk.lean ====
/-
  One chunk of the kernel's arithmetic as a pure function of the seven values the chunk loads.

  For a chunk of 128 rows the kernel holds, lane-major, the three index rows (token, decoration,
  charge; the last two already shifted by 30 and 40), the 128 x 128 table, the chunk's 128 rows of
  the position tile, and the scale and shift rows.  It forms the transposed one-hot matrix
      H[v, r] = [tok r = v] + [dec r = v] + [chg r = v]        (v the vocabulary id, r the row),
  contracts it with the table over v,
      e[r, d] = sum_v H[v, r] * tbl[v, d] + pos[r, d],
  and normalises every row over its 128 lanes:
      m[r] = (sum_d e[r, d]) / 128,   c = e - m,   s[r] = (sum_d c[r, d]^2) / 128,
      result[r, d] = c[r, d] * rsqrt (s[r] + eps) * g[d] + b[d].
  The definition below is that computation spelled with the very operations the printed body uses
  for its first chunk, in their order, so that it unfolds to the same term.
-/
import proofs.«131727_g78563541778773_cont_9to1c4b_168_6_alg».proof.Proof.Gen.KernelIdeal

set_option synthInstance.maxSize 4096

noncomputable section

namespace Cert.KernelIdeal.Hand

open Idealize.ShloMosaic Idealize.SL.Sem
open Cert.KernelIdeal.Gen

variable {F : FTy → Type} [FloatOps F]

/-- The chunk's result from the three loaded index rows, the loaded table, the chunk's rows of the
    position tile and the loaded scale and shift rows. -/
def chunkF (tok dec chg : Vec F S1x1x128 .i32) (tbl pos : Vec F S128x128 .f32)
    (g b : Vec F S1x128 .f32) : FVec F S128x128 .f32 :=
  have v0 : IVec S128x128 32 := iota .tc S128x128 32 [0] iota_S128x128_d0_w32
  have v2 : FVec F S1x128 .f32 := shapeCast S1x128 g shapeCasts_S1x128_S1x128
  have v4 : FVec F S1x128 .f32 := shapeCast S1x128 b shapeCasts_S1x128_S1x128
  have v6 : IVec S1x128 32 := shapeCast S1x128 tok shapeCasts_S1x1x128_S1x128
  have v7 : IVec S1x128 32 := shapeCast S1x128 v6 shapeCasts_S1x128_S1x128
  have v8 : IVec S128x128 32 := broadcastTo S128x128 v7 broadcasts_S1x128_S128x128
  have v10 : IVec S1x128 32 := shapeCast S1x128 dec shapeCasts_S1x1x128_S1x128
  have v11 : IVec S1x128 32 := shapeCast S1x128 v10 shapeCasts_S1x128_S1x128
  have v12 : IVec S128x128 32 := broadcastTo S128x128 v11 broadcasts_S1x128_S128x128
  have v14 : IVec S1x128 32 := shapeCast S1x128 chg shapeCasts_S1x1x128_S1x128
  have v15 : IVec S1x128 32 := shapeCast S1x128 v14 shapeCasts_S1x128_S1x128
  have v16 : IVec S128x128 32 := broadcastTo S128x128 v15 broadcasts_S1x128_S128x128
  have v17 : IVec S128x128 1 := cmpi .eq v8 v0
  have v18 : IVec S128x128 32 := extui 32 v17 natLt_1_32
  have v19 : FVec F S128x128 .f32 := sitofp .f32 v18
  have v20 : IVec S128x128 1 := cmpi .eq v12 v0
  have v21 : IVec S128x128 32 := extui 32 v20 natLt_1_32
  have v22 : FVec F S128x128 .f32 := sitofp .f32 v21
  have v23 : FVec F S128x128 .f32 := addf v19 v22
  have v24 : IVec S128x128 1 := cmpi .eq v16 v0
  have v25 : IVec S128x128 32 := extui 32 v24 natLt_1_32
  have v26 : FVec F S128x128 .f32 := sitofp .f32 v25
  have v27 : FVec F S128x128 .f32 := addf v23 v26
  have v29 : FVec F S128x128 .f32 := shapeCast S128x128 tbl shapeCasts_S128x128_S128x128
  have cst : FVec F S128x128 .f32 := constant S128x128 .f32 0x00000000#32
  have v30 : FVec F S128x128 .f32 := matmul dot_S128x128_S128x128_S128x128_0_0_1_1_n_n none v27 v29 cst
  have v32 : FVec F S128x128 .f32 := shapeCast S128x128 pos shapeCasts_S128x128_S128x128
  have v33 : FVec F S128x128 .f32 := addf v30 v32
  have v34 : FVec F S128 .f32 := multiReduction .add [1] S128 v33 0x00000000#32 reduces_S128x128_S128 (.inl rfl) rfl
  have v35 : FVec F S128x1 .f32 := shapeCast S128x1 v34 shapeCasts_S128_S128x1
  have cst_17 : F .f32 := Scalar.ofBits .f32 0x43000000#32
  have v36 : FVec F S128x1 .f32 := broadcast S128x1 cst_17
  have v37 : FVec F S128x1 .f32 := divf v35 v36
  have v38 : FVec F S128x128 .f32 := broadcastTo S128x128 v37 broadcasts_S128x1_S128x128
  have v39 : FVec F S128x128 .f32 := subf v33 v38
  have v40 : FVec F S128x128 .f32 := mulf v39 v39
  have v41 : FVec F S128 .f32 := multiReduction .add [1] S128 v40 0x00000000#32 reduces_S128x128_S128 (.inl rfl) rfl
  have v42 : FVec F S128x1 .f32 := shapeCast S128x1 v41 shapeCasts_S128_S128x1
  have cst_19 : F .f32 := Scalar.ofBits .f32 0x43000000#32
  have v43 : FVec F S128x1 .f32 := broadcast S128x1 cst_19
  have v44 : FVec F S128x1 .f32 := divf v42 v43
  have cst_20 : F .f32 := Scalar.ofBits .f32 0x2B8CBCCC#32
  have v45 : FVec F S128x1 .f32 := broadcast S128x1 cst_20
  have v46 : FVec F S128x1 .f32 := addf v44 v45
  have v47 : FVec F S128x1 .f32 := rsqrt v46
  have v48 : FVec F S128x128 .f32 := broadcastTo S128x128 v47 broadcasts_S128x1_S128x128
  have v49 : FVec F S128x128 .f32 := mulf v39 v48
  have v50 : FVec F S128x128 .f32 := broadcastTo S128x128 v2 broadcasts_S1x128_S128x128
  have v51 : FVec F S128x128 .f32 := mulf v49 v50
  have v52 : FVec F S128x128 .f32 := broadcastTo S128x128 v4 broadcasts_S1x128_S128x128
  have v53 : FVec F S128x128 .f32 := addf v51 v52
  v53

end Cert.KernelIdeal.Hand
-- ==== Proof.Spec.lean ====
/-
  The function both programs compute, entry by entry, over the extended reals.

  For sequence n, position l and feature c the embedding is the sum of one row of each of three small tables,
  selected by the three integer inputs, and of row l of the position table; a layer normalization along the
  feature axis follows: subtract the mean of the 128 features, divide by the square root of the mean squared
  deviation plus a small constant, scale by gamma and shift by beta.
-/
import Idealize.ShloMosaic.PureOps.Ideal
import Idealize.ShloMosaic.Lib.ValueIdx

noncomputable section

open scoped BigOperators

namespace Cert.Spec

open Idealize.ShloMosaic Idealize.ShloMosaic.ValueIdx

/-- The divisor 128 and the small constant under the square root, as the float words both programs carry. -/
abbrev K128 : EReal := Ideal.ofBits .f32 0x43000000#32
abbrev Keps : EReal := Ideal.ofBits .f32 0x2B8CBCCC#32

/-- Row `w` (a 32-bit word read as a natural number) of a table of `N` rows at column `c`; 0 outside the table. -/
def rowAt {N : Nat} (A : (⟨2, ![N, 128]⟩ : Shape).Idx → EReal) (w : BitVec 32) (c : Fin 128) : EReal :=
  if h : w.toNat < N then A (ix2 ⟨w.toNat, h⟩ c) else 0

/-- The mean of 128 extended reals. -/
def mu (e : Fin 128 → EReal) : EReal := Ideal.div (∑ c, e c) K128
/-- The deviation of entry `c` from the mean. -/
def dev (e : Fin 128 → EReal) (c : Fin 128) : EReal := e c - mu e
/-- The mean squared deviation. -/
def var (e : Fin 128 → EReal) : EReal := Ideal.div (∑ c, dev e c * dev e c) K128
/-- Layer normalization of a row `e` with scale `g` and shift `b`, at feature `c`. -/
def ln (e g b : Fin 128 → EReal) (c : Fin 128) : EReal :=
  Ideal.div (dev e c) (Ideal.sqrt (var e + Keps)) * g c + b c

/-- The summed embedding of sequence `n`, position `l`, feature `c`. -/
def emb (tok dec : (⟨2, ![16384, 50]⟩ : Shape).Idx → BitVec 32) (chg : (⟨1, ![16384]⟩ : Shape).Idx → BitVec 32)
    (A : (⟨2, ![30, 128]⟩ : Shape).Idx → EReal) (P C : (⟨2, ![10, 128]⟩ : Shape).Idx → EReal)
    (pos : (⟨2, ![512, 128]⟩ : Shape).Idx → EReal) (n : Fin 16384) (l : Fin 50) (c : Fin 128) : EReal :=
  rowAt A (tok (ix2 n l)) c + rowAt P (dec (ix2 n l)) c + rowAt C (chg (ix1 n)) c
    + pos (ix2 ⟨l.val, by have := l.isLt; omega⟩ c)

/-- The whole result: the normalized embedding at (n, l, c). -/
def G (tok dec : (⟨2, ![16384, 50]⟩ : Shape).Idx → BitVec 32) (chg : (⟨1, ![16384]⟩ : Shape).Idx → BitVec 32)
    (A : (⟨2, ![30, 128]⟩ : Shape).Idx → EReal) (P C : (⟨2, ![10, 128]⟩ : Shape).Idx → EReal)
    (pos : (⟨2, ![512, 128]⟩ : Shape).Idx → EReal) (g b : (⟨1, ![128]⟩ : Shape).Idx → EReal) :
    (⟨3, ![16384, 50, 128]⟩ : Shape).Idx → EReal :=
  fun i => ln (fun c => emb tok dec chg A P C pos (i 0) (i 1) c) (fun c => g (ix1 c)) (fun c => b (ix1 c)) (i 2)

/-- The ranges of the three integer inputs: a token below 30, a decoration and a charge below 10 (as signed words: between
    0 and the bound). -/
def InRange (tok dec : (⟨2, ![16384, 50]⟩ : Shape).Idx → BitVec 32) (chg : (⟨1, ![16384]⟩ : Shape).Idx → BitVec 32) : Prop :=
  (∀ j, (tok j).toNat < 30) ∧ (∀ j, (dec j).toNat < 10) ∧ (∀ j, (chg j).toNat < 10)

end Cert.Spec

end
-- ==== Proof.SpecLaws.lean ====
/-
  The laws that join the two programs' arrangements of the same arithmetic, over the extended reals.

  * A sum over 128 table rows weighted by the sum of three indicator columns at three DISTINCT rows is the sum of
    those three rows (no finiteness needed: a weight is 0 or 1, and 0 times anything is 0 on the extended reals).
  * Multiplying by the reciprocal square root of a positive number is dividing by its square root.
  * The mean squared deviation is nonnegative, so adding the small positive constant makes it positive.
-/
import proofs.«131727_g78563541778773_cont_9to1c4b_168_6_alg».proof.Proof.Spec

noncomputable section

open scoped BigOperators

namespace Cert.Spec

open Idealize.ShloMosaic Idealize.ShloMosaic.ValueIdx

/-- Three indicator columns at distinct rows pick out those three rows of a table column. -/
theorem onehot_sum (T δa δb δc : Fin 128 → EReal) (ia ib ic : Fin 128) (hab : ia ≠ ib) (hac : ia ≠ ic) (hbc : ib ≠ ic)
    (ha : ∀ v, δa v = if v = ia then 1 else 0) (hb : ∀ v, δb v = if v = ib then 1 else 0)
    (hc : ∀ v, δc v = if v = ic then 1 else 0) :
    ∑ v, (δa v + δb v + δc v) * T v = T ia + T ib + T ic := by
  have h : ∀ v, (δa v + δb v + δc v) * T v
      = (if v = ia then T v else 0) + (if v = ib then T v else 0) + (if v = ic then T v else 0) := by
    intro v
    rw [ha, hb, hc]
    by_cases h1 : v = ia
    · subst h1; simp [hab, hac]
    · by_cases h2 : v = ib
      · subst h2; simp [h1, hbc]
      · by_cases h3 : v = ic
        · subst h3; simp [h1, h2]
        · simp [h1, h2, h3]
  simp only [h, Finset.sum_add_distrib, Finset.sum_ite_eq', Finset.mem_univ, if_true]

/-- The word 0x43000000 is the real number 128. -/
theorem K128_eq : K128 = ((128 : ℝ) : EReal) := by
  simp [K128, Ideal.ofBits, Ideal.ieee]
  exact_mod_cast (by norm_num : (8388608 : ℝ) * ((2 ^ 16 : ℕ) : ℝ)⁻¹ = 128)

/-- The small constant is a positive real. -/
theorem Keps_pos : 0 < Keps := by
  simp [Keps, Ideal.ofBits, Ideal.ieee]
  positivity

theorem mul_self_nonneg' (x : EReal) : 0 ≤ x * x := by
  rcases le_total 0 x with h | h
  · exact mul_nonneg h h
  · have : 0 ≤ -x := by simpa using EReal.neg_le_neg_iff.mpr h
    simpa using mul_nonneg this this

/-- Dividing a nonnegative number by 128 leaves it nonnegative. -/
theorem div128_nonneg (x : EReal) (hx : 0 ≤ x) : 0 ≤ Ideal.div x K128 := by
  rw [K128_eq, Ideal.div_coe (by norm_num : (128 : ℝ) ≠ 0)]
  exact mul_nonneg hx (by exact_mod_cast (by norm_num : (0:ℝ) ≤ 1 / 128))

theorem var_nonneg (e : Fin 128 → EReal) : 0 ≤ var e :=
  div128_nonneg _ (Finset.sum_nonneg fun c _ => mul_self_nonneg' _)

theorem var_eps_pos (e : Fin 128 → EReal) : 0 < var e + Keps :=
  lt_of_lt_of_le Keps_pos (le_add_of_nonneg_left (var_nonneg e))

/-- Multiplying by the reciprocal square root of a positive extended real is dividing by its square root. -/
theorem rsqrt_top : Ideal.rsqrt ⊤ = 0 := rfl
theorem sqrt_top : Ideal.sqrt ⊤ = ⊤ := rfl
theorem rsqrt_coe (r : ℝ) : Ideal.rsqrt (r : EReal)
    = if r < 0 then ⊥ else if r = 0 then ⊤ else (((Real.sqrt r)⁻¹ : ℝ) : EReal) := rfl
theorem sqrt_coe (r : ℝ) : Ideal.sqrt (r : EReal) = if r < 0 then ⊥ else ((Real.sqrt r : ℝ) : EReal) := rfl

theorem mul_rsqrt_eq_div (d s : EReal) (hs : 0 < s) : d * Ideal.rsqrt s = Ideal.div d (Ideal.sqrt s) := by
  induction s using EReal.rec with
  | bot => exact absurd hs (by simp)
  | top =>
    rw [rsqrt_top, sqrt_top]
    unfold Ideal.div
    rw [if_neg (by simp)]
    simp
  | coe r =>
    have hr : 0 < r := by exact_mod_cast hs
    have hsq : 0 < Real.sqrt r := Real.sqrt_pos.mpr hr
    rw [rsqrt_coe, sqrt_coe, if_neg (not_lt.mpr hr.le), if_neg hr.ne', if_neg (not_lt.mpr hr.le)]
    unfold Ideal.div
    rw [if_neg (by exact_mod_cast hsq.ne'), EReal.coe_inv]

end Cert.Spec

end
-- ==== Proof.LibColCol.lean ====
/-
  A matrix product contracted along the rows of both factors, read at an entry, for any sizes.

  For a K by M left factor and a K by N right factor contracted along axis 0 of both (no batch axis), the operand
  indices at the output entry (a, b) and the contraction index c are (c, a) and (c, b). So the entry (a, b) of the
  product is ∑ c, l (c, a) · r (c, b) — the transpose of the left factor times the right factor — for the matrix
  unit's product into a zero accumulator (`matmul_zero_colCol_apply`) and, over the raw contraction index, for any
  reading of the product as a sum of the operands' products (`sum_products_colCol`).
-/
import Idealize.ShloMosaic.PureOps.Ideal
import Idealize.ShloMosaic.PureOps.Ideal.Laws
import Idealize.ShloMosaic.Lib.ValueIdx

noncomputable section

open scoped BigOperators

namespace Cert.LibColCol

open Idealize.ShloMosaic Idealize.ShloMosaic.ValueIdx

variable {M K N : ℕ}

/-- The dimension numbers contracting axis 0 of both factors, no batch axis. -/
abbrev colCol (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

/-- The left operand's column coordinate at the output entry (a, b) is a, whatever the contraction index. -/
theorem lhs_col (wf : DotDims.WF ⟨2, ![K, M]⟩ ⟨2, ![K, N]⟩ ⟨2, ![M, N]⟩ [0] [0] [1] [1] [] [])
    (i : (⟨2, ![M, N]⟩ : Shape).Idx) (q : (colCol wf).contr.Idx) : ((colCol wf).lhsIdx i q 1).val = (i 0).val := by
  unfold DotDims.lhsIdx
  rw [dif_neg (by simp), dif_pos (by simp)]
  rfl

/-- The right operand's column coordinate at the output entry (a, b) is b, whatever the contraction index. -/
theorem rhs_col (wf : DotDims.WF ⟨2, ![K, M]⟩ ⟨2, ![K, N]⟩ ⟨2, ![M, N]⟩ [0] [0] [1] [1] [] [])
    (i : (⟨2, ![M, N]⟩ : Shape).Idx) (q : (colCol wf).contr.Idx) : ((colCol wf).rhsIdx i q 1).val = (i 1).val := by
  unfold DotDims.rhsIdx
  rw [dif_neg (by simp), dif_pos (by simp)]
  rfl

/-- The sum over the contraction index of the products of the operands' entries is the sum over the shared row
    coordinate c of l (c, a) · r (c, b). -/
theorem sum_products_colCol (wf : DotDims.WF ⟨2, ![K, M]⟩ ⟨2, ![K, N]⟩ ⟨2, ![M, N]⟩ [0] [0] [1] [1] [] [])
    (l : (⟨2, ![K, M]⟩ : Shape).Idx → EReal) (r : (⟨2, ![K, N]⟩ : Shape).Idx → EReal) (a : Fin M) (b : Fin N) :
    ∑ k : (colCol wf).contr.Idx, l ((colCol wf).lhsIdx (ix2 a b) k) * r ((colCol wf).rhsIdx (ix2 a b) k)
      = ∑ c : Fin K, l (ix2 c a) * r (ix2 c b) := by
  rw [← Equiv.sum_comp (contrEquiv1 (colCol wf) K rfl rfl).symm]
  refine Finset.sum_congr rfl fun c _ => ?_
  have hk := contrEquiv1_symm_val (colCol wf) K rfl rfl c
  have el : (colCol wf).lhsIdx (ix2 a b) ((contrEquiv1 (colCol wf) K rfl rfl).symm c) = ix2 c a := funext fun ax => Fin.ext (by
    match ax with
    | ⟨0, _⟩ => exact ((colCol wf).lhsIdx_val_of_single rfl (ix2 a b) _).trans hk
    | ⟨1, _⟩ => exact lhs_col wf _ _)
  have er : (colCol wf).rhsIdx (ix2 a b) ((contrEquiv1 (colCol wf) K rfl rfl).symm c) = ix2 c b := funext fun ax => Fin.ext (by
    match ax with
    | ⟨0, _⟩ => exact ((colCol wf).rhsIdx_val_of_single rfl (ix2 a b) _).trans hk
    | ⟨1, _⟩ => exact rhs_col wf _ _)
  rw [el, er]

/-- The matrix unit's product into a zero accumulator at an entry, for any record of dimension numbers contracting
    axis 0 of both factors. -/
theorem matmul_zero_colCol_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 c a) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products_colCol wf l r a b

end Cert.LibColCol

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KIChunkVal.lean ====
/-
  One chunk of the kernel's arithmetic read at an entry, over the extended reals.

  The transposed one-hot matrix has, in column r, an indicator of the token word, of the shifted decoration word and
  of the shifted charge word of lane r; contracting it with the table over the vocabulary axis gives, for lane r and
  feature c, the sum over v of (indicator sum at v) times table entry (v, c); the position rows are added, and the
  row is normalized over its 128 features with the reciprocal square root.
-/
import proofs.«131727_g78563541778773_cont_9to1c4b_168_6_alg».proof.Proof.KIChunk
import proofs.«131727_g78563541778773_cont_9to1c4b_168_6_alg».proof.Proof.SpecLaws
import proofs.«131727_g78563541778773_cont_9to1c4b_168_6_alg».proof.Proof.LibColCol
import proofs.«131727_g78563541778773_cont_9to1c4b_168_6_alg».proof.Proof.LibColumn
import Idealize.ShloMosaic.Lib.ValueLayout
import Idealize.ShloMosaic.Lib.Pipeline.Value
import Idealize.ShloMosaic.PureOps.Ideal.Laws

noncomputable section

open scoped BigOperators

namespace Cert.KernelIdeal.ChunkVal

open Idealize.ShloMosaic Idealize.ShloMosaic.ValueIdx
open Cert.KernelIdeal Cert.KernelIdeal.Gen Cert.KernelIdeal.Hand Cert.Spec

/-- The indicator of "word w names vocabulary row v", as the kernel forms it: a comparison widened to 32 bits and
    converted to a float. -/
def ind (w : BitVec 32) (v : Fin 128) : EReal :=
  FloatOps.sitofp (F := Ideal) .f32 ((IntOp.cmpi .eq w (BitVec.ofNat 32 v.val)).setWidth 32)

theorem ofNat_eq_iff (w : BitVec 32) (v : Fin 128) : w = BitVec.ofNat 32 v.val ↔ v.val = w.toNat := by
  have hv : v.val % 2 ^ 32 = v.val := Nat.mod_eq_of_lt (by have := v.isLt; omega)
  constructor
  · intro h; rw [h, BitVec.toNat_ofNat, hv]
  · intro h; apply BitVec.eq_of_toNat_eq; rw [BitVec.toNat_ofNat, hv, h]

/-- It is 1 when the word, read as a natural number, is v, and 0 otherwise. -/
theorem ind_eq (w : BitVec 32) (v : Fin 128) : ind w v = if v.val = w.toNat then 1 else 0 := by
  unfold ind
  by_cases h : w = BitVec.ofNat 32 v.val
  · rw [IntOp.cmpi_eq.mpr h, if_pos ((ofNat_eq_iff w v).mp h)]
    show ((((1#1 : BitVec 1).setWidth 32).toInt : ℝ) : EReal) = 1
    rw [show ((1#1 : BitVec 1).setWidth 32).toInt = 1 from by decide]; simp
  · have hc : IntOp.cmpi .eq w (BitVec.ofNat 32 v.val) = 0#1 :=
      eq_zero_of_ne_one fun e => h (IntOp.cmpi_eq.mp e)
    rw [hc, if_neg (fun e => h ((ofNat_eq_iff w v).mpr e))]
    show ((((0#1 : BitVec 1).setWidth 32).toInt : ℝ) : EReal) = 0
    rw [show ((0#1 : BitVec 1).setWidth 32).toInt = 0 from by decide]; simp

/-- A lane sum of a matrix from the zero accumulator, at row r, is the sum of the row's entries. -/
theorem laneSum_apply {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ c : Fin b, src (ix2 r c) := by
  refine (Ideal.multiReduction_add_single src 0x00000000#32 h (.inl rfl) rfl (ix1 r)).trans ?_
  refine Finset.sum_congr rfl fun k _ => congrArg src (funext fun ax => Fin.ext ?_)
  match ax with
  | ⟨0, _⟩ => rfl
  | ⟨1, _⟩ => rfl

/-- A lane-major index row [1,1,128], viewed [1,128] and spread over the 128 vocabulary rows, reads lane r's word. -/
theorem rowWord_apply (x : (⟨3, ![1, 1, 128]⟩ : Shape).Idx → BitVec 32)
    (h1 : (⟨3, ![1, 1, 128]⟩ : Shape).ShapeCasts ⟨2, ![1, 128]⟩) (h2 : (⟨2, ![1, 128]⟩ : Shape).ShapeCasts ⟨2, ![1, 128]⟩)
    (h3 : (⟨2, ![1, 128]⟩ : Shape).Broadcasts ⟨2, ![128, 128]⟩) (v r : Fin 128) :
    broadcastTo ⟨2, ![128, 128]⟩ (shapeCast ⟨2, ![1, 128]⟩ (shapeCast ⟨2, ![1, 128]⟩ x h1) h2) h3 (ix2 v r)
      = x (ix3 (0 : Fin 1) (0 : Fin 1) r) := by
  rw [broadcastTo_1b_ab_apply, shapeCast_self, shapeCast_1ab_ab_apply]

/-- The transposed one-hot matrix of a chunk. -/
def ohtF (tok dec chg : Vec Ideal S1x1x128 .i32) : FVec Ideal S128x128 .f32 :=
  have v0 : IVec S128x128 32 := iota .tc S128x128 32 [0] iota_S128x128_d0_w32
  have v8 : IVec S128x128 32 := broadcastTo S128x128 (shapeCast S1x128 (shapeCast S1x128 tok shapeCasts_S1x1x128_S1x128) shapeCasts_S1x128_S1x128) broadcasts_S1x128_S128x128
  have v12 : IVec S128x128 32 := broadcastTo S128x128 (shapeCast S1x128 (shapeCast S1x128 dec shapeCasts_S1x1x128_S1x128) shapeCasts_S1x128_S1x128) broadcasts_S1x128_S128x128
  have v16 : IVec S128x128 32 := broadcastTo S128x128 (shapeCast S1x128 (shapeCast S1x128 chg shapeCasts_S1x1x128_S1x128) shapeCasts_S1x128_S1x128) broadcasts_S1x128_S128x128
  addf (addf (sitofp .f32 (extui 32 (cmpi .eq v8 v0) natLt_1_32)) (sitofp .f32 (extui 32 (cmpi .eq v12 v0) natLt_1_32)))
    (sitofp .f32 (extui 32 (cmpi .eq v16 v0) natLt_1_32))

theorem ohtF_apply (tok dec chg : Vec Ideal S1x1x128 .i32) (v r : Fin 128) :
    ohtF tok dec chg (ix2 v r)
      = ind (tok (ix3 (0 : Fin 1) (0 : Fin 1) r)) v + ind (dec (ix3 (0 : Fin 1) (0 : Fin 1) r)) v
        + ind (chg (ix3 (0 : Fin 1) (0 : Fin 1) r)) v := by
  have hi : ∀ v r : Fin 128, iota .tc S128x128 32 [0] iota_S128x128_d0_w32 (ix2 v r) = BitVec.ofNat 32 v.val :=
    fun v r => iota_single_apply .tc S128x128 32 (0 : Fin 2) iota_S128x128_d0_w32 (ix2 v r)
  unfold ohtF ind
  simp only [addf_apply, sitofp_apply, extui_apply]
  unfold cmpi
  simp only [rowWord_apply, hi]

/-- The summed embedding of a chunk: the one-hot matrix contracted with the table, plus the position rows. -/
def embF (tok dec chg : Vec Ideal S1x1x128 .i32) (tbl pos : FVec Ideal S128x128 .f32) : FVec Ideal S128x128 .f32 :=
  addf (matmul dot_S128x128_S128x128_S128x128_0_0_1_1_n_n none (ohtF tok dec chg)
      (shapeCast S128x128 tbl shapeCasts_S128x128_S128x128) (constant S128x128 .f32 0x00000000#32))
    (shapeCast S128x128 pos shapeCasts_S128x128_S128x128)

theorem embF_apply (tok dec chg : Vec Ideal S1x1x128 .i32) (tbl pos : FVec Ideal S128x128 .f32) (r c : Fin 128) :
    embF tok dec chg tbl pos (ix2 r c)
      = (∑ v : Fin 128, ohtF tok dec chg (ix2 v r) * tbl (ix2 v c)) + pos (ix2 r c) := by
  unfold embF
  rw [addf_apply, shapeCast_self, shapeCast_self]
  refine congrArg (· + pos (ix2 r c)) ?_
  exact Cert.LibColCol.matmul_zero_colCol_apply (M := 128) (K := 128) (N := 128) dot_S128x128_S128x128_S128x128_0_0_1_1_n_n rfl rfl rfl rfl rfl rfl none
    (ohtF tok dec chg) tbl r c

/-- The mean of each row, kept as a column and spread over the row. -/
def meanF (x : FVec Ideal S128x128 .f32) : FVec Ideal S128x128 .f32 :=
  broadcastTo S128x128 (divf (shapeCast S128x1 (multiReduction .add [1] S128 x 0x00000000#32 reduces_S128x128_S128 (.inl rfl) rfl)
    shapeCasts_S128_S128x1) (broadcast S128x1 (Scalar.ofBits .f32 0x43000000#32))) broadcasts_S128x1_S128x128

/-- The deviations from the row means. -/
def devF (x : FVec Ideal S128x128 .f32) : FVec Ideal S128x128 .f32 := subf x (meanF x)

/-- The mean squared deviation of each row plus the small constant, as a column. -/
def vepsF (x : FVec Ideal S128x128 .f32) : FVec Ideal S128x1 .f32 :=
  addf (divf (shapeCast S128x1 (multiReduction .add [1] S128 (mulf (devF x) (devF x)) 0x00000000#32 reduces_S128x128_S128 (.inl rfl) rfl)
    shapeCasts_S128_S128x1) (broadcast S128x1 (Scalar.ofBits .f32 0x43000000#32))) (broadcast S128x1 (Scalar.ofBits .f32 0x2B8CBCCC#32))

/-- The normalization of a chunk's rows, as the kernel spells it. -/
def lnF (x : FVec Ideal S128x128 .f32) (g b : FVec Ideal S1x128 .f32) : FVec Ideal S128x128 .f32 :=
  addf (mulf (mulf (devF x) (broadcastTo S128x128 (rsqrt (vepsF x)) broadcasts_S128x1_S128x128))
      (broadcastTo S128x128 (shapeCast S1x128 g shapeCasts_S1x128_S1x128) broadcasts_S1x128_S128x128))
    (broadcastTo S128x128 (shapeCast S1x128 b shapeCasts_S1x128_S1x128) broadcasts_S1x128_S128x128)

/-- The chunk is the normalization of its summed embedding. -/
theorem chunkF_eq (tok dec chg : Vec Ideal S1x1x128 .i32) (tbl pos : Vec Ideal S128x128 .f32) (g b : Vec Ideal S1x128 .f32) :
    chunkF (F := Ideal) tok dec chg tbl pos g b = lnF (embF tok dec chg tbl pos) g b := rfl

theorem meanF_apply (x : FVec Ideal S128x128 .f32) (r c : Fin 128) :
    meanF x (ix2 r c) = mu (fun c' => x (ix2 r c')) := by
  unfold meanF
  rw [Cert.LibColumn.broadcastTo_a1_ab_apply, divf_apply, Cert.LibColumn.shapeCast_a_a1_apply, laneSum_apply]
  rfl

theorem devF_apply (x : FVec Ideal S128x128 .f32) (r c : Fin 128) :
    devF x (ix2 r c) = dev (fun c' => x (ix2 r c')) c := by
  unfold devF
  rw [subf_apply, meanF_apply]
  rfl

theorem vepsF_apply (x : FVec Ideal S128x128 .f32) (r : Fin 128) :
    vepsF x (ix2 r (0 : Fin 1)) = var (fun c' => x (ix2 r c')) + Keps := by
  unfold vepsF
  rw [addf_apply, divf_apply, Cert.LibColumn.shapeCast_a_a1_apply, laneSum_apply]
  simp only [mulf_apply, devF_apply]
  rfl

theorem lnF_apply (x : FVec Ideal S128x128 .f32) (g b : FVec Ideal S1x128 .f32) (r c : Fin 128) :
    lnF x g b (ix2 r c)
      = dev (fun c' => x (ix2 r c')) c * Ideal.rsqrt (var (fun c' => x (ix2 r c')) + Keps) * g (ix2 (0 : Fin 1) c)
        + b (ix2 (0 : Fin 1) c) := by
  unfold lnF
  rw [addf_apply, mulf_apply, mulf_apply, broadcastTo_1b_ab_apply, broadcastTo_1b_ab_apply, shapeCast_self, shapeCast_self,
    devF_apply, Cert.LibColumn.broadcastTo_a1_ab_apply]
  show _ * Ideal.rsqrt (vepsF x (ix2 r (0 : Fin 1))) * _ + _ = _
  rw [vepsF_apply]

end Cert.KernelIdeal.ChunkVal

end
-- ==== Proof.KIChunkRow.lean ====
/-
  One chunk at an entry, in the specification's form: when the three words of lane r name three distinct rows of
  the table, the chunk's entry (r, c) is the layer normalization of the row "sum of those three table rows plus the
  position row".
-/
import proofs.«131727_g78563541778773_cont_9to1c4b_168_6_alg».proof.Proof.KIChunkVal

noncomputable section

open scoped BigOperators

namespace Cert.KernelIdeal.ChunkVal

open Idealize.ShloMosaic Idealize.ShloMosaic.ValueIdx
open Cert.KernelIdeal Cert.KernelIdeal.Gen Cert.KernelIdeal.Hand Cert.Spec

theorem ind_of_toNat (w : BitVec 32) (i : Fin 128) (h : w.toNat = i.val) (v : Fin 128) :
    ind w v = if v = i then 1 else 0 := by
  rw [ind_eq]
  by_cases hv : v = i
  · rw [if_pos hv, if_pos (by rw [hv, h])]
  · rw [if_neg hv, if_neg (fun e => hv (Fin.ext (e.trans h)))]

/-- The summed embedding of lane r at feature c. -/
theorem embF_row (tok dec chg : Vec Ideal S1x1x128 .i32) (tbl pos : FVec Ideal S128x128 .f32) (r c : Fin 128)
    (ia ib ic : Fin 128) (hab : ia ≠ ib) (hac : ia ≠ ic) (hbc : ib ≠ ic)
    (ha : (tok (ix3 (0 : Fin 1) (0 : Fin 1) r)).toNat = ia.val) (hb : (dec (ix3 (0 : Fin 1) (0 : Fin 1) r)).toNat = ib.val)
    (hc : (chg (ix3 (0 : Fin 1) (0 : Fin 1) r)).toNat = ic.val) :
    embF tok dec chg tbl pos (ix2 r c) = tbl (ix2 ia c) + tbl (ix2 ib c) + tbl (ix2 ic c) + pos (ix2 r c) := by
  rw [embF_apply]
  refine congrArg (· + pos (ix2 r c)) ?_
  simp only [ohtF_apply]
  exact onehot_sum (fun v => tbl (ix2 v c)) _ _ _ ia ib ic hab hac hbc (ind_of_toNat _ ia ha) (ind_of_toNat _ ib hb)
    (ind_of_toNat _ ic hc)

/-- The chunk's entry (r, c) as the layer normalization of the lane's summed embedding. -/
theorem chunkF_row (tok dec chg : Vec Ideal S1x1x128 .i32) (tbl pos : FVec Ideal S128x128 .f32) (g b : FVec Ideal S1x128 .f32)
    (r c : Fin 128) (e : Fin 128 → EReal) (he : ∀ c', embF tok dec chg tbl pos (ix2 r c') = e c') :
    chunkF (F := Ideal) tok dec chg tbl pos g b (ix2 r c)
      = ln e (fun c' => g (ix2 (0 : Fin 1) c')) (fun c' => b (ix2 (0 : Fin 1) c')) c := by
  rw [chunkF_eq, lnF_apply]
  simp only [he]
  unfold ln
  rw [mul_rsqrt_eq_div _ _ (var_eps_pos e)]

end Cert.KernelIdeal.ChunkVal

end
-- ==== Proof.LayoutReads.lean ====
/-
  The host's layout steps of this kernel read at an index, for arrays of any element type.

  A [16384, 50] array regrouped to [256, 25, 128] keeps the row-major order: entry (t, k, r) is entry (n, l) with
  50 n + l = (25 t + k) 128 + r.  A per-sequence vector repeated over the 50 positions and regrouped the same way reads
  the sequence's entry.  Four arrays stacked along the rows read, at a row, the piece that row falls in.  The first
  50 rows of the position table repeated 64 times read, at row q 50 + l, row l.
-/
import Idealize.ShloMosaic.Lib.ValueIdx
import Idealize.ShloMosaic.Lib.ValueLayout
import Idealize.ShloMosaic.Lib.Pipeline.Value

namespace Cert.Layout

open Idealize.ShloMosaic Idealize.ShloMosaic.ValueIdx

variable {α : Type}

theorem regroup_apply (x : (⟨2, ![16384, 50]⟩ : Shape).Idx → α) (h : (⟨2, ![16384, 50]⟩ : Shape).ShapeCasts ⟨3, ![256, 25, 128]⟩)
    (t : Fin 256) (k : Fin 25) (r : Fin 128) (n : Fin 16384) (l : Fin 50)
    (e : n.val * 50 + l.val = (t.val * 25 + k.val) * 128 + r.val) :
    shapeCast ⟨3, ![256, 25, 128]⟩ x h (ix3 t k r) = x (ix2 n l) :=
  shapeCast_apply x h _ _ (by
    rw [Shape.rowMajor_val_two, Shape.rowMajor_val_three]
    exact e)

theorem repeat_apply (x : (⟨1, ![16384]⟩ : Shape).Idx → α)
    (h0 : (⟨1, ![16384]⟩ : Shape).BroadcastsInDim ⟨2, ![16384, 50]⟩ ![0])
    (h1 : (⟨2, ![16384, 50]⟩ : Shape).ShapeCasts ⟨1, ![819200]⟩) (h2 : (⟨1, ![819200]⟩ : Shape).ShapeCasts ⟨3, ![256, 25, 128]⟩)
    (t : Fin 256) (k : Fin 25) (r : Fin 128) (n : Fin 16384) (l : Fin 50)
    (e : n.val * 50 + l.val = (t.val * 25 + k.val) * 128 + r.val) :
    shapeCast ⟨3, ![256, 25, 128]⟩ (shapeCast ⟨1, ![819200]⟩ (broadcastInDim ⟨2, ![16384, 50]⟩ ![0] h0 x) h1) h2 (ix3 t k r)
      = x (ix1 n) := by
  have hR : n.val * 50 + l.val < 819200 := by have := n.isLt; have := l.isLt; omega
  rw [shapeCast_apply _ h2 (ix3 t k r) (ix1 ⟨n.val * 50 + l.val, hR⟩) (by
        rw [Shape.rowMajor_val_one, Shape.rowMajor_val_three]; exact e),
    shapeCast_apply _ h1 (ix1 ⟨n.val * 50 + l.val, hR⟩) (ix2 n l) (by
        rw [Shape.rowMajor_val_two, Shape.rowMajor_val_one]; rfl)]
  refine broadcastInDim_apply ![0] h0 x (ix2 n l) (ix1 n) fun a => ?_
  match a with
  | ⟨0, _⟩ =>
    show n.val = if (16384 : ℕ) = 1 then 0 else n.val
    rw [if_neg (by norm_num)]

section Table
variable (A : (⟨2, ![30, 128]⟩ : Shape).Idx → α) (P C : (⟨2, ![10, 128]⟩ : Shape).Idx → α) (Z : (⟨2, ![78, 128]⟩ : Shape).Idx → α)

/-- The stacked table's pieces. -/
abbrev pieces : List ((s : Shape) × (s.Idx → α)) :=
  [⟨⟨2, ![30, 128]⟩, A⟩, ⟨⟨2, ![10, 128]⟩, P⟩, ⟨⟨2, ![10, 128]⟩, C⟩, ⟨⟨2, ![78, 128]⟩, Z⟩]

variable (h : Shape.Concatenates ((pieces A P C Z).map (·.1)) ⟨2, ![128, 128]⟩ (0 : Fin 2))

theorem table_first (v c : Fin 128) (hv : v.val < 30) :
    concatenate ⟨2, ![128, 128]⟩ (0 : Fin 2) (pieces A P C Z) h (ix2 v c) = A (ix2 ⟨v.val, hv⟩ c) :=
  concatenate_apply_piece (0 : Fin 2) (pieces A P C Z) h (ix2 v c) 0 (by show 0 < 4; norm_num) ⟨2, ![30, 128]⟩ A rfl rfl 0 rfl
    (ix2 ⟨v.val, hv⟩ c) (fun b hb => by
      match b with
      | ⟨0, _⟩ => exact absurd rfl hb
      | ⟨1, _⟩ => rfl) (by show 0 + v.val = v.val; omega)

theorem table_second (v c : Fin 128) (i : Fin 10) (hv : v.val = 30 + i.val) :
    concatenate ⟨2, ![128, 128]⟩ (0 : Fin 2) (pieces A P C Z) h (ix2 v c) = P (ix2 i c) :=
  concatenate_apply_piece (0 : Fin 2) (pieces A P C Z) h (ix2 v c) 1 (by show 1 < 4; norm_num) ⟨2, ![10, 128]⟩ P rfl rfl 30 rfl
    (ix2 i c) (fun b hb => by
      match b with
      | ⟨0, _⟩ => exact absurd rfl hb
      | ⟨1, _⟩ => rfl) (by show 30 + i.val = v.val; omega)

theorem table_third (v c : Fin 128) (i : Fin 10) (hv : v.val = 40 + i.val) :
    concatenate ⟨2, ![128, 128]⟩ (0 : Fin 2) (pieces A P C Z) h (ix2 v c) = C (ix2 i c) :=
  concatenate_apply_piece (0 : Fin 2) (pieces A P C Z) h (ix2 v c) 2 (by show 2 < 4; norm_num) ⟨2, ![10, 128]⟩ C rfl rfl 40 rfl
    (ix2 i c) (fun b hb => by
      match b with
      | ⟨0, _⟩ => exact absurd rfl hb
      | ⟨1, _⟩ => rfl) (by show 40 + i.val = v.val; omega)

end Table

theorem tile_apply (pos : (⟨2, ![512, 128]⟩ : Shape).Idx → α)
    (hs : (⟨2, ![512, 128]⟩ : Shape).Slices ![0, 0] ⟨2, ![50, 128]⟩)
    (h1 : (⟨2, ![50, 128]⟩ : Shape).ShapeCasts ⟨4, ![1, 50, 1, 128]⟩)
    (hb : (⟨4, ![1, 50, 1, 128]⟩ : Shape).BroadcastsInDim ⟨4, ![64, 50, 1, 128]⟩ ![0, 1, 2, 3])
    (h2 : (⟨4, ![64, 50, 1, 128]⟩ : Shape).ShapeCasts ⟨2, ![3200, 128]⟩)
    (row : Fin 3200) (c : Fin 128) (l : Fin 50) (hl : row.val % 50 = l.val) :
    shapeCast ⟨2, ![3200, 128]⟩ (broadcastInDim ⟨4, ![64, 50, 1, 128]⟩ ![0, 1, 2, 3] hb
        (shapeCast ⟨4, ![1, 50, 1, 128]⟩ (extractStridedSlice ⟨2, ![50, 128]⟩ ![0, 0] pos hs) h1)) h2 (ix2 row c)
      = pos (ix2 ⟨l.val, by have := l.isLt; omega⟩ c) := by
  have hq : row.val / 50 < 64 := by have := row.isLt; omega
  rw [shapeCast_apply _ h2 (ix2 row c) (ix4 ⟨row.val / 50, hq⟩ l (0 : Fin 1) c) (by
        rw [Shape.rowMajor_val_four, Shape.rowMajor_val_two]
        show ((row.val / 50 * 50 + l.val) * 1 + 0) * 128 + c.val = row.val * 128 + c.val
        have := Nat.div_add_mod row.val 50
        rw [hl] at this
        rw [Nat.mul_one, Nat.add_zero, Nat.mul_comm (row.val / 50) 50, this])]
  rw [broadcastInDim_apply ![0, 1, 2, 3] hb _ (ix4 ⟨row.val / 50, hq⟩ l (0 : Fin 1) c) (ix4 (0 : Fin 1) l (0 : Fin 1) c) (fun a => by
        match a with
        | ⟨0, _⟩ => rfl
        | ⟨1, _⟩ => show l.val = if (50 : ℕ) = 1 then 0 else l.val; rw [if_neg (by norm_num)]
        | ⟨2, _⟩ => rfl
        | ⟨3, _⟩ => show c.val = if (128 : ℕ) = 1 then 0 else c.val; rw [if_neg (by norm_num)])]
  rw [shapeCast_apply _ h1 (ix4 (0 : Fin 1) l (0 : Fin 1) c) (ix2 l c) (by
        rw [Shape.rowMajor_val_two, Shape.rowMajor_val_four]
        show l.val * 128 + c.val = ((0 * 50 + l.val) * 1 + 0) * 128 + c.val
        omega)]
  refine extractStridedSlice_apply ![0, 0] pos hs (ix2 l c) _ fun a => ?_
  match a with
  | ⟨0, _⟩ => show l.val = 0 + l.val; omega
  | ⟨1, _⟩ => show c.val = 0 + c.val; omega

end Cert.Layout
-- ==== Proof.KIPiece.lean ====
/-
  The mathematics of one stored tile: lane r of a chunk holds the words of sequence n at position l; when those words
  lie in their ranges the three indicator columns select row tok of the first table, row dec of the second and row chg of
  the third out of the stacked table, so the lane's summed embedding is the specification's, and the tile's entry (r, c)
  is the specification's entry (n, l, c).
-/
import proofs.«131727_g78563541778773_cont_9to1c4b_168_6_alg».proof.Proof.KIChunkRow
import proofs.«131727_g78563541778773_cont_9to1c4b_168_6_alg».proof.Proof.LayoutReads

noncomputable section

open scoped BigOperators

namespace Cert.KernelIdeal.ChunkVal

open Idealize.ShloMosaic Idealize.ShloMosaic.ValueIdx
open Cert.KernelIdeal Cert.KernelIdeal.Gen Cert.KernelIdeal.Hand Cert.Spec Cert.Layout

theorem toNat_add_small (w : BitVec 32) (k : Nat) (hw : w.toNat < 10) (hk : k < 100) :
    (IntOp.addi w (BitVec.ofNat 32 k)).toNat = w.toNat + k := by
  show (w + BitVec.ofNat 32 k).toNat = _
  rw [BitVec.toNat_add, BitVec.toNat_ofNat]
  have : k % 2 ^ 32 = k := Nat.mod_eq_of_lt (by omega)
  rw [this]
  exact Nat.mod_eq_of_lt (by omega)

theorem piece (a0 a1 : (⟨2, ![16384, 50]⟩ : Shape).Idx → BitVec 32) (a2 : (⟨1, ![16384]⟩ : Shape).Idx → BitVec 32)
    (a3 : (⟨2, ![30, 128]⟩ : Shape).Idx → EReal) (a4 a5 : (⟨2, ![10, 128]⟩ : Shape).Idx → EReal)
    (a6 : (⟨2, ![512, 128]⟩ : Shape).Idx → EReal) (a7 a8 : (⟨1, ![128]⟩ : Shape).Idx → EReal)
    (Z : (⟨2, ![78, 128]⟩ : Shape).Idx → EReal)
    (h : Shape.Concatenates ((pieces a3 a4 a5 Z).map (·.1)) ⟨2, ![128, 128]⟩ (0 : Fin 2))
    (hR : InRange a0 a1 a2)
    (tokRow decRow chgRow : Vec Ideal S1x1x128 .i32) (tblB posB : FVec Ideal S128x128 .f32) (gB bB : FVec Ideal S1x128 .f32)
    (n : Fin 16384) (l : Fin 50) (r c : Fin 128)
    (htok : tokRow (ix3 (0 : Fin 1) (0 : Fin 1) r) = a0 (ix2 n l))
    (hdec : decRow (ix3 (0 : Fin 1) (0 : Fin 1) r) = IntOp.addi (a1 (ix2 n l)) 30#32)
    (hchg : chgRow (ix3 (0 : Fin 1) (0 : Fin 1) r) = IntOp.addi (a2 (ix1 n)) 40#32)
    (htbl : ∀ v c' : Fin 128, tblB (ix2 v c') = concatenate ⟨2, ![128, 128]⟩ (0 : Fin 2) (pieces a3 a4 a5 Z) h (ix2 v c'))
    (hpos : ∀ c' : Fin 128, posB (ix2 r c') = a6 (ix2 ⟨l.val, by have := l.isLt; omega⟩ c'))
    (hg : ∀ c' : Fin 128, gB (ix2 (0 : Fin 1) c') = a7 (ix1 c'))
    (hb : ∀ c' : Fin 128, bB (ix2 (0 : Fin 1) c') = a8 (ix1 c')) :
    chunkF (F := Ideal) tokRow decRow chgRow tblB posB gB bB (ix2 r c) = G a0 a1 a2 a3 a4 a5 a6 a7 a8 (ix3 n l c) := by
  obtain ⟨ht, hd, hc⟩ := hR
  have hta := ht (ix2 n l)
  have hda := hd (ix2 n l)
  have hca := hc (ix1 n)
  have e1 : (decRow (ix3 (0 : Fin 1) (0 : Fin 1) r)).toNat = (a1 (ix2 n l)).toNat + 30 := by
    rw [hdec]; exact toNat_add_small _ 30 hda (by norm_num)
  have e2 : (chgRow (ix3 (0 : Fin 1) (0 : Fin 1) r)).toNat = (a2 (ix1 n)).toNat + 40 := by
    rw [hchg]; exact toNat_add_small _ 40 hca (by norm_num)
  have e0 : (tokRow (ix3 (0 : Fin 1) (0 : Fin 1) r)).toNat = (a0 (ix2 n l)).toNat := by rw [htok]
  have hemb : ∀ c' : Fin 128, embF tokRow decRow chgRow tblB posB (ix2 r c') = emb a0 a1 a2 a3 a4 a5 a6 n l c' := by
    intro c'
    rw [embF_row tokRow decRow chgRow tblB posB r c' ⟨(a0 (ix2 n l)).toNat, by omega⟩ ⟨(a1 (ix2 n l)).toNat + 30, by omega⟩
      ⟨(a2 (ix1 n)).toNat + 40, by omega⟩ (by intro e; have := congrArg Fin.val e; simp at this; omega)
      (by intro e; have := congrArg Fin.val e; simp at this; omega) (by intro e; have := congrArg Fin.val e; simp at this; omega)
      e0 e1 e2]
    rw [htbl, htbl, htbl, hpos,
      table_first a3 a4 a5 Z h ⟨(a0 (ix2 n l)).toNat, by omega⟩ c' hta,
      table_second a3 a4 a5 Z h ⟨(a1 (ix2 n l)).toNat + 30, by omega⟩ c' ⟨(a1 (ix2 n l)).toNat, hda⟩ (Nat.add_comm _ _),
      table_third a3 a4 a5 Z h ⟨(a2 (ix1 n)).toNat + 40, by omega⟩ c' ⟨(a2 (ix1 n)).toNat, hca⟩ (Nat.add_comm _ _)]
    unfold emb rowAt
    rw [dif_pos hta, dif_pos hda, dif_pos hca]
  rw [chunkF_row tokRow decRow chgRow tblB posB gB bB r c _ hemb]
  simp only [hg, hb]
  rfl

end Cert.KernelIdeal.ChunkVal

end
-- ==== Proof.KIHost.lean ====
/-
  The host side of the program around its one pipelined region.

  Before the region twenty array operations prepare the region's seven operands from the nine
  arguments (reshapes, the two index shifts, the repeated charge column, the table assembled from
  the three embedding tables and a zero block, the tiled position rows, the scale and shift rows);
  after it one reshape gives the result its final shape.  None of them writes an argument, and none
  of the later ones writes an array the region stages.  This module states what the region finds
  (`V`), reads each window's block off it (`iblk`), shows that every input window's staging buffer
  holds that block whenever the body runs, and derives the claim that the nine arguments end
  unchanged from a run of the whole program to the library's post.
-/
import proofs.«131727_g78563541778773_cont_9to1c4b_168_6_alg».proof.Proof.Gen.KernelIdeal.Launch
import proofs.«131727_g78563541778773_cont_9to1c4b_168_6_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core `c`'s buffers hold when the region is entered: the launch contents carried through the
    twenty operations before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- The operations before the region allocate nothing. -/
theorem pre_fresh : (hostOps0 : List (HloOp τ sig (Elt F))).Forall fun op => op.fresh = ∅ := by
  simp only [List.Forall]; repeat' constructor
/-- Nor does the one after it. -/
theorem post_fresh : (hostOps1 : List (HloOp τ sig (Elt F))).Forall fun op => op.fresh = ∅ := by
  simp only [List.Forall]; repeat' constructor

/-- The program is its first twenty operations, then the region, then the last reshape: run from the launch
    memory it reaches the region at contents `V`, and goes on with the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- The reshape after the region touches only unscoped buffers of the core: arrays of the pipeline or buffers
    the pipeline leaves alone. -/
theorem tail_bufs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- It writes its own result only, which is none of the eight arrays the pipeline stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The nine arguments are written by no operation -/

/-- No operation before the region writes argument 0: the region finds it as it was at launch. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 0 is no array of the pipeline: it ends as it was at launch. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_arg0 m c

/-- No operation before the region writes argument 1: the region finds it as it was at launch. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 1 is no array of the pipeline: it ends as it was at launch. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_arg1 m c

/-- No operation before the region writes argument 2: the region finds it as it was at launch. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 2 is no array of the pipeline: it ends as it was at launch. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_arg2 m c

/-- No operation before the region writes argument 3: the region finds it as it was at launch. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 3 is no array of the pipeline: it ends as it was at launch. -/
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_arg3 m c

/-- No operation before the region writes argument 4: the region finds it as it was at launch. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 4 is no array of the pipeline: it ends as it was at launch. -/
theorem W_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_arg4 m c

/-- No operation before the region writes argument 5: the region finds it as it was at launch. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 5 is no array of the pipeline: it ends as it was at launch. -/
theorem W_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_arg5 m c

/-- No operation before the region writes argument 6: the region finds it as it was at launch. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 6 is no array of the pipeline: it ends as it was at launch. -/
theorem W_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_arg6 m c

/-- No operation before the region writes argument 7: the region finds it as it was at launch. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 7 is no array of the pipeline: it ends as it was at launch. -/
theorem W_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_arg7 m c

/-- No operation before the region writes argument 8: the region finds it as it was at launch. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the operation after it, and argument 8 is no array of the pipeline: it ends as it was at launch. -/
theorem W_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_arg8 m c

/-! ## The windows' blocks -/

/-- Window `w`'s block at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: at every point its current staging buffer holds the window's block there, whether the
    pipeline fetched it at that point or an earlier fetch is still in place (the block index has then not moved). -/
theorem staged0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1: at every point its current staging buffer holds the window's block there, whether the
    pipeline fetched it at that point or an earlier fetch is still in place (the block index has then not moved). -/
theorem staged1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2: at every point its current staging buffer holds the window's block there, whether the
    pipeline fetched it at that point or an earlier fetch is still in place (the block index has then not moved). -/
theorem staged2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3: at every point its current staging buffer holds the window's block there, whether the
    pipeline fetched it at that point or an earlier fetch is still in place (the block index has then not moved). -/
theorem staged3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4: at every point its current staging buffer holds the window's block there, whether the
    pipeline fetched it at that point or an earlier fetch is still in place (the block index has then not moved). -/
theorem staged4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5: at every point its current staging buffer holds the window's block there, whether the
    pipeline fetched it at that point or an earlier fetch is still in place (the block index has then not moved). -/
theorem staged5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6: at every point its current staging buffer holds the window's block there, whether the
    pipeline fetched it at that point or an earlier fetch is still in place (the block index has then not moved). -/
theorem staged6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run of the program to the library's post — every staged array at what the proof data computes, every
    other unscoped buffer as the last reshape leaves it — the nine arguments end as they were launched: each is
    an unscoped buffer that is no array of the pipeline, written by no operation. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans (W_arg0 m dats c),
      ((h c).2 main_arg1 (Pipeline.mem_restRefs_of main_arg1 (by decide) (by decide))).trans (W_arg1 m dats c),
      ((h c).2 main_arg2 (Pipeline.mem_restRefs_of main_arg2 (by decide) (by decide))).trans (W_arg2 m dats c),
      ((h c).2 main_arg3 (Pipeline.mem_restRefs_of main_arg3 (by decide) (by decide))).trans (W_arg3 m dats c),
      ((h c).2 main_arg4 (Pipeline.mem_restRefs_of main_arg4 (by decide) (by decide))).trans (W_arg4 m dats c),
      ((h c).2 main_arg5 (Pipeline.mem_restRefs_of main_arg5 (by decide) (by decide))).trans (W_arg5 m dats c),
      ((h c).2 main_arg6 (Pipeline.mem_restRefs_of main_arg6 (by decide) (by decide))).trans (W_arg6 m dats c),
      ((h c).2 main_arg7 (Pipeline.mem_restRefs_of main_arg7 (by decide) (by decide))).trans (W_arg7 m dats c),
      ((h c).2 main_arg8 (Pipeline.mem_restRefs_of main_arg8 (by decide) (by decide))).trans (W_arg8 m dats c)⟩) h

end Cert.KernelIdeal.Hand

end
-- ==== Proof.KIHostVal.lean ====
/-
  The arrays the kernel's windows stage, as the host operations before the region leave them, in terms of the nine
  argument arrays: the token words regrouped [256, 25, 128]; the decoration words regrouped and shifted by 30; the
  charge word of each sequence repeated over its 50 positions, regrouped and shifted by 40; the 128-row table (the
  three small tables stacked, then 78 zero rows); the position tile (the first 50 position rows repeated 64 times);
  scale and shift as one-row matrices.
-/
import proofs.«131727_g78563541778773_cont_9to1c4b_168_6_alg».proof.Proof.KIHost
import Idealize.ShloMosaic.Lib.StableHlo.Run

noncomputable section

namespace Cert.KernelIdeal.HostVal

open Idealize.ShloMosaic Idealize.ShloMosaic.TcCoe Idealize.SL.Sem
open Cert.KernelIdeal Cert.KernelIdeal.Gen Cert.KernelIdeal.Hand

/-- Each operation's result at its own buffer is its function's value, and at another buffer what was there. -/
macro "host_results" : tactic =>
  `(tactic| repeat (first
      | rw [StableHlo.nullary_result] | rw [StableHlo.unary_result] | rw [StableHlo.binary_result]
      | rw [StableHlo.reshape_result] | rw [StableHlo.nary4_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide)))

variable {F : FTy → Type} [FloatOps F]
variable (m : (ℓ : Loc nD τ sig) → Buf (Elt F) ℓ)

theorem V_tok (c : Dev nD) : (V m c main_v0 : S256x25x128.Idx → BitVec 32)
    = shapeCast S256x25x128 (m ((c : Thread nD τ).loc main_arg0)) shapeCasts_S16384x50_S256x25x128 := by
  show StableHlo.after hostOps0 (fun b => m (c, b)) (Proc.devRef .tc main_v0) = _
  after_results
  rfl

theorem V_dec (c : Dev nD) : (V m c main_v3 : S256x25x128.Idx → BitVec 32)
    = addi (shapeCast S256x25x128 (m ((c : Thread nD τ).loc main_arg1)) shapeCasts_S16384x50_S256x25x128)
        (broadcastInDim S256x25x128 ![] bcast_S_S256x25x128 (constantI S_ 32 30#32)) := by
  show StableHlo.after hostOps0 (fun b => m (c, b)) (Proc.devRef .tc main_v3) = _
  after_results
  rfl

theorem V_chg (c : Dev nD) : (V m c main_v8 : S256x25x128.Idx → BitVec 32)
    = addi (shapeCast S256x25x128 (shapeCast S819200 (broadcastInDim S16384x50 ![0] bcast_S16384_S16384x50_0
          (m ((c : Thread nD τ).loc main_arg2))) shapeCasts_S16384x50_S819200) shapeCasts_S819200_S256x25x128)
        (broadcastInDim S256x25x128 ![] bcast_S_S256x25x128 (constantI S_ 32 40#32)) := by
  show StableHlo.after hostOps0 (fun b => m (c, b)) (Proc.devRef .tc main_v8) = _
  after_results
  rfl

theorem V_tbl (c : Dev nD) : (V m c main_v10 : S128x128.Idx → F .f32)
    = concatenate S128x128 0 [⟨S30x128, m ((c : Thread nD τ).loc main_arg3)⟩, ⟨S10x128, m ((c : Thread nD τ).loc main_arg4)⟩,
        ⟨S10x128, m ((c : Thread nD τ).loc main_arg5)⟩,
        ⟨S78x128, broadcastInDim S78x128 ![] bcast_S_S78x128 (constant (F := F) S_ .f32 0x00000000#32)⟩]
        concatenates_S30x128_S10x128_S10x128_S78x128_S128x128_d0 := by
  show StableHlo.after hostOps0 (fun b => m (c, b)) (Proc.devRef .tc main_v10) = _
  simp only [StableHlo.after_cons, StableHlo.after_nil]
  host_results
  rfl

theorem V_pos (c : Dev nD) : (V m c main_v14 : S3200x128.Idx → F .f32)
    = shapeCast S3200x128 (broadcastInDim S64x50x1x128 ![0, 1, 2, 3] bcast_S1x50x1x128_S64x50x1x128_0_1_2_3
        (shapeCast S1x50x1x128 (extractStridedSlice S50x128 ![0, 0] (m ((c : Thread nD τ).loc main_arg6)) slices_S512x128_S50x128_0_0)
          shapeCasts_S50x128_S1x50x1x128)) shapeCasts_S64x50x1x128_S3200x128 := by
  show StableHlo.after hostOps0 (fun b => m (c, b)) (Proc.devRef .tc main_v14) = _
  after_results
  rfl

theorem V_g (c : Dev nD) : (V m c main_v15 : S1x128.Idx → F .f32)
    = shapeCast S1x128 (m ((c : Thread nD τ).loc main_arg7)) shapeCasts_S128_S1x128 := by
  show StableHlo.after hostOps0 (fun b => m (c, b)) (Proc.devRef .tc main_v15) = _
  after_results
  rfl

theorem V_b (c : Dev nD) : (V m c main_v16 : S1x128.Idx → F .f32)
    = shapeCast S1x128 (m ((c : Thread nD τ).loc main_arg8)) shapeCasts_S128_S1x128 := by
  show StableHlo.after hostOps0 (fun b => m (c, b)) (Proc.devRef .tc main_v16) = _
  after_results
  rfl

end Cert.KernelIdeal.HostVal

end
-- ==== Proof.KIBody.lean ====
/-
  The kernel body on its staging buffers.

  The body handles the block's 3200 rows in 25 chunks of 128.  For chunk k it reads row k of the
  three index blocks, the whole table, rows 128k .. 128k+127 of the position tile and the scale and
  shift rows, computes the chunk's result (`chunkF`) and stores it to rows 128k .. 128k+127 of the
  output buffer.  The 25 stores tile the output buffer, so what the buffer holds afterwards does not
  depend on what it held before: it is `out`, chunk k's result on rows 128k .. 128k+127.
-/
import proofs.«131727_g78563541778773_cont_9to1c4b_168_6_alg».proof.Proof.KIChunk
import proofs.«131727_g78563541778773_cont_9to1c4b_168_6_alg».proof.Proof.Gen.KernelIdeal.Skeleton
import proofs.«131727_g78563541778773_cont_9to1c4b_168_6_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The rectangles the body reads and writes -/

/-- The whole table, the whole scale (or shift) row. -/
abbrev rTbl : Rect S128x128 := Rect.unit (s := S128x128) ![0, 0] S128x128.size inb_S128x128_S128x128_0_0
abbrev rRow : Rect S1x128 := Rect.unit (s := S1x128) ![0, 0] S1x128.size inb_S1x128_S1x128_0_0
/-- Row k of an index block; rows 128k .. 128k+127 of the position tile and of the output buffer. -/
abbrev rTok0 : Rect S1x25x128 := Rect.unit (s := S1x25x128) ![0, 0, 0] S1x1x128.size inb_S1x25x128_S1x1x128_0_0_0
abbrev rPos0 : Rect S3200x128 := Rect.unit (s := S3200x128) ![0, 0] S128x128.size inb_S3200x128_S128x128_0_0
abbrev rTok1 : Rect S1x25x128 := Rect.unit (s := S1x25x128) ![0, 1, 0] S1x1x128.size inb_S1x25x128_S1x1x128_0_1_0
abbrev rPos1 : Rect S3200x128 := Rect.unit (s := S3200x128) ![128, 0] S128x128.size inb_S3200x128_S128x128_128_0
abbrev rTok2 : Rect S1x25x128 := Rect.unit (s := S1x25x128) ![0, 2, 0] S1x1x128.size inb_S1x25x128_S1x1x128_0_2_0
abbrev rPos2 : Rect S3200x128 := Rect.unit (s := S3200x128) ![256, 0] S128x128.size inb_S3200x128_S128x128_256_0
abbrev rTok3 : Rect S1x25x128 := Rect.unit (s := S1x25x128) ![0, 3, 0] S1x1x128.size inb_S1x25x128_S1x1x128_0_3_0
abbrev rPos3 : Rect S3200x128 := Rect.unit (s := S3200x128) ![384, 0] S128x128.size inb_S3200x128_S128x128_384_0
abbrev rTok4 : Rect S1x25x128 := Rect.unit (s := S1x25x128) ![0, 4, 0] S1x1x128.size inb_S1x25x128_S1x1x128_0_4_0
abbrev rPos4 : Rect S3200x128 := Rect.unit (s := S3200x128) ![512, 0] S128x128.size inb_S3200x128_S128x128_512_0
abbrev rTok5 : Rect S1x25x128 := Rect.unit (s := S1x25x128) ![0, 5, 0] S1x1x128.size inb_S1x25x128_S1x1x128_0_5_0
abbrev rPos5 : Rect S3200x128 := Rect.unit (s := S3200x128) ![640, 0] S128x128.size inb_S3200x128_S128x128_640_0
abbrev rTok6 : Rect S1x25x128 := Rect.unit (s := S1x25x128) ![0, 6, 0] S1x1x128.size inb_S1x25x128_S1x1x128_0_6_0
abbrev rPos6 : Rect S3200x128 := Rect.unit (s := S3200x128) ![768, 0] S128x128.size inb_S3200x128_S128x128_768_0
abbrev rTok7 : Rect S1x25x128 := Rect.unit (s := S1x25x128) ![0, 7, 0] S1x1x128.size inb_S1x25x128_S1x1x128_0_7_0
abbrev rPos7 : Rect S3200x128 := Rect.unit (s := S3200x128) ![896, 0] S128x128.size inb_S3200x128_S128x128_896_0
abbrev rTok8 : Rect S1x25x128 := Rect.unit (s := S1x25x128) ![0, 8, 0] S1x1x128.size inb_S1x25x128_S1x1x128_0_8_0
abbrev rPos8 : Rect S3200x128 := Rect.unit (s := S3200x128) ![1024, 0] S128x128.size inb_S3200x128_S128x128_1024_0
abbrev rTok9 : Rect S1x25x128 := Rect.unit (s := S1x25x128) ![0, 9, 0] S1x1x128.size inb_S1x25x128_S1x1x128_0_9_0
abbrev rPos9 : Rect S3200x128 := Rect.unit (s := S3200x128) ![1152, 0] S128x128.size inb_S3200x128_S128x128_1152_0
abbrev rTok10 : Rect S1x25x128 := Rect.unit (s := S1x25x128) ![0, 10, 0] S1x1x128.size inb_S1x25x128_S1x1x128_0_10_0
abbrev rPos10 : Rect S3200x128 := Rect.unit (s := S3200x128) ![1280, 0] S128x128.size inb_S3200x128_S128x128_1280_0
abbrev rTok11 : Rect S1x25x128 := Rect.unit (s := S1x25x128) ![0, 11, 0] S1x1x128.size inb_S1x25x128_S1x1x128_0_11_0
abbrev rPos11 : Rect S3200x128 := Rect.unit (s := S3200x128) ![1408, 0] S128x128.size inb_S3200x128_S128x128_1408_0
abbrev rTok12 : Rect S1x25x128 := Rect.unit (s := S1x25x128) ![0, 12, 0] S1x1x128.size inb_S1x25x128_S1x1x128_0_12_0
abbrev rPos12 : Rect S3200x128 := Rect.unit (s := S3200x128) ![1536, 0] S128x128.size inb_S3200x128_S128x128_1536_0
abbrev rTok13 : Rect S1x25x128 := Rect.unit (s := S1x25x128) ![0, 13, 0] S1x1x128.size inb_S1x25x128_S1x1x128_0_13_0
abbrev rPos13 : Rect S3200x128 := Rect.unit (s := S3200x128) ![1664, 0] S128x128.size inb_S3200x128_S128x128_1664_0
abbrev rTok14 : Rect S1x25x128 := Rect.unit (s := S1x25x128) ![0, 14, 0] S1x1x128.size inb_S1x25x128_S1x1x128_0_14_0
abbrev rPos14 : Rect S3200x128 := Rect.unit (s := S3200x128) ![1792, 0] S128x128.size inb_S3200x128_S128x128_1792_0
abbrev rTok15 : Rect S1x25x128 := Rect.unit (s := S1x25x128) ![0, 15, 0] S1x1x128.size inb_S1x25x128_S1x1x128_0_15_0
abbrev rPos15 : Rect S3200x128 := Rect.unit (s := S3200x128) ![1920, 0] S128x128.size inb_S3200x128_S128x128_1920_0
abbrev rTok16 : Rect S1x25x128 := Rect.unit (s := S1x25x128) ![0, 16, 0] S1x1x128.size inb_S1x25x128_S1x1x128_0_16_0
abbrev rPos16 : Rect S3200x128 := Rect.unit (s := S3200x128) ![2048, 0] S128x128.size inb_S3200x128_S128x128_2048_0
abbrev rTok17 : Rect S1x25x128 := Rect.unit (s := S1x25x128) ![0, 17, 0] S1x1x128.size inb_S1x25x128_S1x1x128_0_17_0
abbrev rPos17 : Rect S3200x128 := Rect.unit (s := S3200x128) ![2176, 0] S128x128.size inb_S3200x128_S128x128_2176_0
abbrev rTok18 : Rect S1x25x128 := Rect.unit (s := S1x25x128) ![0, 18, 0] S1x1x128.size inb_S1x25x128_S1x1x128_0_18_0
abbrev rPos18 : Rect S3200x128 := Rect.unit (s := S3200x128) ![2304, 0] S128x128.size inb_S3200x128_S128x128_2304_0
abbrev rTok19 : Rect S1x25x128 := Rect.unit (s := S1x25x128) ![0, 19, 0] S1x1x128.size inb_S1x25x128_S1x1x128_0_19_0
abbrev rPos19 : Rect S3200x128 := Rect.unit (s := S3200x128) ![2432, 0] S128x128.size inb_S3200x128_S128x128_2432_0
abbrev rTok20 : Rect S1x25x128 := Rect.unit (s := S1x25x128) ![0, 20, 0] S1x1x128.size inb_S1x25x128_S1x1x128_0_20_0
abbrev rPos20 : Rect S3200x128 := Rect.unit (s := S3200x128) ![2560, 0] S128x128.size inb_S3200x128_S128x128_2560_0
abbrev rTok21 : Rect S1x25x128 := Rect.unit (s := S1x25x128) ![0, 21, 0] S1x1x128.size inb_S1x25x128_S1x1x128_0_21_0
abbrev rPos21 : Rect S3200x128 := Rect.unit (s := S3200x128) ![2688, 0] S128x128.size inb_S3200x128_S128x128_2688_0
abbrev rTok22 : Rect S1x25x128 := Rect.unit (s := S1x25x128) ![0, 22, 0] S1x1x128.size inb_S1x25x128_S1x1x128_0_22_0
abbrev rPos22 : Rect S3200x128 := Rect.unit (s := S3200x128) ![2816, 0] S128x128.size inb_S3200x128_S128x128_2816_0
abbrev rTok23 : Rect S1x25x128 := Rect.unit (s := S1x25x128) ![0, 23, 0] S1x1x128.size inb_S1x25x128_S1x1x128_0_23_0
abbrev rPos23 : Rect S3200x128 := Rect.unit (s := S3200x128) ![2944, 0] S128x128.size inb_S3200x128_S128x128_2944_0
abbrev rTok24 : Rect S1x25x128 := Rect.unit (s := S1x25x128) ![0, 24, 0] S1x1x128.size inb_S1x25x128_S1x1x128_0_24_0
abbrev rPos24 : Rect S3200x128 := Rect.unit (s := S3200x128) ![3072, 0] S128x128.size inb_S3200x128_S128x128_3072_0

/-! ## What the body leaves in the output buffer -/

/-- The output buffer after the body, from the seven input blocks: the 25 stores as pieces, the last store first,
    chunk k's piece the chunk's result over rows 128k .. 128k+127. -/
def out (x0 x1 x2 : Vec F S1x25x128 .i32) (x3 : Vec F S128x128 .f32) (x4 : Vec F S3200x128 .f32)
    (x5 x6 : Vec F S1x128 .f32) : Vec F S3200x128 .f32 :=
  View.canon [
    ⟨rPos24, chunkF (View.ld x0 rTok24) (View.ld x1 rTok24) (View.ld x2 rTok24) (View.ld x3 rTbl) (View.ld x4 rPos24) (View.ld x5 rRow) (View.ld x6 rRow)⟩,
    ⟨rPos23, chunkF (View.ld x0 rTok23) (View.ld x1 rTok23) (View.ld x2 rTok23) (View.ld x3 rTbl) (View.ld x4 rPos23) (View.ld x5 rRow) (View.ld x6 rRow)⟩,
    ⟨rPos22, chunkF (View.ld x0 rTok22) (View.ld x1 rTok22) (View.ld x2 rTok22) (View.ld x3 rTbl) (View.ld x4 rPos22) (View.ld x5 rRow) (View.ld x6 rRow)⟩,
    ⟨rPos21, chunkF (View.ld x0 rTok21) (View.ld x1 rTok21) (View.ld x2 rTok21) (View.ld x3 rTbl) (View.ld x4 rPos21) (View.ld x5 rRow) (View.ld x6 rRow)⟩,
    ⟨rPos20, chunkF (View.ld x0 rTok20) (View.ld x1 rTok20) (View.ld x2 rTok20) (View.ld x3 rTbl) (View.ld x4 rPos20) (View.ld x5 rRow) (View.ld x6 rRow)⟩,
    ⟨rPos19, chunkF (View.ld x0 rTok19) (View.ld x1 rTok19) (View.ld x2 rTok19) (View.ld x3 rTbl) (View.ld x4 rPos19) (View.ld x5 rRow) (View.ld x6 rRow)⟩,
    ⟨rPos18, chunkF (View.ld x0 rTok18) (View.ld x1 rTok18) (View.ld x2 rTok18) (View.ld x3 rTbl) (View.ld x4 rPos18) (View.ld x5 rRow) (View.ld x6 rRow)⟩,
    ⟨rPos17, chunkF (View.ld x0 rTok17) (View.ld x1 rTok17) (View.ld x2 rTok17) (View.ld x3 rTbl) (View.ld x4 rPos17) (View.ld x5 rRow) (View.ld x6 rRow)⟩,
    ⟨rPos16, chunkF (View.ld x0 rTok16) (View.ld x1 rTok16) (View.ld x2 rTok16) (View.ld x3 rTbl) (View.ld x4 rPos16) (View.ld x5 rRow) (View.ld x6 rRow)⟩,
    ⟨rPos15, chunkF (View.ld x0 rTok15) (View.ld x1 rTok15) (View.ld x2 rTok15) (View.ld x3 rTbl) (View.ld x4 rPos15) (View.ld x5 rRow) (View.ld x6 rRow)⟩,
    ⟨rPos14, chunkF (View.ld x0 rTok14) (View.ld x1 rTok14) (View.ld x2 rTok14) (View.ld x3 rTbl) (View.ld x4 rPos14) (View.ld x5 rRow) (View.ld x6 rRow)⟩,
    ⟨rPos13, chunkF (View.ld x0 rTok13) (View.ld x1 rTok13) (View.ld x2 rTok13) (View.ld x3 rTbl) (View.ld x4 rPos13) (View.ld x5 rRow) (View.ld x6 rRow)⟩,
    ⟨rPos12, chunkF (View.ld x0 rTok12) (View.ld x1 rTok12) (View.ld x2 rTok12) (View.ld x3 rTbl) (View.ld x4 rPos12) (View.ld x5 rRow) (View.ld x6 rRow)⟩,
    ⟨rPos11, chunkF (View.ld x0 rTok11) (View.ld x1 rTok11) (View.ld x2 rTok11) (View.ld x3 rTbl) (View.ld x4 rPos11) (View.ld x5 rRow) (View.ld x6 rRow)⟩,
    ⟨rPos10, chunkF (View.ld x0 rTok10) (View.ld x1 rTok10) (View.ld x2 rTok10) (View.ld x3 rTbl) (View.ld x4 rPos10) (View.ld x5 rRow) (View.ld x6 rRow)⟩,
    ⟨rPos9, chunkF (View.ld x0 rTok9) (View.ld x1 rTok9) (View.ld x2 rTok9) (View.ld x3 rTbl) (View.ld x4 rPos9) (View.ld x5 rRow) (View.ld x6 rRow)⟩,
    ⟨rPos8, chunkF (View.ld x0 rTok8) (View.ld x1 rTok8) (View.ld x2 rTok8) (View.ld x3 rTbl) (View.ld x4 rPos8) (View.ld x5 rRow) (View.ld x6 rRow)⟩,
    ⟨rPos7, chunkF (View.ld x0 rTok7) (View.ld x1 rTok7) (View.ld x2 rTok7) (View.ld x3 rTbl) (View.ld x4 rPos7) (View.ld x5 rRow) (View.ld x6 rRow)⟩,
    ⟨rPos6, chunkF (View.ld x0 rTok6) (View.ld x1 rTok6) (View.ld x2 rTok6) (View.ld x3 rTbl) (View.ld x4 rPos6) (View.ld x5 rRow) (View.ld x6 rRow)⟩,
    ⟨rPos5, chunkF (View.ld x0 rTok5) (View.ld x1 rTok5) (View.ld x2 rTok5) (View.ld x3 rTbl) (View.ld x4 rPos5) (View.ld x5 rRow) (View.ld x6 rRow)⟩,
    ⟨rPos4, chunkF (View.ld x0 rTok4) (View.ld x1 rTok4) (View.ld x2 rTok4) (View.ld x3 rTbl) (View.ld x4 rPos4) (View.ld x5 rRow) (View.ld x6 rRow)⟩,
    ⟨rPos3, chunkF (View.ld x0 rTok3) (View.ld x1 rTok3) (View.ld x2 rTok3) (View.ld x3 rTbl) (View.ld x4 rPos3) (View.ld x5 rRow) (View.ld x6 rRow)⟩,
    ⟨rPos2, chunkF (View.ld x0 rTok2) (View.ld x1 rTok2) (View.ld x2 rTok2) (View.ld x3 rTbl) (View.ld x4 rPos2) (View.ld x5 rRow) (View.ld x6 rRow)⟩,
    ⟨rPos1, chunkF (View.ld x0 rTok1) (View.ld x1 rTok1) (View.ld x2 rTok1) (View.ld x3 rTbl) (View.ld x4 rPos1) (View.ld x5 rRow) (View.ld x6 rRow)⟩,
    ⟨rPos0, chunkF (View.ld x0 rTok0) (View.ld x1 rTok0) (View.ld x2 rTok0) (View.ld x3 rTbl) (View.ld x4 rPos0) (View.ld x5 rRow) (View.ld x6 rRow)⟩]

/-- The 25 stores tile the output buffer in blocks of 128 rows, so every element lies in one of them. -/
theorem cover (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (p15 : Vec F S128x128 .f32) (p16 : Vec F S128x128 .f32) (p17 : Vec F S128x128 .f32) (p18 : Vec F S128x128 .f32) (p19 : Vec F S128x128 .f32) (p20 : Vec F S128x128 .f32) (p21 : Vec F S128x128 .f32) (p22 : Vec F S128x128 .f32) (p23 : Vec F S128x128 .f32) (p24 : Vec F S128x128 .f32) (y : S3200x128.Idx) :
    ∃ pc ∈ ([⟨rPos24, p24⟩, ⟨rPos23, p23⟩, ⟨rPos22, p22⟩, ⟨rPos21, p21⟩, ⟨rPos20, p20⟩, ⟨rPos19, p19⟩, ⟨rPos18, p18⟩, ⟨rPos17, p17⟩, ⟨rPos16, p16⟩, ⟨rPos15, p15⟩, ⟨rPos14, p14⟩, ⟨rPos13, p13⟩, ⟨rPos12, p12⟩, ⟨rPos11, p11⟩, ⟨rPos10, p10⟩, ⟨rPos9, p9⟩, ⟨rPos8, p8⟩, ⟨rPos7, p7⟩, ⟨rPos6, p6⟩, ⟨rPos5, p5⟩, ⟨rPos4, p4⟩, ⟨rPos3, p3⟩, ⟨rPos2, p2⟩, ⟨rPos1, p1⟩, ⟨rPos0, p0⟩] : List (View.Piece (Elt F) S3200x128 .f32)), y ∈ pc.1.set :=
  View.cover_of_tiled [⟨rPos24, p24⟩, ⟨rPos23, p23⟩, ⟨rPos22, p22⟩, ⟨rPos21, p21⟩, ⟨rPos20, p20⟩, ⟨rPos19, p19⟩, ⟨rPos18, p18⟩, ⟨rPos17, p17⟩, ⟨rPos16, p16⟩, ⟨rPos15, p15⟩, ⟨rPos14, p14⟩, ⟨rPos13, p13⟩, ⟨rPos12, p12⟩, ⟨rPos11, p11⟩, ⟨rPos10, p10⟩, ⟨rPos9, p9⟩, ⟨rPos8, p8⟩, ⟨rPos7, p7⟩, ⟨rPos6, p6⟩, ⟨rPos5, p5⟩, ⟨rPos4, p4⟩, ⟨rPos3, p3⟩, ⟨rPos2, p2⟩, ⟨rPos1, p1⟩, ⟨rPos0, p0⟩] S128x128.size (by rfl) y

/-! ## The body's triple -/

set_option maxHeartbeats 4000000 in
/-- The body on whole staging memrefs — the seven inputs' held at contents read as `x0 … x6`, the output's at
    anything — runs to its continuation with the inputs' as they were and the output's read as `out x0 … x6`:
    every load reads its rectangle of an unchanged input (the output buffer's loaded values are used nowhere),
    and the 25 stores, which cover the output buffer, leave the chunk results whatever it held before. -/
theorem sound_kernel (c : Dev nD) (E : Set ℕ) (i : grid0.Coords) (arg1 : Memref sig .tc .vmem S1x25x128 .i32) (harg1 : arg1.IsWhole) (arg2 : Memref sig .tc .vmem S1x25x128 .i32) (harg2 : arg2.IsWhole) (arg3 : Memref sig .tc .vmem S1x25x128 .i32) (harg3 : arg3.IsWhole) (arg4 : Memref sig .tc .vmem S128x128 .f32) (harg4 : arg4.IsWhole) (arg5 : Memref sig .tc .vmem S3200x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S3200x128 .f32) (harg8 : arg8.IsWhole)
    (x0 x1 x2 : Vec F S1x25x128 .i32) (x3 : Vec F S128x128 .f32) (x4 : Vec F S3200x128 .f32) (x5 x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out x0 x1 x2 x3 x4 x5 x6)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _ _ _ _ _ _ _ _ _ _ _ _ _ _ _ _ _ _ _ _ _ _ _ _ _)

end Cert.KernelIdeal.Hand

end
-- ==== Proof.KIRects.lean ====
/-
  The body's per-chunk rectangles as functions of the chunk number: row K of an index block, rows
  128K .. 128K+127 of the position tile and of the output block.
-/
import proofs.«131727_g78563541778773_cont_9to1c4b_168_6_alg».proof.Proof.KIBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The chunk rectangles as functions of the chunk -/

theorem rTok_inb (K : Fin 25) : ∀ a, (![0, K.val, 0] : Fin 3 → Nat) a + S1x1x128.size a ≤ S1x25x128.size a := by
  intro a
  have hK := K.isLt
  match a with
  | ⟨0, _⟩ => show 0 + 1 ≤ 1; omega
  | ⟨1, _⟩ => show K.val + 1 ≤ 25; omega
  | ⟨2, _⟩ => show 0 + 128 ≤ 128; omega

theorem rPos_inb (K : Fin 25) : ∀ a, (![128 * K.val, 0] : Fin 2 → Nat) a + S128x128.size a ≤ S3200x128.size a := by
  intro a
  have hK := K.isLt
  match a with
  | ⟨0, _⟩ => show 128 * K.val + 128 ≤ 3200; omega
  | ⟨1, _⟩ => show 0 + 128 ≤ 128; omega

/-- Row K of an index block. -/
abbrev rTok (K : Fin 25) : Rect S1x25x128 := Rect.unit (s := S1x25x128) ![0, K.val, 0] S1x1x128.size (rTok_inb K)
/-- Rows 128K .. 128K+127 of the position tile, and of the output block. -/
abbrev rPos (K : Fin 25) : Rect S3200x128 := Rect.unit (s := S3200x128) ![128 * K.val, 0] S128x128.size (rPos_inb K)

/-- At each literal chunk they are the rectangles the body is printed with. -/
theorem rTok_0 : rTok 0 = rTok0 := rfl
theorem rTok_1 : rTok 1 = rTok1 := rfl
theorem rTok_2 : rTok 2 = rTok2 := rfl
theorem rTok_3 : rTok 3 = rTok3 := rfl
theorem rTok_4 : rTok 4 = rTok4 := rfl
theorem rTok_5 : rTok 5 = rTok5 := rfl
theorem rTok_6 : rTok 6 = rTok6 := rfl
theorem rTok_7 : rTok 7 = rTok7 := rfl
theorem rTok_8 : rTok 8 = rTok8 := rfl
theorem rTok_9 : rTok 9 = rTok9 := rfl
theorem rTok_10 : rTok 10 = rTok10 := rfl
theorem rTok_11 : rTok 11 = rTok11 := rfl
theorem rTok_12 : rTok 12 = rTok12 := rfl
theorem rTok_13 : rTok 13 = rTok13 := rfl
theorem rTok_14 : rTok 14 = rTok14 := rfl
theorem rTok_15 : rTok 15 = rTok15 := rfl
theorem rTok_16 : rTok 16 = rTok16 := rfl
theorem rTok_17 : rTok 17 = rTok17 := rfl
theorem rTok_18 : rTok 18 = rTok18 := rfl
theorem rTok_19 : rTok 19 = rTok19 := rfl
theorem rTok_20 : rTok 20 = rTok20 := rfl
theorem rTok_21 : rTok 21 = rTok21 := rfl
theorem rTok_22 : rTok 22 = rTok22 := rfl
theorem rTok_23 : rTok 23 = rTok23 := rfl
theorem rTok_24 : rTok 24 = rTok24 := rfl
theorem rPos_0 : rPos 0 = rPos0 := rfl
theorem rPos_1 : rPos 1 = rPos1 := rfl
theorem rPos_2 : rPos 2 = rPos2 := rfl
theorem rPos_3 : rPos 3 = rPos3 := rfl
theorem rPos_4 : rPos 4 = rPos4 := rfl
theorem rPos_5 : rPos 5 = rPos5 := rfl
theorem rPos_6 : rPos 6 = rPos6 := rfl
theorem rPos_7 : rPos 7 = rPos7 := rfl
theorem rPos_8 : rPos 8 = rPos8 := rfl
theorem rPos_9 : rPos 9 = rPos9 := rfl
theorem rPos_10 : rPos 10 = rPos10 := rfl
theorem rPos_11 : rPos 11 = rPos11 := rfl
theorem rPos_12 : rPos 12 = rPos12 := rfl
theorem rPos_13 : rPos 13 = rPos13 := rfl
theorem rPos_14 : rPos 14 = rPos14 := rfl
theorem rPos_15 : rPos 15 = rPos15 := rfl
theorem rPos_16 : rPos 16 = rPos16 := rfl
theorem rPos_17 : rPos 17 = rPos17 := rfl
theorem rPos_18 : rPos 18 = rPos18 := rfl
theorem rPos_19 : rPos 19 = rPos19 := rfl
theorem rPos_20 : rPos 20 = rPos20 := rfl
theorem rPos_21 : rPos 21 = rPos21 := rfl
theorem rPos_22 : rPos 22 = rPos22 := rfl
theorem rPos_23 : rPos 23 = rPos23 := rfl
theorem rPos_24 : rPos 24 = rPos24 := rfl

end Cert.KernelIdeal.Hand

end
-- ==== Proof.KIIdx.lean ====
/-
  The eight windows' index maps, decided once over the 256 grid points.
-/
import proofs.«131727_g78563541778773_cont_9to1c4b_168_6_alg».proof.Proof.Gen.KernelIdeal.Launch
import proofs.«131727_g78563541778773_cont_9to1c4b_168_6_alg».proof.Proof.Gen.KernelIdeal.Points

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Where each window's block sits in its array -/

/-- A grid point's number is below 256. -/
theorem lt_256 (t : Fin cfg0.N) : t.val < 256 := lt_of_lt_of_eq t.isLt N_0

/-- The printed index maps, decided over the 256 grid points: the three index windows and the output window
    are at block t on their leading axis and block 0 on the others; the table, the position tile and the scale
    and shift rows are always at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

end Cert.KernelIdeal.Hand

end
-- ==== Proof.KIBlocks.lean ====
/-
  Each load of the body, at any grid point, as a read of the array the region finds.

  Window w's block at grid point t is the rectangle of its array at block index (index map at t)
  times the block size; a load of the body reads a rectangle of that block.  For the three index
  windows the block is row t of a [256, 25, 128] array and chunk K loads its row K; the table, the
  position tile and the scale and shift rows are staged whole, chunk K loading rows 128K .. 128K+127
  of the tile.
-/
import proofs.«131727_g78563541778773_cont_9to1c4b_168_6_alg».proof.Proof.KIHost
import proofs.«131727_g78563541778773_cont_9to1c4b_168_6_alg».proof.Proof.KIRects
import proofs.«131727_g78563541778773_cont_9to1c4b_168_6_alg».proof.Proof.KIIdx
import Idealize.ShloMosaic.Lib.ValueIdx
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The body's loads as reads of the arrays the region finds

Each load of chunk K at grid point t reads a rectangle of a window's block, and the block is a rectangle of the
window's array: composed, the loaded element is an element of the array at explicit coordinates. -/

/-- Lane r of row K of window 0's block at point t is the array's element (t, K, r). -/
theorem tok_at (c : Dev nD) (t : Fin cfg0.N) (K : Fin 25) (r : Fin 128) :
    View.ld (iblk m c 0 t) (rTok K) (ix3 (0 : Fin 1) (0 : Fin 1) r)
      = V m c main_v0 (ix3 (⟨t.val, lt_256 t⟩ : Fin 256) (⟨K.val, K.isLt⟩ : Fin 25) r) := by
  obtain ⟨⟨a0, a1, a2⟩, ⟨b0, b1, b2⟩, ⟨c0, c1, c2⟩, -⟩ := idx_facts t
  show V m c main_v0 (((cfg0.win 0).blk t).view.emb ((rTok K).idx (ix3 (0 : Fin 1) (0 : Fin 1) r))) = V m c main_v0 _
  refine congrArg _ ?_
  funext a; apply Fin.ext
  match a with
  | ⟨0, _⟩ => show win0_0.index t (0 : Fin 3) * 1 + 1 * (0 + 1 * 0) = t.val; omega
  | ⟨1, _⟩ => show win0_0.index t (1 : Fin 3) * 25 + 1 * (K.val + 1 * 0) = K.val; omega
  | ⟨2, _⟩ => show win0_0.index t (2 : Fin 3) * 128 + 1 * (0 + 1 * r.val) = r.val; omega

/-- Lane r of row K of window 1's block at point t is the array's element (t, K, r). -/
theorem dec_at (c : Dev nD) (t : Fin cfg0.N) (K : Fin 25) (r : Fin 128) :
    View.ld (iblk m c 1 t) (rTok K) (ix3 (0 : Fin 1) (0 : Fin 1) r)
      = V m c main_v3 (ix3 (⟨t.val, lt_256 t⟩ : Fin 256) (⟨K.val, K.isLt⟩ : Fin 25) r) := by
  obtain ⟨⟨a0, a1, a2⟩, ⟨b0, b1, b2⟩, ⟨c0, c1, c2⟩, -⟩ := idx_facts t
  show V m c main_v3 (((cfg0.win 1).blk t).view.emb ((rTok K).idx (ix3 (0 : Fin 1) (0 : Fin 1) r))) = V m c main_v3 _
  refine congrArg _ ?_
  funext a; apply Fin.ext
  match a with
  | ⟨0, _⟩ => show win0_1.index t (0 : Fin 3) * 1 + 1 * (0 + 1 * 0) = t.val; omega
  | ⟨1, _⟩ => show win0_1.index t (1 : Fin 3) * 25 + 1 * (K.val + 1 * 0) = K.val; omega
  | ⟨2, _⟩ => show win0_1.index t (2 : Fin 3) * 128 + 1 * (0 + 1 * r.val) = r.val; omega

/-- Lane r of row K of window 2's block at point t is the array's element (t, K, r). -/
theorem chg_at (c : Dev nD) (t : Fin cfg0.N) (K : Fin 25) (r : Fin 128) :
    View.ld (iblk m c 2 t) (rTok K) (ix3 (0 : Fin 1) (0 : Fin 1) r)
      = V m c main_v8 (ix3 (⟨t.val, lt_256 t⟩ : Fin 256) (⟨K.val, K.isLt⟩ : Fin 25) r) := by
  obtain ⟨⟨a0, a1, a2⟩, ⟨b0, b1, b2⟩, ⟨c0, c1, c2⟩, -⟩ := idx_facts t
  show V m c main_v8 (((cfg0.win 2).blk t).view.emb ((rTok K).idx (ix3 (0 : Fin 1) (0 : Fin 1) r))) = V m c main_v8 _
  refine congrArg _ ?_
  funext a; apply Fin.ext
  match a with
  | ⟨0, _⟩ => show win0_2.index t (0 : Fin 3) * 1 + 1 * (0 + 1 * 0) = t.val; omega
  | ⟨1, _⟩ => show win0_2.index t (1 : Fin 3) * 25 + 1 * (K.val + 1 * 0) = K.val; omega
  | ⟨2, _⟩ => show win0_2.index t (2 : Fin 3) * 128 + 1 * (0 + 1 * r.val) = r.val; omega

/-- The table's block is the whole table. -/
theorem tbl_at (c : Dev nD) (t : Fin cfg0.N) (v c' : Fin 128) :
    View.ld (iblk m c 3 t) rTbl (ix2 v c') = V m c main_v10 (ix2 v c') := by
  obtain ⟨-, -, -, ⟨d0, d1⟩, -⟩ := idx_facts t
  show V m c main_v10 (((cfg0.win 3).blk t).view.emb (rTbl.idx (ix2 v c'))) = V m c main_v10 _
  refine congrArg _ ?_
  funext a; apply Fin.ext
  match a with
  | ⟨0, _⟩ => show win0_3.index t (0 : Fin 2) * 128 + 1 * (0 + 1 * v.val) = v.val; omega
  | ⟨1, _⟩ => show win0_3.index t (1 : Fin 2) * 128 + 1 * (0 + 1 * c'.val) = c'.val; omega

/-- Row r of chunk K's rows of the position tile's block is row 128K + r of the tile. -/
theorem pos_at (c : Dev nD) (t : Fin cfg0.N) (K : Fin 25) (r c' : Fin 128) :
    View.ld (iblk m c 4 t) (rPos K) (ix2 r c')
      = V m c main_v14 (ix2 (⟨128 * K.val + r.val, by have := K.isLt; have := r.isLt; omega⟩ : Fin 3200) c') := by
  obtain ⟨-, -, -, -, ⟨e0, e1⟩, -⟩ := idx_facts t
  show V m c main_v14 (((cfg0.win 4).blk t).view.emb ((rPos K).idx (ix2 r c'))) = V m c main_v14 _
  refine congrArg _ ?_
  funext a; apply Fin.ext
  match a with
  | ⟨0, _⟩ => show win0_4.index t (0 : Fin 2) * 3200 + 1 * (128 * K.val + 1 * r.val) = 128 * K.val + r.val; omega
  | ⟨1, _⟩ => show win0_4.index t (1 : Fin 2) * 128 + 1 * (0 + 1 * c'.val) = c'.val; omega

/-- Window 5's block is its whole one-row array. -/
theorem g_at (c : Dev nD) (t : Fin cfg0.N) (c' : Fin 128) :
    View.ld (iblk m c 5 t) rRow (ix2 (0 : Fin 1) c') = V m c main_v15 (ix2 (0 : Fin 1) c') := by
  obtain ⟨-, -, -, -, -, ⟨f0, f1⟩, ⟨g0, g1⟩, -⟩ := idx_facts t
  show V m c main_v15 (((cfg0.win 5).blk t).view.emb (rRow.idx (ix2 (0 : Fin 1) c'))) = V m c main_v15 _
  refine congrArg _ ?_
  funext a; apply Fin.ext
  match a with
  | ⟨0, _⟩ => show win0_5.index t (0 : Fin 2) * 1 + 1 * (0 + 1 * 0) = 0; omega
  | ⟨1, _⟩ => show win0_5.index t (1 : Fin 2) * 128 + 1 * (0 + 1 * c'.val) = c'.val; omega

/-- Window 6's block is its whole one-row array. -/
theorem b_at (c : Dev nD) (t : Fin cfg0.N) (c' : Fin 128) :
    View.ld (iblk m c 6 t) rRow (ix2 (0 : Fin 1) c') = V m c main_v16 (ix2 (0 : Fin 1) c') := by
  obtain ⟨-, -, -, -, -, ⟨f0, f1⟩, ⟨g0, g1⟩, -⟩ := idx_facts t
  show V m c main_v16 (((cfg0.win 6).blk t).view.emb (rRow.idx (ix2 (0 : Fin 1) c'))) = V m c main_v16 _
  refine congrArg _ ?_
  funext a; apply Fin.ext
  match a with
  | ⟨0, _⟩ => show win0_6.index t (0 : Fin 2) * 1 + 1 * (0 + 1 * 0) = 0; omega
  | ⟨1, _⟩ => show win0_6.index t (1 : Fin 2) * 128 + 1 * (0 + 1 * c'.val) = c'.val; omega

end Cert.KernelIdeal.Hand

end
-- ==== Proof.KIGlue.lean ====
/-
  Every stored tile is a tile of the specification: at grid point t, chunk K, lane r the kernel works on flat row
  R = 3200 t + 128 K + r of the [819200, 128] result, that is on sequence R / 50 at position R % 50; the words and
  table rows it loads there are the argument arrays' entries at (R / 50, R % 50), so the tile's entry is the
  specification's.
-/
import proofs.«131727_g78563541778773_cont_9to1c4b_168_6_alg».proof.Proof.KIPiece
import proofs.«131727_g78563541778773_cont_9to1c4b_168_6_alg».proof.Proof.KIHostVal
import proofs.«131727_g78563541778773_cont_9to1c4b_168_6_alg».proof.Proof.KIBlocks

noncomputable section

namespace Cert.KernelIdeal.Glue

open Idealize.ShloMosaic Idealize.ShloMosaic.TcCoe Idealize.ShloMosaic.ValueIdx Idealize.SL.Sem
open Cert.KernelIdeal Cert.KernelIdeal.Gen Cert.KernelIdeal.Hand Cert.KernelIdeal.HostVal Cert.KernelIdeal.ChunkVal
open Cert.Spec Cert.Layout

/-- The specification laid out as the kernel's flat [819200, 128] result: row R holds sequence R / 50 at position R % 50. -/
def Gflat (a0 a1 : (⟨2, ![16384, 50]⟩ : Shape).Idx → BitVec 32) (a2 : (⟨1, ![16384]⟩ : Shape).Idx → BitVec 32)
    (a3 : (⟨2, ![30, 128]⟩ : Shape).Idx → EReal) (a4 a5 : (⟨2, ![10, 128]⟩ : Shape).Idx → EReal)
    (a6 : (⟨2, ![512, 128]⟩ : Shape).Idx → EReal) (a7 a8 : (⟨1, ![128]⟩ : Shape).Idx → EReal) :
    (⟨2, ![819200, 128]⟩ : Shape).Idx → EReal :=
  fun i => G a0 a1 a2 a3 a4 a5 a6 a7 a8
    (ix3 (⟨(i 0).val / 50, by have h : (i 0).val < 819200 := (i 0).isLt; omega⟩ : Fin 16384)
      (⟨(i 0).val % 50, Nat.mod_lt _ (by norm_num)⟩ : Fin 50) (⟨(i 1).val, (i 1).isLt⟩ : Fin 128))

variable (m : (ℓ : Loc nD τ sig) → Buf (Elt Ideal) ℓ)

/-- The tile stored at point t, chunk K is the specification's tile at rows 3200 t + 128 K + r. -/
theorem tile_eq (c : Dev nD)
    (hR : InRange (m ((c : Thread nD τ).loc main_arg0)) (m ((c : Thread nD τ).loc main_arg1)) (m ((c : Thread nD τ).loc main_arg2)))
    (t : Fin cfg0.N) (K : Fin 25) (r c' : Fin 128) :
    chunkF (F := Ideal) (View.ld (iblk m c 0 t) (rTok K)) (View.ld (iblk m c 1 t) (rTok K)) (View.ld (iblk m c 2 t) (rTok K))
        (View.ld (iblk m c 3 t) rTbl) (View.ld (iblk m c 4 t) (rPos K)) (View.ld (iblk m c 5 t) rRow) (View.ld (iblk m c 6 t) rRow)
        (ix2 r c')
      = Gflat (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (ix2 (⟨3200 * t.val + 128 * K.val + r.val, by have := lt_256 t; have := K.isLt; have := r.isLt; omega⟩ : Fin 819200) c') := by
  have ht := lt_256 t
  have hK := K.isLt
  have hr := r.isLt
  have hdm := Nat.div_add_mod (3200 * t.val + 128 * K.val + r.val) 50
  have hn : (3200 * t.val + 128 * K.val + r.val) / 50 < 16384 := by omega
  have hl : (3200 * t.val + 128 * K.val + r.val) % 50 < 50 := Nat.mod_lt _ (by norm_num)
  have e : (3200 * t.val + 128 * K.val + r.val) / 50 * 50 + (3200 * t.val + 128 * K.val + r.val) % 50
      = (t.val * 25 + K.val) * 128 + r.val := by omega
  refine (piece (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (broadcastInDim S78x128 ![] bcast_S_S78x128 (constant (F := Ideal) S_ .f32 0x00000000#32))
    concatenates_S30x128_S10x128_S10x128_S78x128_S128x128_d0 hR _ _ _ _ _ _ _
    ⟨(3200 * t.val + 128 * K.val + r.val) / 50, hn⟩ ⟨(3200 * t.val + 128 * K.val + r.val) % 50, hl⟩ r c' ?_ ?_ ?_ ?_ ?_ ?_ ?_).trans ?_
  · rw [tok_at, V_tok]
    exact regroup_apply _ _ _ _ _ _ _ e
  · rw [dec_at, V_dec]
    exact congrArg (fun w => IntOp.addi w 30#32) (regroup_apply _ _ _ _ _ _ _ e)
  · rw [chg_at, V_chg]
    exact congrArg (fun w => IntOp.addi w 40#32)
      (repeat_apply _ _ _ _ _ _ _ _ ⟨(3200 * t.val + 128 * K.val + r.val) % 50, hl⟩ e)
  · intro v c''
    rw [tbl_at, V_tbl]
  · intro c''
    rw [pos_at, V_pos]
    exact tile_apply _ _ _ _ _ _ c'' ⟨(3200 * t.val + 128 * K.val + r.val) % 50, hl⟩ (by show (128 * K.val + r.val) % 50 = (3200 * t.val + 128 * K.val + r.val) % 50; omega)
  · intro c''
    rw [g_at, V_g]
    exact shapeCast_a_1a_apply _ _ _ _
  · intro c''
    rw [b_at, V_b]
    exact shapeCast_a_1a_apply _ _ _ _
  · unfold Gflat
    rfl

end Cert.KernelIdeal.Glue

end
-- ==== Proof.KIRun.lean ====
/-
  The whole program's run.

  The proof data of the one pipeline says what each window's staging buffer holds after the body at
  each of the 256 grid points: an input window's buffer its block, the output window's buffer the
  25 chunk results over the seven input blocks.  With the body's triple at a generic point this
  gives the library's run of the program around its region, and from it the nine arguments end
  unchanged.
-/
import proofs.«131727_g78563541778773_cont_9to1c4b_168_6_alg».proof.Proof.KIHost
import proofs.«131727_g78563541778773_cont_9to1c4b_168_6_alg».proof.Proof.KIBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the eight arrays as the region finds them; after the body at grid point `t` each input
    window's staging buffer still at the window's block there, and the output window's at `out` of the seven
    input blocks; between points the buffers the pipeline does not stage and the generator register, untouched;
    full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the record projected, nothing unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out (iblk m c 0 t) (iblk m c 1 t) (iblk m c 2 t) (iblk m c 3 t) (iblk m c 4 t) (iblk m c 5 t) (iblk m c 6 t) := by dsimp only [dats]

/-- Every input window's current staging buffer holds its block when the body runs. -/
theorem before0 (c : Dev nD) (t : Fin cfg0.N) (d) : (dats m 0 c).before 0 t d = iblk m c 0 t :=
  staged0 m (dats m 0 c) (A_eq m c 0) (after0 m c) t d
theorem before1 (c : Dev nD) (t : Fin cfg0.N) (d) : (dats m 0 c).before 1 t d = iblk m c 1 t :=
  staged1 m (dats m 0 c) (A_eq m c 1) (after1 m c) t d
theorem before2 (c : Dev nD) (t : Fin cfg0.N) (d) : (dats m 0 c).before 2 t d = iblk m c 2 t :=
  staged2 m (dats m 0 c) (A_eq m c 2) (after2 m c) t d
theorem before3 (c : Dev nD) (t : Fin cfg0.N) (d) : (dats m 0 c).before 3 t d = iblk m c 3 t :=
  staged3 m (dats m 0 c) (A_eq m c 3) (after3 m c) t d
theorem before4 (c : Dev nD) (t : Fin cfg0.N) (d) : (dats m 0 c).before 4 t d = iblk m c 4 t :=
  staged4 m (dats m 0 c) (A_eq m c 4) (after4 m c) t d
theorem before5 (c : Dev nD) (t : Fin cfg0.N) (d) : (dats m 0 c).before 5 t d = iblk m c 5 t :=
  staged5 m (dats m 0 c) (A_eq m c 5) (after5 m c) t d
theorem before6 (c : Dev nD) (t : Fin cfg0.N) (d) : (dats m 0 c).before 6 t d = iblk m c 6 t :=
  staged6 m (dats m 0 c) (A_eq m c 6) (after6 m c) t d

/-! ## The body at a grid point -/

/-- What the body is called with at point `t`: the invariant, the core's debts, and each window's current
    staging buffer at what the pipeline left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns: the same with each buffer at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the body's triple applies; the invariant and
    the debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's obligation on the body, at every point. -/
theorem body_obligation (c : Dev nD) : BodyObligation (dats (F := F) m 0 c) (defs₀ (F := F)) Variants.none () Set.univ := fun t => by
  rw [bigSep_W0, bigSep_W0]
  exact sound_body m c t

/-! ## The run, and the arguments unchanged -/

set_option backward.isDefEq.respectTransparency.types false in
/-- From any launch memory with zero semaphore counters every weakly fair execution of the program terminates
    without fault, every staged array ending at what the proof data computes and every other unscoped buffer as
    the last reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_bufs) (hfresh := tail_fresh) (hkeep := tail_keeps)
    (hmain := hmain m Variants.none) (hA := A_eq m) (hΦ := fun _ _ => rfl)

/-- The program runs, and its nine arguments end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.KernelIdeal.Hand

end
-- ==== Proof.KIFinal.lean ====
/-
  From the blocks to the whole result array.

  Grid point t writes back the output block, rows 3200 t .. 3200 t + 3199 of the [819200, 128]
  result; the 256 blocks tile it.  The block is its 25 chunks, chunk K on rows 128 K .. 128 K + 127.
  So the array ends as any one function of its index that each chunk of each block agrees with.
-/
import proofs.«131727_g78563541778773_cont_9to1c4b_168_6_alg».proof.Proof.KIRun
import proofs.«131727_g78563541778773_cont_9to1c4b_168_6_alg».proof.Proof.KIRects
import proofs.«131727_g78563541778773_cont_9to1c4b_168_6_alg».proof.Proof.KIIdx
import Idealize.ShloMosaic.Lib.ValueIdx
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

/-! ## The output block from its 25 chunks -/

/-- If chunk K's result is, element by element, what one function G of the output block holds on rows
    128K .. 128K+127, the output block is G: the 25 pieces cover the block and each agrees with G. -/
theorem out_eq_of_pieces (x0 x1 x2 : Vec F S1x25x128 .i32) (x3 : Vec F S128x128 .f32) (x4 : Vec F S3200x128 .f32) (x5 x6 : Vec F S1x128 .f32) (G : S3200x128.Idx → Elt F .f32)
    (h : ∀ (K : Fin 25) (x : S128x128.Idx), chunkF (View.ld x0 (rTok K)) (View.ld x1 (rTok K)) (View.ld x2 (rTok K)) (View.ld x3 rTbl) (View.ld x4 (rPos K)) (View.ld x5 rRow) (View.ld x6 rRow) x = G ((rPos K).emb x)) :
    out x0 x1 x2 x3 x4 x5 x6 = G := by
  funext y
  unfold out
  refine View.canon_apply_of_pieces G _ ?_ y (cover _ _ _ _ _ _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl
  · exact fun x => h 24 x
  · exact fun x => h 23 x
  · exact fun x => h 22 x
  · exact fun x => h 21 x
  · exact fun x => h 20 x
  · exact fun x => h 19 x
  · exact fun x => h 18 x
  · exact fun x => h 17 x
  · exact fun x => h 16 x
  · exact fun x => h 15 x
  · exact fun x => h 14 x
  · exact fun x => h 13 x
  · exact fun x => h 12 x
  · exact fun x => h 11 x
  · exact fun x => h 10 x
  · exact fun x => h 9 x
  · exact fun x => h 8 x
  · exact fun x => h 7 x
  · exact fun x => h 6 x
  · exact fun x => h 5 x
  · exact fun x => h 4 x
  · exact fun x => h 3 x
  · exact fun x => h 2 x
  · exact fun x => h 1 x
  · exact fun x => h 0 x

variable (m : (ℓ : Loc nD τ sig) → Buf (Elt F) ℓ)

/-! ## From the blocks to the array -/

/-- An index of the result array is in grid point t's block iff each coordinate is in the block's range. -/
theorem mem_blk7 (t : Fin cfg0.N) (i : S819200x128.Idx) :
    i ∈ ((cfg0.win 7).blk t).view.set ↔ ∀ a : Fin 2, win0_7.index t a * S3200x128.size a ≤ (i a).val ∧ (i a).val < win0_7.index t a * S3200x128.size a + S3200x128.size a := by
  show i ∈ ((View.whole main_v17).slice (win0_7.rect t)).set ↔ _
  rw [View.set_slice_whole, Rect.mem_set_unit]
  exact Iff.rfl

/-- Every row of the result array is in the block of grid point (row / 3200), which is written back. -/
theorem covered7 (i : S819200x128.Idx) :
    ∃ t : Fin cfg0.N, (cfg0.win 7).flush t = true ∧ i ∈ ((cfg0.win 7).blk t).view.set := by
  have h0 : (i 0).val < 819200 := (i 0).isLt
  have h1 : (i 1).val < 128 := (i 1).isLt
  have hN : (i 0).val / 3200 < cfg0.N := by
    show _ < grid0.N
    rw [N_0]; omega
  refine ⟨⟨(i 0).val / 3200, hN⟩, flush0_7 _, ?_⟩
  rw [mem_blk7]
  obtain ⟨-, -, -, -, -, -, -, ⟨o0, o1⟩⟩ := idx_facts ⟨(i 0).val / 3200, hN⟩
  intro a
  match a with
  | ⟨0, _⟩ =>
    show win0_7.index ⟨(i 0).val / 3200, hN⟩ (0 : Fin 2) * 3200 ≤ (i 0).val ∧ (i 0).val < win0_7.index ⟨(i 0).val / 3200, hN⟩ (0 : Fin 2) * 3200 + 3200
    rw [o0]
    show (i 0).val / 3200 * 3200 ≤ (i 0).val ∧ (i 0).val < (i 0).val / 3200 * 3200 + 3200
    omega
  | ⟨1, _⟩ =>
    show win0_7.index ⟨(i 0).val / 3200, hN⟩ (1 : Fin 2) * 128 ≤ (i 1).val ∧ (i 1).val < win0_7.index ⟨(i 0).val / 3200, hN⟩ (1 : Fin 2) * 128 + 128
    rw [o1]; omega

/-- THE RESULT ARRAY after the run is any function of the whole array that every chunk of every grid point's
    block agrees with: chunk K of point t is rows 3200 t + 128 K .. + 127 of the array. -/
theorem final_of_pieces (Gflat : S819200x128.Idx → Elt F .f32) (c : Dev nD)
    (hpiece : ∀ (t : Fin cfg0.N) (K : Fin 25) (r c' : Fin 128),
      chunkF (View.ld (iblk m c 0 t) (rTok K)) (View.ld (iblk m c 1 t) (rTok K)) (View.ld (iblk m c 2 t) (rTok K)) (View.ld (iblk m c 3 t) rTbl) (View.ld (iblk m c 4 t) (rPos K)) (View.ld (iblk m c 5 t) rRow) (View.ld (iblk m c 6 t) rRow) (ix2 r c')
        = Gflat (ix2 (⟨3200 * t.val + 128 * K.val + r.val, by have := lt_256 t; have := K.isLt; have := r.isLt; omega⟩ : Fin 819200) c')) :
    (dats m 0 c).arrAt 7 cfg0.N = Gflat := by
  refine (dats m 0 c).arrAt_eq_of_cover 7 Gflat (fun t _ => ?_) covered7
  show (cfg0.win 7).cut (grid0.coords t) ((dats m 0 c).after 7 t) = _
  rw [after7]
  refine out_eq_of_pieces (iblk m c 0 t) (iblk m c 1 t) (iblk m c 2 t) (iblk m c 3 t) (iblk m c 4 t) (iblk m c 5 t) (iblk m c 6 t) (((cfg0.win 7).blk t).view.read (Elt F) Gflat) (fun K x => ?_)
  obtain ⟨r, c', rfl⟩ : ∃ (r c' : Fin 128), x = ix2 r c' := ⟨x 0, x 1, eq_ix2 x⟩
  refine (hpiece t K r c').trans ?_
  obtain ⟨-, -, -, -, -, -, -, ⟨o0, o1⟩⟩ := idx_facts t
  show Gflat _ = Gflat (((cfg0.win 7).blk t).view.emb ((rPos K).emb (ix2 r c')))
  refine congrArg Gflat ?_
  funext a; apply Fin.ext
  match a with
  | ⟨0, _⟩ => show 3200 * t.val + 128 * K.val + r.val = win0_7.index t (0 : Fin 2) * 3200 + 1 * (128 * K.val + 1 * r.val); omega
  | ⟨1, _⟩ => show c'.val = win0_7.index t (1 : Fin 2) * 128 + 1 * (0 + 1 * c'.val); omega

end Cert.KernelIdeal.Hand

end
-- ==== Proof.KITail.lean ====
/-
  The run re-posted with the result named.

  After the region the one remaining operation reshapes the [819200, 128] array the pipeline wrote
  into the [16384, 50, 128] result.  So the result buffer ends as that reshape of the array the 256
  write-backs leave, and the nine arguments end unchanged.
-/
import proofs.«131727_g78563541778773_cont_9to1c4b_168_6_alg».proof.Proof.KIRun
import Idealize.ShloMosaic.Lib.StableHlo.Run
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the last reshape leaves in the result buffer: the reshape of the pipeline's output array as the 256
    write-backs leave it. -/
theorem tail_v18 (c : Dev nD) :
    Pipeline.afterTail₀ cfgs (dats m) 0 (V0 m) [hostOps1] c main_v18
      = shapeCast S16384x50x128 ((dats m 0 c).arrAt 7 cfg0.N) shapeCasts_S819200x128_S16384x50x128 := by
  unfold Pipeline.afterTail₀
  show StableHlo.after hostOps1 _ (Proc.devRef .tc main_v18) = _
  after_results
  have e : Pipeline.withArrays (cfgs 0).spec c (V0 m c) (fun w => (dats m 0 c).arrAt w (cfgs 0).N) (Proc.devRef .tc main_v17)
      = (dats m 0 c).arrAt 7 cfg0.N :=
    Pipeline.withArrays_arr spec0 launch0.win.arr_inj c _ _ 7
  rw [e]
  rfl

/-- The program runs; its result buffer ends as the reshape of the pipeline's output array, and its nine
    arguments end as they were launched. -/
theorem run_value : θ_run defs (onTc (τ := τ) (main (F := F))) ⟨m, fun _ => 0, ρ⟩ (fun r => ∀ c : Dev nD,
      r.2.mem ((c.tc : Thread nD τ).loc main_v18)
          = shapeCast S16384x50x128 ((dats m 0 c).arrAt 7 cfg0.N) shapeCasts_S819200x128_S16384x50x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v18 (Pipeline.mem_restRefs_of main_v18 (by decide) (by decide))).trans (tail_v18 m c),
      ((h c).2 main_arg0 (Pipeline.mem_restRefs_of main_arg0 (by decide) (by decide))).trans (W_arg0 m (dats m) c),
      ((h c).2 main_arg1 (Pipeline.mem_restRefs_of main_arg1 (by decide) (by decide))).trans (W_arg1 m (dats m) c),
      ((h c).2 main_arg2 (Pipeline.mem_restRefs_of main_arg2 (by decide) (by decide))).trans (W_arg2 m (dats m) c),
      ((h c).2 main_arg3 (Pipeline.mem_restRefs_of main_arg3 (by decide) (by decide))).trans (W_arg3 m (dats m) c),
      ((h c).2 main_arg4 (Pipeline.mem_restRefs_of main_arg4 (by decide) (by decide))).trans (W_arg4 m (dats m) c),
      ((h c).2 main_arg5 (Pipeline.mem_restRefs_of main_arg5 (by decide) (by decide))).trans (W_arg5 m (dats m) c),
      ((h c).2 main_arg6 (Pipeline.mem_restRefs_of main_arg6 (by decide) (by decide))).trans (W_arg6 m (dats m) c),
      ((h c).2 main_arg7 (Pipeline.mem_restRefs_of main_arg7 (by decide) (by decide))).trans (W_arg7 m (dats m) c),
      ((h c).2 main_arg8 (Pipeline.mem_restRefs_of main_arg8 (by decide) (by decide))).trans (W_arg8 m (dats m) c)⟩)
    (run_main m ρ)

end Cert.KernelIdeal.Hand

end
-- ==== Proof.KIValue.lean ====
/-
  The idealized kernel's run with its result named: under the ranges of the three integer inputs, the result array
  is the specification of the nine argument arrays, and the arguments end unchanged.

  The flat [819200, 128] array the region writes is the specification laid out row by row (every stored tile is a
  tile of it, and the tiles cover the array); the reshape after the region reads row 50 n + l at (n, l).
-/
import proofs.«131727_g78563541778773_cont_9to1c4b_168_6_alg».proof.Proof.KIGlue
import proofs.«131727_g78563541778773_cont_9to1c4b_168_6_alg».proof.Proof.KIFinal
import proofs.«131727_g78563541778773_cont_9to1c4b_168_6_alg».proof.Proof.KITail

noncomputable section

namespace Cert.KernelIdeal.Glue

open Idealize.ShloMosaic Idealize.ShloMosaic.TcCoe Idealize.ShloMosaic.ValueIdx Idealize.SL.Sem
open Cert.KernelIdeal Cert.KernelIdeal.Gen Cert.KernelIdeal.Hand Cert.Spec

/-- The flat layout regrouped [16384, 50, 128] is the specification. -/
theorem reshape_flat (a0 a1 : (⟨2, ![16384, 50]⟩ : Shape).Idx → BitVec 32) (a2 : (⟨1, ![16384]⟩ : Shape).Idx → BitVec 32)
    (a3 : (⟨2, ![30, 128]⟩ : Shape).Idx → EReal) (a4 a5 : (⟨2, ![10, 128]⟩ : Shape).Idx → EReal)
    (a6 : (⟨2, ![512, 128]⟩ : Shape).Idx → EReal) (a7 a8 : (⟨1, ![128]⟩ : Shape).Idx → EReal)
    (h : (⟨2, ![819200, 128]⟩ : Shape).ShapeCasts ⟨3, ![16384, 50, 128]⟩) :
    shapeCast ⟨3, ![16384, 50, 128]⟩ (Gflat a0 a1 a2 a3 a4 a5 a6 a7 a8) h = G a0 a1 a2 a3 a4 a5 a6 a7 a8 := by
  funext i
  obtain ⟨n, l, c, rfl⟩ : ∃ (n : Fin 16384) (l : Fin 50) (c : Fin 128), i = ix3 n l c := ⟨i 0, i 1, i 2, eq_ix3 i⟩
  have hn := n.isLt
  have hl := l.isLt
  have hR : n.val * 50 + l.val < 819200 := by omega
  rw [shapeCast_apply _ h (ix3 n l c) (ix2 (⟨n.val * 50 + l.val, hR⟩ : Fin 819200) c) (by
    rw [Shape.rowMajor_val_two, Shape.rowMajor_val_three]; rfl)]
  unfold Gflat
  refine congrArg (G a0 a1 a2 a3 a4 a5 a6 a7 a8) (funext fun a => Fin.ext ?_)
  match a with
  | ⟨0, _⟩ => show (n.val * 50 + l.val) / 50 = n.val; omega
  | ⟨1, _⟩ => show (n.val * 50 + l.val) % 50 = l.val; omega
  | ⟨2, _⟩ => rfl

variable (m : (ℓ : Loc nD τ sig) → Buf (Elt Ideal) ℓ) (ρ : Dev nD → PrngReg)

/-- The idealized kernel runs, ends with the specification in its result array, and leaves its arguments as they were. -/
theorem kernel_value
    (hR : ∀ c : Dev nD, InRange (m ((c : Thread nD τ).loc main_arg0)) (m ((c : Thread nD τ).loc main_arg1)) (m ((c : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v18)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun r h c => ⟨(h c).1.trans (by
      rw [final_of_pieces m (Gflat (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) c
        (tile_eq m c (hR c))]
      exact reshape_flat _ _ _ _ _ _ _ _ _ _), (h c).2⟩)
    (run_value m ρ)

end Cert.KernelIdeal.Glue

end
-- ==== Proof.PreDecode.lean ====
/-
  The precondition read back: besides the finiteness of the float inputs it says that every token word lies in
  [0, 30) and every decoration and charge word in [0, 10), as signed 32-bit numbers; a word in [0, n) signed is
  below n as a natural number.
-/
import proofs.«131727_g78563541778773_cont_9to1c4b_168_6_alg».proof.Pre_finite_inputs
import proofs.«131727_g78563541778773_cont_9to1c4b_168_6_alg».proof.Proof.Spec
import Idealize.ShloMosaic.Lib.ReduceAll

noncomputable section

namespace Cert.PreDecode

open Idealize.ShloMosaic Idealize.ShloMosaic.ValueIdx Cert.Pre_finite_inputs

theorem and1 : ∀ (a b : BitVec 1), IntOp.andi a b = 1#1 ↔ a = 1#1 ∧ b = 1#1 := by decide

/-- A word in [0, n) signed is below n unsigned. -/
theorem toNat_lt (w : BitVec 32) (n : Nat) (hn : n < 2 ^ 31) (h0 : IntOp.cmpi .sge w (0#32) = 1#1)
    (h1 : IntOp.cmpi .slt w (BitVec.ofNat 32 n) = 1#1) : w.toNat < n := by
  rw [IntOp.cmpi_sge] at h0
  rw [IntOp.cmpi_slt] at h1
  have e0 : (0#32 : BitVec 32).toInt = 0 := by decide
  have hn' : n < 2147483648 := by simpa using hn
  have en : (BitVec.ofNat 32 n).toInt = (n : Int) := by
    have h2 : (BitVec.ofNat 32 n).toNat = n := by
      rw [BitVec.toNat_ofNat]; exact Nat.mod_eq_of_lt (by omega)
    unfold BitVec.toInt; rw [h2]; split <;> omega
  rw [e0] at h0
  rw [en] at h1
  have hw := w.isLt
  unfold BitVec.toInt at h0 h1
  split at h1 <;> omega

instance : Subsingleton S_.Idx := ⟨fun a b => funext fun d => d.elim0⟩

variable [Facts] {F : FTy → Type} [FloatOps F]

/-- The three integer inputs lie in their ranges whenever the precondition holds. -/
theorem inRange (a0 a1 : IVec S16384x50 32) (a2 : IVec S16384 32) (a3 : FVec F S30x128 .f32) (a4 a5 : FVec F S10x128 .f32)
    (a6 : FVec F S512x128 .f32) (a7 a8 : FVec F S128 .f32)
    (h : fn (F := F) a0 a1 a2 a3 a4 a5 a6 a7 a8 = fun _ => 1#1) : Cert.Spec.InRange a0 a1 a2 := by
  have e := congrFun h ix0
  unfold fn fn_part1 fn_part2 at e
  simp only [andi] at e
  simp only [and1] at e
  obtain ⟨⟨⟨-, ht⟩, hd⟩, hc⟩ := e
  refine ⟨fun j => ?_, fun j => ?_, fun j => ?_⟩
  · have := Host.reduce_andi_all _ _ _ _ _ ht j
    simp only [andi, cmpi, broadcastInDim, constantI, and1] at this
    exact toNat_lt _ 30 (by decide) this.1 this.2
  · have := Host.reduce_andi_all _ _ _ _ _ hd j
    simp only [andi, cmpi, broadcastInDim, constantI, and1] at this
    exact toNat_lt _ 10 (by decide) this.1 this.2
  · have := Host.reduce_andi_all _ _ _ _ _ hc j
    simp only [andi, cmpi, broadcastInDim, constantI, and1] at this
    exact toNat_lt _ 10 (by decide) this.1 this.2

end Cert.PreDecode

end
-- ==== Proof.RefOpsTable.lean ====
/- The reference program's host operations in program order, each call of a module-local function replaced by the
   function's own operations over that call's buffers, as 7 consecutive lists; with each list, the references
   its operations write. 144 operations in all. -/
import proofs.«131727_g78563541778773_cont_9to1c4b_168_6_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Operations 1 to 25: up to the value main_v2. -/
abbrev part1 : List (HloOp τ sig (Elt F)) :=
  [ TRef.nullary main_call0.c (constantI S_ 32 0#32),
    TRef.unary main_call0.c main_call0.v0 (broadcastInDim S16384 ![] bcast_S_S16384),
    TRef.binary (.of main_arg2 : TRef sig ⟨S16384, .i32⟩) main_call0.v0 main_call0.v1 (cmpi .slt),
    TRef.nullary main_call0.c_0 (constantI S_ 32 10#32),
    TRef.unary main_call0.c_0 main_call0.v2 (broadcastInDim S16384 ![] bcast_S_S16384),
    TRef.binary (.of main_arg2 : TRef sig ⟨S16384, .i32⟩) main_call0.v2 main_call0.v3 addi,
    TRef.ternary main_call0.v1 main_call0.v3 (.of main_arg2 : TRef sig ⟨S16384, .i32⟩) main_call0.call0.v0 select,
    TRef.unary main_call0.call0.v0 main_call0.v5 (broadcastInDim S16384x1 ![0] bcast_S16384_S16384x1_0),
    TRef.nullary main_call0.c_1 (constantI S1 32 9#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg5 : TRef sig ⟨S10x128, .f32⟩) main_call0.v5 main_call0.v13 (fun x i => Host.gather gather_S10x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    unary main_v0 main_v1 (broadcastInDim S16384x1x128 ![0, 2] bcast_S16384x128_S16384x1x128_0_2 : (⟨S16384x128, .f32⟩ : BufTy).Contents (Elt F) → (⟨S16384x1x128, .f32⟩ : BufTy).Contents (Elt F)),
    unary main_v1 main_v2 (broadcastInDim S16384x50x128 ![0, 1, 2] bcast_S16384x1x128_S16384x50x128_0_1_2 : (⟨S16384x1x128, .f32⟩ : BufTy).Contents (Elt F) → (⟨S16384x50x128, .f32⟩ : BufTy).Contents (Elt F)) ]
/-- The references they write, in order. -/
abbrev part1_W : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_v1, main_v2]

/-- Operations 26 to 48: up to the value main_v3. -/
abbrev part2 : List (HloOp τ sig (Elt F)) :=
  [ TRef.nullary main_call1.c (constantI S_ 32 0#32),
    TRef.unary main_call1.c main_call1.v0 (broadcastInDim S16384x50 ![] bcast_S_S16384x50),
    TRef.binary (.of main_arg1 : TRef sig ⟨S16384x50, .i32⟩) main_call1.v0 main_call1.v1 (cmpi .slt),
    TRef.nullary main_call1.c_0 (constantI S_ 32 10#32),
    TRef.unary main_call1.c_0 main_call1.v2 (broadcastInDim S16384x50 ![] bcast_S_S16384x50),
    TRef.binary (.of main_arg1 : TRef sig ⟨S16384x50, .i32⟩) main_call1.v2 main_call1.v3 addi,
    TRef.ternary main_call1.v1 main_call1.v3 (.of main_arg1 : TRef sig ⟨S16384x50, .i32⟩) main_call1.call0.v0 select,
    TRef.unary main_call1.call0.v0 main_call1.v5 (broadcastInDim S16384x50x1 ![0, 1] bcast_S16384x50_S16384x50x1_0_1),
    TRef.nullary main_call1.c_1 (constantI S1 32 9#32),
    TRef.nullary main_call1.c_2 (constantI S_ 32 0#32),
    TRef.unary main_call1.c_2 main_call1.v6 (broadcastInDim S16384x50x1 ![] bcast_S_S16384x50x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x50x1 ![0, 1, 2] bcast_S1x1x1_S16384x50x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x50x1_S16384x50_d2 h_S_),
    TRef.binary (.of main_arg4 : TRef sig ⟨S10x128, .f32⟩) main_call1.v5 main_call1.v13 (fun x i => Host.gather gather_S10x128_S16384x50x1_S16384x50x128_2_0_n_n_0_2_1128 x i),
    TRef.unary main_call1.v12 main_call1.v14 (broadcastInDim S16384x50x128 ![0, 1] bcast_S16384x50_S16384x50x128_0_1),
    TRef.nullary main_call1.cst (constant S_ .f32 0x7FC00000#32),
    TRef.unary main_call1.cst main_call1.v15 (broadcastInDim S16384x50x128 ![] bcast_S_S16384x50x128),
    TRef.ternary main_call1.v14 main_call1.v13 main_call1.v15 main_call1.v16 select ]
/-- The references they write, in order. -/
abbrev part2_W : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v3]

/-- Operations 49 to 71: up to the value main_v4. -/
abbrev part3 : List (HloOp τ sig (Elt F)) :=
  [ TRef.nullary main_call2.c (constantI S_ 32 0#32),
    TRef.unary main_call2.c main_call2.v0 (broadcastInDim S16384x50 ![] bcast_S_S16384x50),
    TRef.binary (.of main_arg0 : TRef sig ⟨S16384x50, .i32⟩) main_call2.v0 main_call2.v1 (cmpi .slt),
    TRef.nullary main_call2.c_0 (constantI S_ 32 30#32),
    TRef.unary main_call2.c_0 main_call2.v2 (broadcastInDim S16384x50 ![] bcast_S_S16384x50),
    TRef.binary (.of main_arg0 : TRef sig ⟨S16384x50, .i32⟩) main_call2.v2 main_call2.v3 addi,
    TRef.ternary main_call2.v1 main_call2.v3 (.of main_arg0 : TRef sig ⟨S16384x50, .i32⟩) main_call2.call0.v0 select,
    TRef.unary main_call2.call0.v0 main_call2.v5 (broadcastInDim S16384x50x1 ![0, 1] bcast_S16384x50_S16384x50x1_0_1),
    TRef.nullary main_call2.c_1 (constantI S1 32 29#32),
    TRef.nullary main_call2.c_2 (constantI S_ 32 0#32),
    TRef.unary main_call2.c_2 main_call2.v6 (broadcastInDim S16384x50x1 ![] bcast_S_S16384x50x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S16384x50x1 ![0, 1, 2] bcast_S1x1x1_S16384x50x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x50x1_S16384x50_d2 h_S_),
    TRef.binary (.of main_arg3 : TRef sig ⟨S30x128, .f32⟩) main_call2.v5 main_call2.v13 (fun x i => Host.gather gather_S30x128_S16384x50x1_S16384x50x128_2_0_n_n_0_2_1128 x i),
    TRef.unary main_call2.v12 main_call2.v14 (broadcastInDim S16384x50x128 ![0, 1] bcast_S16384x50_S16384x50x128_0_1),
    TRef.nullary main_call2.cst (constant S_ .f32 0x7FC00000#32),
    TRef.unary main_call2.cst main_call2.v15 (broadcastInDim S16384x50x128 ![] bcast_S_S16384x50x128),
    TRef.ternary main_call2.v14 main_call2.v13 main_call2.v15 main_call2.v16 select ]
/-- The references they write, in order. -/
abbrev part3_W : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v4]

/-- Operations 72 to 96: up to the value main_v7. -/
abbrev part4 : List (HloOp τ sig (Elt F)) :=
  [ nullary main_v5 (iotaInDim S50 32 0),
    TRef.nullary main_call3.c (constantI S_ 32 0#32),
    TRef.unary main_call3.c main_call3.v0 (broadcastInDim S50 ![] bcast_S_S50),
    TRef.binary (.of main_v5 : TRef sig ⟨S50, .i32⟩) main_call3.v0 main_call3.v1 (cmpi .slt),
    TRef.nullary main_call3.c_0 (constantI S_ 32 512#32),
    TRef.unary main_call3.c_0 main_call3.v2 (broadcastInDim S50 ![] bcast_S_S50),
    TRef.binary (.of main_v5 : TRef sig ⟨S50, .i32⟩) main_call3.v2 main_call3.v3 addi,
    TRef.ternary main_call3.v1 main_call3.v3 (.of main_v5 : TRef sig ⟨S50, .i32⟩) main_call3.call0.v0 select,
    TRef.unary main_call3.call0.v0 main_call3.v5 (broadcastInDim S50x1 ![0] bcast_S50_S50x1_0),
    TRef.nullary main_call3.c_1 (constantI S1 32 511#32),
    TRef.nullary main_call3.c_2 (constantI S_ 32 0#32),
    TRef.unary main_call3.c_2 main_call3.v6 (broadcastInDim S50x1 ![] bcast_S_S50x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S50x1 ![0, 1] bcast_S1x1_S50x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S50x1_S50_d1 h_S_),
    TRef.binary (.of main_arg6 : TRef sig ⟨S512x128, .f32⟩) main_call3.v5 main_call3.v13 (fun x i => Host.gather gather_S512x128_S50x1_S50x128_1_0_n_n_0_1_1128 x i),
    TRef.unary main_call3.v12 main_call3.v14 (broadcastInDim S50x128 ![0] bcast_S50_S50x128_0),
    TRef.nullary main_call3.cst (constant S_ .f32 0x7FC00000#32),
    TRef.unary main_call3.cst main_call3.v15 (broadcastInDim S50x128 ![] bcast_S_S50x128),
    TRef.ternary main_call3.v14 main_call3.v13 main_call3.v15 main_call3.v16 select,
    unary main_v6 main_v7 (broadcastInDim S1x50x128 ![1, 2] bcast_S50x128_S1x50x128_1_2 : (⟨S50x128, .f32⟩ : BufTy).Contents (Elt F) → (⟨S1x50x128, .f32⟩ : BufTy).Contents (Elt F)) ]
/-- The references they write, in order. -/
abbrev part4_W : List (Ref sig .tc) :=
  [main_v5, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v6, main_v7]

/-- Operations 97 to 106: up to the value main_v15. -/
abbrev part5 : List (HloOp τ sig (Elt F)) :=
  [ binary main_v4 main_v3 main_v8 (addf : (⟨S16384x50x128, .f32⟩ : BufTy).Contents (Elt F) → (⟨S16384x50x128, .f32⟩ : BufTy).Contents (Elt F) → (⟨S16384x50x128, .f32⟩ : BufTy).Contents (Elt F)),
    binary main_v8 main_v2 main_v9 (addf : (⟨S16384x50x128, .f32⟩ : BufTy).Contents (Elt F) → (⟨S16384x50x128, .f32⟩ : BufTy).Contents (Elt F) → (⟨S16384x50x128, .f32⟩ : BufTy).Contents (Elt F)),
    unary main_v7 main_v10 (broadcastInDim S16384x50x128 ![0, 1, 2] bcast_S1x50x128_S16384x50x128_0_1_2 : (⟨S1x50x128, .f32⟩ : BufTy).Contents (Elt F) → (⟨S16384x50x128, .f32⟩ : BufTy).Contents (Elt F)),
    binary main_v9 main_v10 main_v11 (addf : (⟨S16384x50x128, .f32⟩ : BufTy).Contents (Elt F) → (⟨S16384x50x128, .f32⟩ : BufTy).Contents (Elt F) → (⟨S16384x50x128, .f32⟩ : BufTy).Contents (Elt F)),
    nullary main_cst (constant S_ .f32 0x00000000#32),
    binary main_v11 main_cst main_v12 ((fun x v => Host.reduceAdd x v reducesTo_S16384x50x128_S16384x50_d2 h_S_) : (⟨S16384x50x128, .f32⟩ : BufTy).Contents (Elt F) → (⟨S_, .f32⟩ : BufTy).Contents (Elt F) → (⟨S16384x50, .f32⟩ : BufTy).Contents (Elt F)),
    unary main_v12 main_v13 (broadcastInDim S16384x50x1 ![0, 1] bcast_S16384x50_S16384x50x1_0_1 : (⟨S16384x50, .f32⟩ : BufTy).Contents (Elt F) → (⟨S16384x50x1, .f32⟩ : BufTy).Contents (Elt F)),
    nullary main_cst_0 (constant S_ .f32 0x43000000#32),
    unary main_cst_0 main_v14 (broadcastInDim S16384x50x1 ![] bcast_S_S16384x50x1 : (⟨S_, .f32⟩ : BufTy).Contents (Elt F) → (⟨S16384x50x1, .f32⟩ : BufTy).Contents (Elt F)),
    binary main_v13 main_v14 main_v15 (Host.divf : (⟨S16384x50x1, .f32⟩ : BufTy).Contents (Elt F) → (⟨S16384x50x1, .f32⟩ : BufTy).Contents (Elt F) → (⟨S16384x50x1, .f32⟩ : BufTy).Contents (Elt F)) ]
/-- The references they write, in order. -/
abbrev part5_W : List (Ref sig .tc) :=
  [main_v8, main_v9, main_v10, main_v11, main_cst, main_v12, main_v13, main_cst_0, main_v14, main_v15]

/-- Operations 107 to 130: up to the value main_v16. -/
abbrev part6 : List (HloOp τ sig (Elt F)) :=
  [ nullary main_c (constantI S_ 32 0#32),
    TRef.nullary main_call4.cst (constant S_ .f32 0x00000000#32),
    TRef.binary (.of main_v11 : TRef sig ⟨S16384x50x128, .f32⟩) main_call4.cst main_call4.v0 (fun x v => Host.reduceAdd x v reducesTo_S16384x50x128_S16384x50_d2 h_S_),
    TRef.unary main_call4.v0 main_call4.v1 (broadcastInDim S16384x50x1 ![0, 1] bcast_S16384x50_S16384x50x1_0_1),
    TRef.nullary main_call4.cst_0 (constant S_ .f32 0x43000000#32),
    TRef.unary main_call4.cst_0 main_call4.v2 (broadcastInDim S16384x50x1 ![] bcast_S_S16384x50x1),
    TRef.binary main_call4.v1 main_call4.v2 main_call4.v3 Host.divf,
    TRef.unary main_call4.v3 main_call4.v4 (broadcastInDim S16384x50x128 ![0, 1, 2] bcast_S16384x50x1_S16384x50x128_0_1_2),
    TRef.binary (.of main_v11 : TRef sig ⟨S16384x50x128, .f32⟩) main_call4.v4 main_call4.v5 subf,
    TRef.binary main_call4.v5 main_call4.v5 main_call4.v6 mulf,
    TRef.unary (.of main_c : TRef sig ⟨S_, .i32⟩) main_call4.v7 (sitofp .f32),
    TRef.nullary main_call4.cst_1 (constant S_ .f32 0x43000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S16384x50x128_S16384x50_d2 h_S_),
    TRef.unary main_call4.v9 main_call4.v10 (broadcastInDim S16384x50x1 ![0, 1] bcast_S16384x50_S16384x50x1_0_1),
    TRef.unary main_call4.v8 main_call4.v11 (broadcastInDim S16384x50x1 ![] bcast_S_S16384x50x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S16384x50x1 ![] bcast_S_S16384x50x1),
    TRef.ternary main_call4.v13 main_call4.v12 main_call4.call0.v1 main_call4.call0.v2 (fun p a b => select (broadcastInDim S16384x50x1 ![] bcast_S_S16384x50x1 p) a b) ]
/-- The references they write, in order. -/
abbrev part6_W : List (Ref sig .tc) :=
  [main_c, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v16]

/-- Operations 131 to 144: up to the value main_v29. -/
abbrev part7 : List (HloOp τ sig (Elt F)) :=
  [ unary main_v15 main_v17 (broadcastInDim S16384x50x128 ![0, 1, 2] bcast_S16384x50x1_S16384x50x128_0_1_2 : (⟨S16384x50x1, .f32⟩ : BufTy).Contents (Elt F) → (⟨S16384x50x128, .f32⟩ : BufTy).Contents (Elt F)),
    binary main_v11 main_v17 main_v18 (subf : (⟨S16384x50x128, .f32⟩ : BufTy).Contents (Elt F) → (⟨S16384x50x128, .f32⟩ : BufTy).Contents (Elt F) → (⟨S16384x50x128, .f32⟩ : BufTy).Contents (Elt F)),
    nullary main_cst_1 (constant S_ .f32 0x2B8CBCCC#32),
    unary main_cst_1 main_v19 (broadcastInDim S16384x50x1 ![] bcast_S_S16384x50x1 : (⟨S_, .f32⟩ : BufTy).Contents (Elt F) → (⟨S16384x50x1, .f32⟩ : BufTy).Contents (Elt F)),
    binary main_v16 main_v19 main_v20 (addf : (⟨S16384x50x1, .f32⟩ : BufTy).Contents (Elt F) → (⟨S16384x50x1, .f32⟩ : BufTy).Contents (Elt F) → (⟨S16384x50x1, .f32⟩ : BufTy).Contents (Elt F)),
    unary main_v20 main_v21 (Host.sqrt : (⟨S16384x50x1, .f32⟩ : BufTy).Contents (Elt F) → (⟨S16384x50x1, .f32⟩ : BufTy).Contents (Elt F)),
    unary main_v21 main_v22 (broadcastInDim S16384x50x128 ![0, 1, 2] bcast_S16384x50x1_S16384x50x128_0_1_2 : (⟨S16384x50x1, .f32⟩ : BufTy).Contents (Elt F) → (⟨S16384x50x128, .f32⟩ : BufTy).Contents (Elt F)),
    binary main_v18 main_v22 main_v23 (Host.divf : (⟨S16384x50x128, .f32⟩ : BufTy).Contents (Elt F) → (⟨S16384x50x128, .f32⟩ : BufTy).Contents (Elt F) → (⟨S16384x50x128, .f32⟩ : BufTy).Contents (Elt F)),
    unary main_arg7 main_v24 (broadcastInDim S1x1x128 ![2] bcast_S128_S1x1x128_2 : (⟨S128, .f32⟩ : BufTy).Contents (Elt F) → (⟨S1x1x128, .f32⟩ : BufTy).Contents (Elt F)),
    unary main_v24 main_v25 (broadcastInDim S16384x50x128 ![0, 1, 2] bcast_S1x1x128_S16384x50x128_0_1_2 : (⟨S1x1x128, .f32⟩ : BufTy).Contents (Elt F) → (⟨S16384x50x128, .f32⟩ : BufTy).Contents (Elt F)),
    binary main_v23 main_v25 main_v26 (mulf : (⟨S16384x50x128, .f32⟩ : BufTy).Contents (Elt F) → (⟨S16384x50x128, .f32⟩ : BufTy).Contents (Elt F) → (⟨S16384x50x128, .f32⟩ : BufTy).Contents (Elt F)),
    unary main_arg8 main_v27 (broadcastInDim S1x1x128 ![2] bcast_S128_S1x1x128_2 : (⟨S128, .f32⟩ : BufTy).Contents (Elt F) → (⟨S1x1x128, .f32⟩ : BufTy).Contents (Elt F)),
    unary main_v27 main_v28 (broadcastInDim S16384x50x128 ![0, 1, 2] bcast_S1x1x128_S16384x50x128_0_1_2 : (⟨S1x1x128, .f32⟩ : BufTy).Contents (Elt F) → (⟨S16384x50x128, .f32⟩ : BufTy).Contents (Elt F)),
    binary main_v26 main_v28 main_v29 (addf : (⟨S16384x50x128, .f32⟩ : BufTy).Contents (Elt F) → (⟨S16384x50x128, .f32⟩ : BufTy).Contents (Elt F) → (⟨S16384x50x128, .f32⟩ : BufTy).Contents (Elt F)) ]
/-- The references they write, in order. -/
abbrev part7_W : List (Ref sig .tc) :=
  [main_v17, main_v18, main_cst_1, main_v19, main_v20, main_v21, main_v22, main_v23, main_v24, main_v25, main_v26, main_v27, main_v28, main_v29]

end Cert.RefSide

end
-- ==== Proof.RefOps.lean ====
/-
  The reference program is a straight line of host operations. Its @main calls five module-local functions (four
  table lookups, each of which calls a select, and the variance, which calls a select); a call executes the callee's
  body on the operands, so with every call replaced by the callee's operations over that call's buffers @main is the
  144 operations of the seven lists, in order. This module proves that equation, that the operations touch device
  buffers only, and that each list leaves alone every reference outside the ones it writes.
-/
import proofs.«131727_g78563541778773_cont_9to1c4b_168_6_alg».proof.Proof.RefOpsTable

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 144 operations, in order. -/
abbrev ops : List (HloOp τ sig (Elt F)) :=
  part1 ++ (part2 ++ (part3 ++ (part4 ++ (part5 ++ (part6 ++ part7)))))

/-- The buffer contents after two lines in a row: the second line run from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The contents after all the operations, window by window. -/
theorem after_ops (V : Valuation τ sig (Elt F)) :
    after ops V = after part7 (after part6 (after part5 (after part4 (after part3 (after part2 (after part1 V)))))) := by
  simp only [ops, after_app]

-- one hundred and forty-four sequencing steps re-associated: the rewriting recurses once per step
set_option maxRecDepth 16384 in
set_option maxHeartbeats 4000000 in
/-- @main is that straight line: with the functions' bodies written out at their calls and the calls' buffer records
    read at their fields, both sides are one chain of operation steps once sequencing is re-associated. -/
theorem main_eq (c : Dev nD) : main (F := F) c = seq ops := by
  simp only [main, fn_take.body, fn_take_0.body, fn_take_2.body, fn_take_3.body, fn_var.body, fn_where.body,
    fn_where_1.body, fn_where_4.body, fn_where_5.body, ops, part1, part2, part3, part4, part5, part6, part7,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## Every operation touches device buffers only -/

/-- Closes "each operation of this literal list touches TensorCore references only": one conjunct per operation, each
    rewritten to `True` by the fact of the operation's own builder. -/
macro "bufs_sub_all" : tactic =>
  `(tactic| simp only [List.Forall, nullary_bufs_sub, unary_bufs_sub, binary_bufs_sub, ternary_bufs_sub, and_self])

theorem part1_sub : (part1 : List (HloOp τ sig (Elt F))).Forall fun op => op.bufs ⊆ tcRefs τ sig := by bufs_sub_all
theorem part2_sub : (part2 : List (HloOp τ sig (Elt F))).Forall fun op => op.bufs ⊆ tcRefs τ sig := by bufs_sub_all
theorem part3_sub : (part3 : List (HloOp τ sig (Elt F))).Forall fun op => op.bufs ⊆ tcRefs τ sig := by bufs_sub_all
theorem part4_sub : (part4 : List (HloOp τ sig (Elt F))).Forall fun op => op.bufs ⊆ tcRefs τ sig := by bufs_sub_all
theorem part5_sub : (part5 : List (HloOp τ sig (Elt F))).Forall fun op => op.bufs ⊆ tcRefs τ sig := by bufs_sub_all
theorem part6_sub : (part6 : List (HloOp τ sig (Elt F))).Forall fun op => op.bufs ⊆ tcRefs τ sig := by bufs_sub_all
theorem part7_sub : (part7 : List (HloOp τ sig (Elt F))).Forall fun op => op.bufs ⊆ tcRefs τ sig := by bufs_sub_all

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp part1_sub op h, List.forall_iff_forall_mem.mp part2_sub op h,
      List.forall_iff_forall_mem.mp part3_sub op h, List.forall_iff_forall_mem.mp part4_sub op h,
      List.forall_iff_forall_mem.mp part5_sub op h, List.forall_iff_forall_mem.mp part6_sub op h,
      List.forall_iff_forall_mem.mp part7_sub op h]

/-! ## No operation allocates a buffer: each determines its results -/

/-- Closes "no operation of this literal list allocates": by cases on the operation's place in the list, each by
    computation. -/
macro "fresh_all" : tactic =>
  `(tactic| (intro _ h
             repeat (cases h with | head => rfl | tail _ h => ?_)
             exact nomatch h))

theorem part1_fresh : ∀ op ∈ (part1 : List (HloOp τ sig (Elt F))), op.fresh = ∅ := by fresh_all
theorem part2_fresh : ∀ op ∈ (part2 : List (HloOp τ sig (Elt F))), op.fresh = ∅ := by fresh_all
theorem part3_fresh : ∀ op ∈ (part3 : List (HloOp τ sig (Elt F))), op.fresh = ∅ := by fresh_all
theorem part4_fresh : ∀ op ∈ (part4 : List (HloOp τ sig (Elt F))), op.fresh = ∅ := by fresh_all
theorem part5_fresh : ∀ op ∈ (part5 : List (HloOp τ sig (Elt F))), op.fresh = ∅ := by fresh_all
theorem part6_fresh : ∀ op ∈ (part6 : List (HloOp τ sig (Elt F))), op.fresh = ∅ := by fresh_all
theorem part7_fresh : ∀ op ∈ (part7 : List (HloOp τ sig (Elt F))), op.fresh = ∅ := by fresh_all

theorem ops_fresh : ∀ op ∈ (ops : List (HloOp τ sig (Elt F))), op.fresh = ∅ := fun op h => by
  simp only [ops, List.mem_append] at h
  rcases h with h | h | h | h | h | h | h
  exacts [part1_fresh op h, part2_fresh op h, part3_fresh op h, part4_fresh op h, part5_fresh op h, part6_fresh op h,
    part7_fresh op h]

/-! ## What each list writes, and what it therefore leaves alone -/

/-- Closes "each operation of this literal list writes a reference of the given list": an operation writes exactly its
    result buffer, and that reference is in the list by inspection. -/
macro "writes_all" : tactic =>
  `(tactic| (simp only [List.Forall]
             repeat' apply And.intro
             all_goals
               (simp only [nullary_writes, unary_writes, binary_writes, ternary_writes, Finset.singleton_subset_iff,
                  List.mem_toFinset]
                exact List.mem_map_of_mem (by decide))))

theorem part1_writes : (part1 : List (HloOp τ sig (Elt F))).Forall fun op =>
    op.writes ⊆ (part1_W.map (Proc.devRef (τ := τ) .tc)).toFinset := by writes_all
theorem part2_writes : (part2 : List (HloOp τ sig (Elt F))).Forall fun op =>
    op.writes ⊆ (part2_W.map (Proc.devRef (τ := τ) .tc)).toFinset := by writes_all
theorem part3_writes : (part3 : List (HloOp τ sig (Elt F))).Forall fun op =>
    op.writes ⊆ (part3_W.map (Proc.devRef (τ := τ) .tc)).toFinset := by writes_all
theorem part4_writes : (part4 : List (HloOp τ sig (Elt F))).Forall fun op =>
    op.writes ⊆ (part4_W.map (Proc.devRef (τ := τ) .tc)).toFinset := by writes_all
theorem part5_writes : (part5 : List (HloOp τ sig (Elt F))).Forall fun op =>
    op.writes ⊆ (part5_W.map (Proc.devRef (τ := τ) .tc)).toFinset := by writes_all
theorem part6_writes : (part6 : List (HloOp τ sig (Elt F))).Forall fun op =>
    op.writes ⊆ (part6_W.map (Proc.devRef (τ := τ) .tc)).toFinset := by writes_all
theorem part7_writes : (part7 : List (HloOp τ sig (Elt F))).Forall fun op =>
    op.writes ⊆ (part7_W.map (Proc.devRef (τ := τ) .tc)).toFinset := by writes_all

/-- A reference a list does not write keeps its contents through the list. -/
theorem keep1 (W : Valuation τ sig (Elt F)) {r : Ref sig .tc} (h : r ∉ part1_W) :
    after part1 W (no_index (Proc.devRef .tc r)) = W (Proc.devRef .tc r) := after_of_writes_sub part1 W part1_writes h
theorem keep2 (W : Valuation τ sig (Elt F)) {r : Ref sig .tc} (h : r ∉ part2_W) :
    after part2 W (no_index (Proc.devRef .tc r)) = W (Proc.devRef .tc r) := after_of_writes_sub part2 W part2_writes h
theorem keep3 (W : Valuation τ sig (Elt F)) {r : Ref sig .tc} (h : r ∉ part3_W) :
    after part3 W (no_index (Proc.devRef .tc r)) = W (Proc.devRef .tc r) := after_of_writes_sub part3 W part3_writes h
theorem keep4 (W : Valuation τ sig (Elt F)) {r : Ref sig .tc} (h : r ∉ part4_W) :
    after part4 W (no_index (Proc.devRef .tc r)) = W (Proc.devRef .tc r) := after_of_writes_sub part4 W part4_writes h
theorem keep5 (W : Valuation τ sig (Elt F)) {r : Ref sig .tc} (h : r ∉ part5_W) :
    after part5 W (no_index (Proc.devRef .tc r)) = W (Proc.devRef .tc r) := after_of_writes_sub part5 W part5_writes h
theorem keep6 (W : Valuation τ sig (Elt F)) {r : Ref sig .tc} (h : r ∉ part6_W) :
    after part6 W (no_index (Proc.devRef .tc r)) = W (Proc.devRef .tc r) := after_of_writes_sub part6 W part6_writes h
theorem keep7 (W : Valuation τ sig (Elt F)) {r : Ref sig .tc} (h : r ∉ part7_W) :
    after part7 W (no_index (Proc.devRef .tc r)) = W (Proc.devRef .tc r) := after_of_writes_sub part7 W part7_writes h

end Cert.RefSide

end
-- ==== Proof.RefTerms.lean ====
/-
  The values the reference program computes, as named pure terms of its nine argument arrays.

  A table lookup `take(T, idx)` is: wrap a negative index once by the table's length; view the index array with a unit
  last axis; the mask "0 ≤ index ≤ length − 1", reduced over that unit axis; the row gather at the (clamped) index; and the
  gathered row where the mask holds, a not-a-number constant elsewhere. Three lookups by the integer inputs and one of the
  position table by 0, 1, …, 49 are summed; the sum is normalized along the last axis: subtract the mean, divide by the
  square root of the mean squared deviation plus a small constant, scale and shift.
-/
import proofs.«131727_g78563541778773_cont_9to1c4b_168_6_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## Lookup by a vector of 16384 indices (the charge) -/

/-- A negative index wrapped once by the table length `n`; any other index as it is. -/
def wrapA (n : BitVec 32) (idx : (⟨S16384, .i32⟩ : BufTy).Contents (Elt F)) : (⟨S16384, .i32⟩ : BufTy).Contents (Elt F) :=
  select (cmpi .slt idx (broadcastInDim S16384 ![] bcast_S_S16384 (constantI S_ 32 0#32)))
    (addi idx (broadcastInDim S16384 ![] bcast_S_S16384 (constantI S_ 32 n))) idx

/-- The wrapped indices as a column: a unit last axis added. -/
def colA (n : BitVec 32) (idx : (⟨S16384, .i32⟩ : BufTy).Contents (Elt F)) : (⟨S16384x1, .i32⟩ : BufTy).Contents (Elt F) :=
  broadcastInDim S16384x1 ![0] bcast_S16384_S16384x1_0 (wrapA n idx)

/-- The mask "0 ≤ index ≤ hi", reduced by conjunction over the unit axis. -/
def okA (hi : BitVec 32) (i5 : (⟨S16384x1, .i32⟩ : BufTy).Contents (Elt F)) : (⟨S16384, .i1⟩ : BufTy).Contents (Elt F) :=
  Host.reduce IntOp.andi
    (andi (cmpi .sge i5 (broadcastInDim S16384x1 ![] bcast_S_S16384x1 (constantI S_ 32 0#32)))
      (cmpi .sle i5 (broadcastInDim S16384x1 ![0, 1] bcast_S1x1_S16384x1_0_1
        (broadcastInDim S1x1 ![1] bcast_S1_S1x1_1 (constantI S1 32 hi)))))
    (constantI S_ 1 1#1) reducesTo_S16384x1_S16384_d1 h_S_

/-- Rows of a ten-row table selected by 16384 indices. -/
def tk0 (T : (⟨S10x128, .f32⟩ : BufTy).Contents (Elt F)) (idx : (⟨S16384, .i32⟩ : BufTy).Contents (Elt F)) : (⟨S16384x128, .f32⟩ : BufTy).Contents (Elt F) :=
  select (broadcastInDim S16384x128 ![0] bcast_S16384_S16384x128_0 (okA 9#32 (colA 10#32 idx)))
    (Host.gather gather_S10x128_S16384x1_S16384x128_1_0_n_n_0_1_1128 T (colA 10#32 idx))
    (broadcastInDim S16384x128 ![] bcast_S_S16384x128 (constant S_ .f32 0x7FC00000#32))

/-- The same rows repeated over the 50 positions. -/
def eC (T : (⟨S10x128, .f32⟩ : BufTy).Contents (Elt F)) (idx : (⟨S16384, .i32⟩ : BufTy).Contents (Elt F)) : (⟨S16384x50x128, .f32⟩ : BufTy).Contents (Elt F) :=
  broadcastInDim S16384x50x128 ![0, 1, 2] bcast_S16384x1x128_S16384x50x128_0_1_2
    (broadcastInDim S16384x1x128 ![0, 2] bcast_S16384x128_S16384x1x128_0_2 (tk0 T idx))

/-! ## Lookup by a 16384 × 50 array of indices (the token and the decoration) -/

/-- A negative index wrapped once by the table length `n`; any other index as it is. -/
def wrapB (n : BitVec 32) (idx : (⟨S16384x50, .i32⟩ : BufTy).Contents (Elt F)) : (⟨S16384x50, .i32⟩ : BufTy).Contents (Elt F) :=
  select (cmpi .slt idx (broadcastInDim S16384x50 ![] bcast_S_S16384x50 (constantI S_ 32 0#32)))
    (addi idx (broadcastInDim S16384x50 ![] bcast_S_S16384x50 (constantI S_ 32 n))) idx

/-- The wrapped indices with a unit last axis added. -/
def colB (n : BitVec 32) (idx : (⟨S16384x50, .i32⟩ : BufTy).Contents (Elt F)) : (⟨S16384x50x1, .i32⟩ : BufTy).Contents (Elt F) :=
  broadcastInDim S16384x50x1 ![0, 1] bcast_S16384x50_S16384x50x1_0_1 (wrapB n idx)

/-- The mask "0 ≤ index ≤ hi", reduced by conjunction over the unit axis. -/
def okB (hi : BitVec 32) (i5 : (⟨S16384x50x1, .i32⟩ : BufTy).Contents (Elt F)) : (⟨S16384x50, .i1⟩ : BufTy).Contents (Elt F) :=
  Host.reduce IntOp.andi
    (andi (cmpi .sge i5 (broadcastInDim S16384x50x1 ![] bcast_S_S16384x50x1 (constantI S_ 32 0#32)))
      (cmpi .sle i5 (broadcastInDim S16384x50x1 ![0, 1, 2] bcast_S1x1x1_S16384x50x1_0_1_2
        (broadcastInDim S1x1x1 ![2] bcast_S1_S1x1x1_2 (constantI S1 32 hi)))))
    (constantI S_ 1 1#1) reducesTo_S16384x50x1_S16384x50_d2 h_S_

/-- Rows of a ten-row table selected by 16384 × 50 indices. -/
def tk1 (T : (⟨S10x128, .f32⟩ : BufTy).Contents (Elt F)) (idx : (⟨S16384x50, .i32⟩ : BufTy).Contents (Elt F)) : (⟨S16384x50x128, .f32⟩ : BufTy).Contents (Elt F) :=
  select (broadcastInDim S16384x50x128 ![0, 1] bcast_S16384x50_S16384x50x128_0_1 (okB 9#32 (colB 10#32 idx)))
    (Host.gather gather_S10x128_S16384x50x1_S16384x50x128_2_0_n_n_0_2_1128 T (colB 10#32 idx))
    (broadcastInDim S16384x50x128 ![] bcast_S_S16384x50x128 (constant S_ .f32 0x7FC00000#32))

/-- Rows of a thirty-row table selected by 16384 × 50 indices. -/
def tk2 (T : (⟨S30x128, .f32⟩ : BufTy).Contents (Elt F)) (idx : (⟨S16384x50, .i32⟩ : BufTy).Contents (Elt F)) : (⟨S16384x50x128, .f32⟩ : BufTy).Contents (Elt F) :=
  select (broadcastInDim S16384x50x128 ![0, 1] bcast_S16384x50_S16384x50x128_0_1 (okB 29#32 (colB 30#32 idx)))
    (Host.gather gather_S30x128_S16384x50x1_S16384x50x128_2_0_n_n_0_2_1128 T (colB 30#32 idx))
    (broadcastInDim S16384x50x128 ![] bcast_S_S16384x50x128 (constant S_ .f32 0x7FC00000#32))

/-! ## Lookup of the position table by 0, 1, …, 49 -/

/-- A negative index wrapped once by the table length `n`; any other index as it is. -/
def wrapC (n : BitVec 32) (idx : (⟨S50, .i32⟩ : BufTy).Contents (Elt F)) : (⟨S50, .i32⟩ : BufTy).Contents (Elt F) :=
  select (cmpi .slt idx (broadcastInDim S50 ![] bcast_S_S50 (constantI S_ 32 0#32)))
    (addi idx (broadcastInDim S50 ![] bcast_S_S50 (constantI S_ 32 n))) idx

/-- The wrapped indices as a column. -/
def colC (n : BitVec 32) (idx : (⟨S50, .i32⟩ : BufTy).Contents (Elt F)) : (⟨S50x1, .i32⟩ : BufTy).Contents (Elt F) :=
  broadcastInDim S50x1 ![0] bcast_S50_S50x1_0 (wrapC n idx)

/-- The mask "0 ≤ index ≤ hi", reduced by conjunction over the unit axis. -/
def okC (hi : BitVec 32) (i5 : (⟨S50x1, .i32⟩ : BufTy).Contents (Elt F)) : (⟨S50, .i1⟩ : BufTy).Contents (Elt F) :=
  Host.reduce IntOp.andi
    (andi (cmpi .sge i5 (broadcastInDim S50x1 ![] bcast_S_S50x1 (constantI S_ 32 0#32)))
      (cmpi .sle i5 (broadcastInDim S50x1 ![0, 1] bcast_S1x1_S50x1_0_1
        (broadcastInDim S1x1 ![1] bcast_S1_S1x1_1 (constantI S1 32 hi)))))
    (constantI S_ 1 1#1) reducesTo_S50x1_S50_d1 h_S_

/-- Rows of the 512-row table selected by 50 indices. -/
def tk3 (T : (⟨S512x128, .f32⟩ : BufTy).Contents (Elt F)) (idx : (⟨S50, .i32⟩ : BufTy).Contents (Elt F)) : (⟨S50x128, .f32⟩ : BufTy).Contents (Elt F) :=
  select (broadcastInDim S50x128 ![0] bcast_S50_S50x128_0 (okC 511#32 (colC 512#32 idx)))
    (Host.gather gather_S512x128_S50x1_S50x128_1_0_n_n_0_1_1128 T (colC 512#32 idx))
    (broadcastInDim S50x128 ![] bcast_S_S50x128 (constant S_ .f32 0x7FC00000#32))

/-- Rows 0, 1, …, 49 of the position table, with a unit leading axis. -/
def ePos (T : (⟨S512x128, .f32⟩ : BufTy).Contents (Elt F)) : (⟨S1x50x128, .f32⟩ : BufTy).Contents (Elt F) :=
  broadcastInDim S1x50x128 ![1, 2] bcast_S50x128_S1x50x128_1_2 (tk3 T (iotaInDim S50 32 0))

/-! ## The sum and its normalization -/

/-- Token rows plus decoration rows plus charge rows plus position rows (the last repeated over the sequences). -/
def embd (a p c : (⟨S16384x50x128, .f32⟩ : BufTy).Contents (Elt F)) (q : (⟨S1x50x128, .f32⟩ : BufTy).Contents (Elt F)) : (⟨S16384x50x128, .f32⟩ : BufTy).Contents (Elt F) :=
  addf (addf (addf a p) c) (broadcastInDim S16384x50x128 ![0, 1, 2] bcast_S1x50x128_S16384x50x128_0_1_2 q)

/-- The mean over the last axis, kept as a unit axis: the sum divided by 128. -/
def meanOf (e : (⟨S16384x50x128, .f32⟩ : BufTy).Contents (Elt F)) : (⟨S16384x50x1, .f32⟩ : BufTy).Contents (Elt F) :=
  Host.divf
    (broadcastInDim S16384x50x1 ![0, 1] bcast_S16384x50_S16384x50x1_0_1
      (Host.reduceAdd e (constant S_ .f32 0x00000000#32) reducesTo_S16384x50x128_S16384x50_d2 h_S_))
    (broadcastInDim S16384x50x1 ![] bcast_S_S16384x50x1 (constant S_ .f32 0x43000000#32))

/-- The deviation from the mean. -/
def devOf (e : (⟨S16384x50x128, .f32⟩ : BufTy).Contents (Elt F)) : (⟨S16384x50x128, .f32⟩ : BufTy).Contents (Elt F) :=
  subf e (broadcastInDim S16384x50x128 ![0, 1, 2] bcast_S16384x50x1_S16384x50x128_0_1_2 (meanOf e))

/-- The variance's divisor as the program computes it: 128 minus the correction 0 converted to a float. -/
def cntOf : (⟨S_, .f32⟩ : BufTy).Contents (Elt F) :=
  subf (constant S_ .f32 0x43000000#32) (sitofp .f32 (constantI S_ 32 0#32))

/-- The variance over the last axis, kept as a unit axis: the mean squared deviation where the divisor is positive, a
    not-a-number constant otherwise. -/
def varOf (e : (⟨S16384x50x128, .f32⟩ : BufTy).Contents (Elt F)) : (⟨S16384x50x1, .f32⟩ : BufTy).Contents (Elt F) :=
  select (broadcastInDim S16384x50x1 ![] bcast_S_S16384x50x1 (cmpf .ogt (cntOf (F := F)) (constant (F := F) S_ .f32 0x00000000#32)))
    (Host.divf
      (broadcastInDim S16384x50x1 ![0, 1] bcast_S16384x50_S16384x50x1_0_1
        (Host.reduceAdd (mulf (devOf e) (devOf e)) (constant S_ .f32 0x00000000#32) reducesTo_S16384x50x128_S16384x50_d2 h_S_))
      (broadcastInDim S16384x50x1 ![] bcast_S_S16384x50x1 cntOf))
    (broadcastInDim S16384x50x1 ![] bcast_S_S16384x50x1 (constant S_ .f32 0x7FC00000#32))

/-- The normalized, scaled and shifted array, from the sum `e`, its mean `mu`, its variance `va`, the scale and the shift. -/
def outOf (e : (⟨S16384x50x128, .f32⟩ : BufTy).Contents (Elt F)) (mu va : (⟨S16384x50x1, .f32⟩ : BufTy).Contents (Elt F)) (g b : (⟨S128, .f32⟩ : BufTy).Contents (Elt F)) :
    (⟨S16384x50x128, .f32⟩ : BufTy).Contents (Elt F) :=
  addf
    (mulf
      (Host.divf (subf e (broadcastInDim S16384x50x128 ![0, 1, 2] bcast_S16384x50x1_S16384x50x128_0_1_2 mu))
        (broadcastInDim S16384x50x128 ![0, 1, 2] bcast_S16384x50x1_S16384x50x128_0_1_2
          (Host.sqrt (addf va (broadcastInDim S16384x50x1 ![] bcast_S_S16384x50x1 (constant S_ .f32 0x2B8CBCCC#32))))))
      (broadcastInDim S16384x50x128 ![0, 1, 2] bcast_S1x1x128_S16384x50x128_0_1_2
        (broadcastInDim S1x1x128 ![2] bcast_S128_S1x1x128_2 g)))
    (broadcastInDim S16384x50x128 ![0, 1, 2] bcast_S1x1x128_S16384x50x128_0_1_2
      (broadcastInDim S1x1x128 ![2] bcast_S128_S1x1x128_2 b))

/-- The summed embedding of the nine arguments' first seven. -/
def embAll (tok dec : (⟨S16384x50, .i32⟩ : BufTy).Contents (Elt F)) (chg : (⟨S16384, .i32⟩ : BufTy).Contents (Elt F)) (A : (⟨S30x128, .f32⟩ : BufTy).Contents (Elt F))
    (P C : (⟨S10x128, .f32⟩ : BufTy).Contents (Elt F)) (pos : (⟨S512x128, .f32⟩ : BufTy).Contents (Elt F)) : (⟨S16384x50x128, .f32⟩ : BufTy).Contents (Elt F) :=
  embd (tk2 A tok) (tk1 P dec) (eC C chg) (ePos pos)

/-- The reference program's result, as a pure term of its nine argument arrays. -/
def res (tok dec : (⟨S16384x50, .i32⟩ : BufTy).Contents (Elt F)) (chg : (⟨S16384, .i32⟩ : BufTy).Contents (Elt F)) (A : (⟨S30x128, .f32⟩ : BufTy).Contents (Elt F))
    (P C : (⟨S10x128, .f32⟩ : BufTy).Contents (Elt F)) (pos : (⟨S512x128, .f32⟩ : BufTy).Contents (Elt F)) (g b : (⟨S128, .f32⟩ : BufTy).Contents (Elt F)) : (⟨S16384x50x128, .f32⟩ : BufTy).Contents (Elt F) :=
  outOf (embAll tok dec chg A P C pos) (meanOf (embAll tok dec chg A P C pos)) (varOf (embAll tok dec chg A P C pos)) g b

end Cert.RefSide

end
-- ==== Proof.RefWin1.lean ====
/-
  The first 25 operations: the charge lookup and its repetition over the positions. Each operation's result is its
  function at its operands' contents, so the last value is the lookup term at the charge table and the charges.
-/
import proofs.«131727_g78563541778773_cont_9to1c4b_168_6_alg».proof.Proof.RefOpsTable
import proofs.«131727_g78563541778773_cont_9to1c4b_168_6_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

-- the reductions and the gather stay folded: the equation never looks inside them, and their bodies are folds over
-- the operand's elements
attribute [local irreducible] Host.reduce Host.reduceAdd Host.gather in
set_option maxRecDepth 8192 in
set_option maxHeartbeats 2000000 in
/-- After the first list the charge rows, repeated over the positions, are the lookup of the charge table by the charges. -/
theorem win1_v2 (W : Valuation τ sig (Elt F)) :
    after part1 W (no_index (Proc.devRef .tc main_v2)) = eC (W (Proc.devRef .tc main_arg5)) (W (Proc.devRef .tc main_arg2)) := by
  simp only [part1]
  after_results_simp
  rfl

end Cert.RefSide

end
-- ==== Proof.RefWin2.lean ====
/-
  Operations 26 to 48: the decoration lookup.
-/
import proofs.«131727_g78563541778773_cont_9to1c4b_168_6_alg».proof.Proof.RefOpsTable
import proofs.«131727_g78563541778773_cont_9to1c4b_168_6_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- A value moved to a buffer's own type and straight back is the value. -/
theorem ofBuf_toBuf {T : BufTy} (x : TRef sig T) (v : T.Contents (Elt F)) : x.ofBuf (x.toBuf v) = v := by
  simp only [TRef.toBuf, TRef.ofBuf, cast_cast, cast_eq]

/-- At a literal buffer the move is the identity: the buffer's type is the value's by computation. -/
theorem ofBuf_arg4 (v : main_arg4.ty.Contents (Elt F)) : (.of main_arg4 : TRef sig ⟨S10x128, .f32⟩).ofBuf v = v := rfl
theorem ofBuf_arg1 (v : main_arg1.ty.Contents (Elt F)) : (.of main_arg1 : TRef sig ⟨S16384x50, .i32⟩).ofBuf v = v := rfl
theorem toBuf_v3 (v : (⟨S16384x50x128, .f32⟩ : BufTy).Contents (Elt F)) :
    (.of main_v3 : TRef sig ⟨S16384x50x128, .f32⟩).toBuf v = v := rfl

set_option maxRecDepth 8192 in
set_option maxHeartbeats 2000000 in
/-- After the second list the decoration rows are the lookup of the decoration table by the decorations. -/
theorem win2_v3 (W : Valuation τ sig (Elt F)) :
    after part2 W (no_index (Proc.devRef .tc main_v3)) = tk1 (W (Proc.devRef .tc main_arg4)) (W (Proc.devRef .tc main_arg1)) := by
  simp only [part2]
  after_results_simp
  simp only [ofBuf_toBuf, ofBuf_arg4, ofBuf_arg1, toBuf_v3, tk1, okB, colB, wrapB]

end Cert.RefSide

end
-- ==== Proof.RefWin3.lean ====
/-
  Operations 49 to 71: the token lookup.

  Each operation's result is its function at its operands' contents; composed, the last value is the lookup
  term at the token table and the tokens. A value carried to a buffer's own type and back is the value, so the
  composition is, as written, the lookup term.
-/
import proofs.«131727_g78563541778773_cont_9to1c4b_168_6_alg».proof.Proof.RefOpsTable
import proofs.«131727_g78563541778773_cont_9to1c4b_168_6_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- A value moved to a buffer's own type and straight back is the value. -/
theorem ofBuf_toBuf3 {T : BufTy} (x : TRef sig T) (v : T.Contents (Elt F)) : x.ofBuf (x.toBuf v) = v := by
  simp only [TRef.toBuf, TRef.ofBuf, cast_cast, cast_eq]

/-- At a literal buffer the move is the identity: the buffer's type is the value's by computation. -/
theorem ofBuf_arg3 (v : main_arg3.ty.Contents (Elt F)) : (.of main_arg3 : TRef sig ⟨S30x128, .f32⟩).ofBuf v = v := rfl
theorem ofBuf_arg0 (v : main_arg0.ty.Contents (Elt F)) : (.of main_arg0 : TRef sig ⟨S16384x50, .i32⟩).ofBuf v = v := rfl
theorem toBuf_v4 (v : (⟨S16384x50x128, .f32⟩ : BufTy).Contents (Elt F)) : (.of main_v4 : TRef sig ⟨S16384x50x128, .f32⟩).toBuf v = v := rfl

set_option maxRecDepth 8192 in
set_option maxHeartbeats 2000000 in
/-- After the third list the token rows are the lookup of the token table by the tokens. -/
theorem win3_v4 (W : Valuation τ sig (Elt F)) :
    after part3 W (no_index (Proc.devRef .tc main_v4)) = tk2 (W (Proc.devRef .tc main_arg3)) (W (Proc.devRef .tc main_arg0)) := by
  simp only [part3]
  after_results_simp
  simp only [ofBuf_toBuf3, ofBuf_arg3, ofBuf_arg0, toBuf_v4, tk2, okB, colB, wrapB]

end Cert.RefSide

end
-- ==== Proof.RefWin4.lean ====
/-
  Operations 72 to 96: the positions 0, 1, …, 49, the lookup of the position table by them, and a unit leading axis.
-/
import proofs.«131727_g78563541778773_cont_9to1c4b_168_6_alg».proof.Proof.RefOpsTable
import proofs.«131727_g78563541778773_cont_9to1c4b_168_6_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

-- the reductions and the gather stay folded: the equation never looks inside them, and their bodies are folds over
-- the operand's elements
attribute [local irreducible] Host.reduce Host.reduceAdd Host.gather in
set_option maxRecDepth 8192 in
set_option maxHeartbeats 2000000 in
/-- After the fourth list the position rows are rows 0 to 49 of the position table. -/
theorem win4_v7 (W : Valuation τ sig (Elt F)) :
    after part4 W (no_index (Proc.devRef .tc main_v7)) = ePos (W (Proc.devRef .tc main_arg6)) := by
  simp only [part4]
  after_results_simp
  rfl

end Cert.RefSide

end
-- ==== Proof.RefWin5.lean ====
/-
  Operations 97 to 106: the sum of the four embeddings and its mean over the last axis.
-/
import proofs.«131727_g78563541778773_cont_9to1c4b_168_6_alg».proof.Proof.RefOpsTable
import proofs.«131727_g78563541778773_cont_9to1c4b_168_6_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

-- the reductions and the gather stay folded: the equation never looks inside them, and their bodies are folds over
-- the operand's elements
attribute [local irreducible] Host.reduce Host.reduceAdd Host.gather in
set_option maxRecDepth 8192 in
set_option maxHeartbeats 2000000 in
/-- After the fifth list the summed embedding is the sum of the four lookups' values. -/
theorem win5_v11 (W : Valuation τ sig (Elt F)) :
    after part5 W (no_index (Proc.devRef .tc main_v11)) = embd (W (Proc.devRef .tc main_v4)) (W (Proc.devRef .tc main_v3)) (W (Proc.devRef .tc main_v2)) (W (Proc.devRef .tc main_v7)) := by
  simp only [part5]
  after_results_simp
  rfl

-- the reductions and the gather stay folded: the equation never looks inside them, and their bodies are folds over
-- the operand's elements
attribute [local irreducible] Host.reduce Host.reduceAdd Host.gather in
set_option maxRecDepth 8192 in
set_option maxHeartbeats 2000000 in
/-- After the fifth list the mean is the mean of that sum. -/
theorem win5_v15 (W : Valuation τ sig (Elt F)) :
    after part5 W (no_index (Proc.devRef .tc main_v15)) = meanOf (embd (W (Proc.devRef .tc main_v4)) (W (Proc.devRef .tc main_v3)) (W (Proc.devRef .tc main_v2)) (W (Proc.devRef .tc main_v7))) := by
  simp only [part5]
  after_results_simp
  rfl

end Cert.RefSide

end
-- ==== Proof.RefWin6.lean ====
/-
  Operations 107 to 130: the variance of the summed embedding over the last axis (the correction 0, the mean again, the
  squared deviations' sum over the divisor, selected where the divisor is positive).
-/
import proofs.«131727_g78563541778773_cont_9to1c4b_168_6_alg».proof.Proof.RefOpsTable
import proofs.«131727_g78563541778773_cont_9to1c4b_168_6_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

-- the reductions and the gather stay folded: the equation never looks inside them, and their bodies are folds over
-- the operand's elements
attribute [local irreducible] Host.reduce Host.reduceAdd Host.gather in
set_option maxRecDepth 8192 in
set_option maxHeartbeats 2000000 in
/-- After the sixth list the variance is the variance term of the summed embedding. -/
theorem win6_v16 (W : Valuation τ sig (Elt F)) :
    after part6 W (no_index (Proc.devRef .tc main_v16)) = varOf (W (Proc.devRef .tc main_v11)) := by
  simp only [part6]
  after_results_simp
  rfl

end Cert.RefSide

end
-- ==== Proof.RefWin7.lean ====
/-
  Operations 131 to 144: subtract the mean, divide by the square root of the variance plus a small constant, scale, shift.
-/
import proofs.«131727_g78563541778773_cont_9to1c4b_168_6_alg».proof.Proof.RefOpsTable
import proofs.«131727_g78563541778773_cont_9to1c4b_168_6_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

-- the reductions and the gather stay folded: the equation never looks inside them, and their bodies are folds over
-- the operand's elements
attribute [local irreducible] Host.reduce Host.reduceAdd Host.gather in
set_option maxRecDepth 8192 in
set_option maxHeartbeats 2000000 in
/-- After the last list the result is the normalization term of the sum, its mean, its variance, the scale and the shift. -/
theorem win7_v29 (W : Valuation τ sig (Elt F)) :
    after part7 W (no_index (Proc.devRef .tc main_v29)) = outOf (W (Proc.devRef .tc main_v11)) (W (Proc.devRef .tc main_v15)) (W (Proc.devRef .tc main_v16)) (W (Proc.devRef .tc main_arg7)) (W (Proc.devRef .tc main_arg8)) := by
  simp only [part7]
  after_results_simp
  rfl

end Cert.RefSide

end
-- ==== Proof.RefRun.lean ====
/-
  The reference's run. Every weakly fair execution of its @main terminates with the result buffer at `res` of the nine
  argument arrays and the arguments unchanged: the program is a straight line of host operations, so its buffers end at
  the fold of the operations over the launch contents; window by window that fold is, at the buffers the later windows
  read, the named terms, and a window leaves every buffer it does not write as it found it.
-/
import proofs.«131727_g78563541778773_cont_9to1c4b_168_6_alg».proof.Proof.RefOps
import proofs.«131727_g78563541778773_cont_9to1c4b_168_6_alg».proof.Proof.RefWin1
import proofs.«131727_g78563541778773_cont_9to1c4b_168_6_alg».proof.Proof.RefWin2
import proofs.«131727_g78563541778773_cont_9to1c4b_168_6_alg».proof.Proof.RefWin3
import proofs.«131727_g78563541778773_cont_9to1c4b_168_6_alg».proof.Proof.RefWin4
import proofs.«131727_g78563541778773_cont_9to1c4b_168_6_alg».proof.Proof.RefWin5
import proofs.«131727_g78563541778773_cont_9to1c4b_168_6_alg».proof.Proof.RefWin6
import proofs.«131727_g78563541778773_cont_9to1c4b_168_6_alg».proof.Proof.RefWin7

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- After all the operations the result buffer holds `res` of what the argument buffers held at the start. -/
theorem after_v29 (V : Valuation τ sig (Elt F)) :
    after ops V (Proc.devRef .tc main_v29)
      = res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops]
  simp (disch := decide) only [win7_v29, keep6, win6_v16, win5_v11, win5_v15, keep5, win4_v7, keep4, win3_v4, keep3,
    win2_v3, keep2, win1_v2, keep1]
  rfl

set_option maxRecDepth 8192 in
/-- No operation writes an argument buffer: each holds at the end what it held at the start. -/
theorem after_arg (V : Valuation τ sig (Elt F)) {r : Ref sig .tc}
    (h : r ∉ part1_W ∧ r ∉ part2_W ∧ r ∉ part3_W ∧ r ∉ part4_W ∧ r ∉ part5_W ∧ r ∉ part6_W ∧ r ∉ part7_W) :
    after ops V (Proc.devRef .tc r) = V (Proc.devRef .tc r) := by
  rw [after_ops, keep7 _ h.2.2.2.2.2.2, keep6 _ h.2.2.2.2.2.1, keep5 _ h.2.2.2.2.1, keep4 _ h.2.2.2.1, keep3 _ h.2.2.1,
    keep2 _ h.2.1, keep1 _ h.1]

/-- On every device, for any float values, from any memory with zero counters: every weakly fair execution of @main
    terminates with the result at `res` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v29)
        = res (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v29).trans (after_v29 _),
      (h c main_arg0).trans (after_arg _ (by decide)),
      (h c main_arg1).trans (after_arg _ (by decide)),
      (h c main_arg2).trans (after_arg _ (by decide)),
      (h c main_arg3).trans (after_arg _ (by decide)),
      (h c main_arg4).trans (after_arg _ (by decide)),
      (h c main_arg5).trans (after_arg _ (by decide)),
      (h c main_arg6).trans (after_arg _ (by decide)),
      (h c main_arg7).trans (after_arg _ (by decide)),
      (h c main_arg8).trans (after_arg _ (by decide))⟩)
    (run_seq scopedRefs_eq scopedSems_eq defs main (fun _ => ops) main_eq (fun _ => ops_sub) m ρ
      (hfresh := fun _ => ops_fresh))

end Cert.RefSide

end
-- ==== Proof.RefLib.lean ====
/-
  General facts the reading of the reference's result at an index rests on.

  Words: a 32-bit word whose unsigned value is below 2^31 is that number read signed, so it is not negative, is at least
  zero, and compares with a small bound as its unsigned value does. Masks: a conjunction over an axis of ones is one.
  Row gathers: a gather of whole rows of a table [N, 128] (the row axis collapsed, the row number the one component of
  the start index, clamped into the table) read at a result index is the table at the clamped row and the index's last
  coordinate. Floats: the word 0x43000000 is 128 and the word 0 is 0.
-/
import Idealize.ShloMosaic.PureOps.Ideal.Laws
import Idealize.ShloMosaic.PureOps.Reduce
import Idealize.ShloMosaic.Lib.ValueIdx
import Idealize.ShloMosaic.Lib.IdealHost
import Idealize.ShloMosaic.Lib.Affine
import Idealize.ShloMosaic.Lib.Pipeline.Value

noncomputable section

open scoped BigOperators

namespace Cert.RefSide

open Idealize.ShloMosaic Idealize.ShloMosaic.ValueIdx

/-! ## Words -/

/-- A word below 2^31 read signed is its unsigned value. -/
theorem toInt_of_small (w : BitVec 32) (h : w.toNat < 2147483648) : w.toInt = (w.toNat : Int) := by
  rw [BitVec.toInt_eq_toNat_cond]
  split
  · rfl
  · omega

/-- Such a word is not negative: the comparison "less than zero" is the bit 0. -/
theorem slt_zero_of_small (w : BitVec 32) (h : w.toNat < 2147483648) : IntOp.cmpi .slt w 0#32 = 0#1 := by
  apply eq_zero_of_ne_one
  rw [IntOp.cmpi_slt, toInt_of_small w h]
  have h0 : (0#32 : BitVec 32).toInt = 0 := by decide
  rw [h0]; omega

/-- Such a word is at least zero. -/
theorem sge_zero_of_small (w : BitVec 32) (h : w.toNat < 2147483648) : IntOp.cmpi .sge w 0#32 = 1#1 := by
  rw [IntOp.cmpi_sge, toInt_of_small w h]
  have h0 : (0#32 : BitVec 32).toInt = 0 := by decide
  rw [h0]; omega

/-- A word whose unsigned value is at most a small bound's is at most the bound read signed. -/
theorem sle_of_small (w hi : BitVec 32) (hh : hi.toNat < 2147483648) (h : w.toNat ≤ hi.toNat) : IntOp.cmpi .sle w hi = 1#1 := by
  rw [IntOp.cmpi_sle, toInt_of_small w (by omega), toInt_of_small hi hh]
  omega

/-- The clamped row of a word already inside the table is the word's value. -/
theorem clamp_of_lt (w : BitVec 32) (N : Nat) (h : w.toNat < N) (hN : N ≤ 2147483648) :
    min w.toInt.toNat (N - 1) = w.toNat := by
  rw [toInt_of_small w (by omega)]
  simp only [Int.toNat_natCast]
  omega

/-! ## A conjunction of ones -/

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_one f l fun n hn => h n (List.mem_cons_of_mem _ hn)

/-- A reduction by `and` from the initial value 1 of an array of ones is 1 at every result index. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

/-! ## Row gathers -/

section Gather
variable {α : Type}

/-- The dimension numbers of a gather of whole rows of a table [N, 128] by start indices [R, 1]: result [R, 128]. -/
abbrev rowDims2 (N R : Nat)
    (wf : GatherDims.WF ⟨2, ![N, 128]⟩ ⟨2, ![R, 1]⟩ ⟨2, ![R, 128]⟩ [1] [0] [] [0] [] 1 ![1, 128]) :
    GatherDims ⟨2, ![N, 128]⟩ ⟨2, ![R, 1]⟩ ⟨2, ![R, 128]⟩ where
  offsetDims := [1]
  collapsedSliceDims := [0]
  operandBatchingDims := []
  startIndicesBatchingDims := []
  startIndexMap := [0]
  indexVectorDim := 1
  sliceSizes := ![1, 128]
  wf := wf

/-- That gather at (r, c): the table at the row the start index [r, 0] names, read signed and clamped, and column c. -/
theorem gather_row2_apply {N R w : Nat} (hN : 0 < N)
    (wf : GatherDims.WF ⟨2, ![N, 128]⟩ ⟨2, ![R, 1]⟩ ⟨2, ![R, 128]⟩ [1] [0] [] [0] [] 1 ![1, 128])
    (x : (⟨2, ![N, 128]⟩ : Shape).Idx → α) (idx : IVec ⟨2, ![R, 1]⟩ w) (r : Fin R) (c : Fin 128) :
    Host.gather (rowDims2 N R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims2 N R wf).start (ix2 r c) idx 0 + (rowDims2 N R wf).batchCoord (ix2 r c) 0
        + (rowDims2 N R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N R wf).startIndexMap from List.mem_singleton.mpr rfl)]
    have hsi : (rowDims2 N R wf).siIdx (ix2 r c) ⟨List.idxOf (0 : Fin 2) (rowDims2 N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims2 N R wf).start (ix2 r c) idx 1 + (rowDims2 N R wf).batchCoord (ix2 r c) 1
        + (rowDims2 N R wf).offCoord (ix2 r c) 1 = c.val
    rw [GatherDims.batchCoord_eq_zero _ _ _ List.not_mem_nil]
    unfold GatherDims.start
    have h1 : (1 : Fin 2) ∉ (rowDims2 N R wf).startIndexMap := by
      show (1 : Fin 2) ∉ ([0] : List (Fin 2)); decide
    have h2 : (1 : Fin 2) ∈ (rowDims2 N R wf).sKept :=
      (GatherDims.mem_sKept _ _).mpr ⟨by show (1 : Fin 2) ∉ ([0] : List (Fin 2)); decide, List.not_mem_nil⟩
    rw [dif_neg h1]
    unfold GatherDims.offCoord
    rw [dif_pos h2]
    simp only [Nat.zero_add]
    rfl

/-- The dimension numbers of a gather of whole rows of a table [N, 128] by start indices [R, C, 1]: result [R, C, 128]. -/
abbrev rowDims3 (N R C : Nat)
    (wf : GatherDims.WF ⟨2, ![N, 128]⟩ ⟨3, ![R, C, 1]⟩ ⟨3, ![R, C, 128]⟩ [2] [0] [] [0] [] 2 ![1, 128]) :
    GatherDims ⟨2, ![N, 128]⟩ ⟨3, ![R, C, 1]⟩ ⟨3, ![R, C, 128]⟩ where
  offsetDims := [2]
  collapsedSliceDims := [0]
  operandBatchingDims := []
  startIndicesBatchingDims := []
  startIndexMap := [0]
  indexVectorDim := 2
  sliceSizes := ![1, 128]
  wf := wf

/-- That gather at (r, q, c): the table at the row the start index [r, q, 0] names, read signed and clamped, and column c. -/
theorem gather_row3_apply {N R C w : Nat} (hN : 0 < N)
    (wf : GatherDims.WF ⟨2, ![N, 128]⟩ ⟨3, ![R, C, 1]⟩ ⟨3, ![R, C, 128]⟩ [2] [0] [] [0] [] 2 ![1, 128])
    (x : (⟨2, ![N, 128]⟩ : Shape).Idx → α) (idx : IVec ⟨3, ![R, C, 1]⟩ w) (r : Fin R) (q : Fin C) (c : Fin 128) :
    Host.gather (rowDims3 N R C wf) x idx (ix3 r q c)
      = x (ix2 ⟨min (idx (ix3 r q (0 : Fin 1))).toInt.toNat (N - 1), by omega⟩ c) := by
  unfold Host.gather
  congr 1
  funext a
  refine Fin.ext ?_
  match a with
  | ⟨0, _⟩ =>
    show (rowDims3 N R C wf).start (ix3 r q c) idx 0 + (rowDims3 N R C wf).batchCoord (ix3 r q c) 0
        + (rowDims3 N R C wf).offCoord (ix3 r q c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N R C wf).startIndexMap from List.mem_singleton.mpr rfl)]
    have hsi : (rowDims3 N R C wf).siIdx (ix3 r q c) ⟨List.idxOf (0 : Fin 2) (rowDims3 N R C wf).startIndexMap,
        List.idxOf_lt_length_iff.2 (List.mem_singleton.mpr rfl)⟩ = ix3 r q (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims3 N R C wf).start (ix3 r q c) idx 1 + (rowDims3 N R C wf).batchCoord (ix3 r q c) 1
        + (rowDims3 N R C wf).offCoord (ix3 r q c) 1 = c.val
    rw [GatherDims.batchCoord_eq_zero _ _ _ List.not_mem_nil]
    unfold GatherDims.start
    have h1 : (1 : Fin 2) ∉ (rowDims3 N R C wf).startIndexMap := by
      show (1 : Fin 2) ∉ ([0] : List (Fin 2)); decide
    have h2 : (1 : Fin 2) ∈ (rowDims3 N R C wf).sKept :=
      (GatherDims.mem_sKept _ _).mpr ⟨by show (1 : Fin 2) ∉ ([0] : List (Fin 2)); decide, List.not_mem_nil⟩
    rw [dif_neg h1]
    unfold GatherDims.offCoord
    rw [dif_pos h2]
    simp only [Nat.zero_add]
    rfl

end Gather

/-! ## Float words -/

/-- The f32 word 0x43000000 is the real 128. -/
theorem ofBits_128_f32 : Ideal.ofBits .f32 0x43000000#32 = ((128 : ℝ) : EReal) := by
  simp [Ideal.ofBits, Ideal.ieee, -EReal.coe_mul]; norm_num

end Cert.RefSide

end
-- ==== Proof.RefRead1.lean ====
/-
  The reference's four table lookups and their sum, read at an index, at the extended reals.

  When every index word is inside its table (its unsigned value below the table's length, so that read signed it is the
  same small non-negative number): the wrap for negative indices leaves the word as it is; the mask "0 ≤ index ≤ length − 1"
  is 1; the clamped gather reads the row the word names. So a lookup at (…, c) is the table at that row and column c, and
  the summed embedding at (n, l, c) is the specification's: token row plus decoration row plus charge row plus row l of the
  position table.
-/
import proofs.«131727_g78563541778773_cont_9to1c4b_168_6_alg».proof.Proof.RefLib
import proofs.«131727_g78563541778773_cont_9to1c4b_168_6_alg».proof.Proof.RefTerms
import proofs.«131727_g78563541778773_cont_9to1c4b_168_6_alg».proof.Proof.Spec

noncomputable section

open scoped BigOperators

namespace Cert.RefSide

open Cert.ReferenceIdeal Cert.ReferenceIdeal.Gen Idealize.ShloMosaic Idealize.ShloMosaic.ValueIdx

/-! ## Indexed by a 16384 × 50 array of words (the token and the decoration) -/

/-- A small non-negative word is not wrapped. -/
theorem wrapB_apply (n : BitVec 32) (idx : (⟨S16384x50, .i32⟩ : BufTy).Contents (Elt Ideal)) (j : S16384x50.Idx) (h : (idx j).toNat < 2147483648) :
    wrapB (F := Ideal) n idx j = idx j := by
  unfold wrapB
  change Scalar.select (IntOp.cmpi .slt (idx j) 0#32) _ (idx j) = idx j
  rw [slt_zero_of_small (idx j) h, select_zero]

/-- The index column at (a, b, ·) is the wrapped index at (a, b). -/
theorem colB_apply (n : BitVec 32) (idx : (⟨S16384x50, .i32⟩ : BufTy).Contents (Elt Ideal)) (a : Fin 16384) (b : Fin 50) (u : Fin 1) :
    colB (F := Ideal) n idx (ix3 a b u) = wrapB (F := Ideal) n idx (ix2 a b) := by
  unfold colB
  exact broadcastInDim_apply _ _ _ _ (ix2 a b) (fun d => by match d with | ⟨0, _⟩ => rfl | ⟨1, _⟩ => rfl)

/-- With every word at most `hi` (a small bound) the in-range mask is 1 everywhere. -/
theorem okB_apply (hi n : BitVec 32) (idx : (⟨S16384x50, .i32⟩ : BufTy).Contents (Elt Ideal)) (hh : hi.toNat < 2147483648)
    (h : ∀ j, (idx j).toNat ≤ hi.toNat) (j : S16384x50.Idx) :
    okB (F := Ideal) hi (colB (F := Ideal) n idx) j = 1#1 := by
  unfold okB
  refine reduce_andi_one _ _ _ _ rfl (fun i => ?_) j
  obtain ⟨a, b, u, rfl⟩ : ∃ (a : Fin 16384) (b : Fin 50) (u : Fin 1), i = ix3 a b u := ⟨i 0, i 1, i 2, eq_ix3 i⟩
  change IntOp.andi (IntOp.cmpi .sge (colB (F := Ideal) n idx (ix3 a b u)) 0#32)
    (IntOp.cmpi .sle (colB (F := Ideal) n idx (ix3 a b u)) hi) = 1#1
  have hw := h (ix2 a b)
  rw [colB_apply, wrapB_apply n idx _ (by omega), sge_zero_of_small _ (by omega), sle_of_small _ _ hh hw]
  decide

/-- The lookup of the ten-row table at (n, l, c): row `dec (n, l)`, column c. -/
theorem tk1_apply (P : (⟨S10x128, .f32⟩ : BufTy).Contents (Elt Ideal)) (dec : (⟨S16384x50, .i32⟩ : BufTy).Contents (Elt Ideal)) (hd : ∀ j, (dec j).toNat < 10)
    (n : Fin 16384) (l : Fin 50) (c : Fin 128) :
    tk1 (F := Ideal) P dec (ix3 n l c) = Cert.Spec.rowAt P (dec (ix2 n l)) c := by
  unfold tk1
  rw [select_apply]
  have hm : broadcastInDim S16384x50x128 ![0, 1] bcast_S16384x50_S16384x50x128_0_1
      (okB (F := Ideal) 9#32 (colB (F := Ideal) 10#32 dec)) (ix3 n l c) = 1#1 := by
    rw [broadcastInDim_apply _ _ _ _ (ix2 n l) (fun d => by match d with | ⟨0, _⟩ => rfl | ⟨1, _⟩ => rfl)]
    exact okB_apply 9#32 10#32 dec (by decide) (fun j => by have := hd j; show (dec j).toNat ≤ 9; omega) _
  rw [hm, select_one]
  rw [show gather_S10x128_S16384x50x1_S16384x50x128_2_0_n_n_0_2_1128
      = rowDims3 10 16384 50 gather_S10x128_S16384x50x1_S16384x50x128_2_0_n_n_0_2_1128_wf from rfl]
  rw [gather_row3_apply (by decide)]
  unfold Cert.Spec.rowAt
  rw [dif_pos (hd (ix2 n l))]
  refine congrArg (fun r => P (ix2 r c)) (Fin.ext ?_)
  show min (colB (F := Ideal) 10#32 dec (ix3 n l (0 : Fin 1))).toInt.toNat (10 - 1) = (dec (ix2 n l)).toNat
  rw [colB_apply, wrapB_apply _ _ _ (by have := hd (ix2 n l); omega)]
  exact clamp_of_lt _ 10 (hd (ix2 n l)) (by decide)

/-- The lookup of the thirty-row table at (n, l, c): row `tok (n, l)`, column c. -/
theorem tk2_apply (A : (⟨S30x128, .f32⟩ : BufTy).Contents (Elt Ideal)) (tok : (⟨S16384x50, .i32⟩ : BufTy).Contents (Elt Ideal)) (ht : ∀ j, (tok j).toNat < 30)
    (n : Fin 16384) (l : Fin 50) (c : Fin 128) :
    tk2 (F := Ideal) A tok (ix3 n l c) = Cert.Spec.rowAt A (tok (ix2 n l)) c := by
  unfold tk2
  rw [select_apply]
  have hm : broadcastInDim S16384x50x128 ![0, 1] bcast_S16384x50_S16384x50x128_0_1
      (okB (F := Ideal) 29#32 (colB (F := Ideal) 30#32 tok)) (ix3 n l c) = 1#1 := by
    rw [broadcastInDim_apply _ _ _ _ (ix2 n l) (fun d => by match d with | ⟨0, _⟩ => rfl | ⟨1, _⟩ => rfl)]
    exact okB_apply 29#32 30#32 tok (by decide) (fun j => by have := ht j; show (tok j).toNat ≤ 29; omega) _
  rw [hm, select_one]
  rw [show gather_S30x128_S16384x50x1_S16384x50x128_2_0_n_n_0_2_1128
      = rowDims3 30 16384 50 gather_S30x128_S16384x50x1_S16384x50x128_2_0_n_n_0_2_1128_wf from rfl]
  rw [gather_row3_apply (by decide)]
  unfold Cert.Spec.rowAt
  rw [dif_pos (ht (ix2 n l))]
  refine congrArg (fun r => A (ix2 r c)) (Fin.ext ?_)
  show min (colB (F := Ideal) 30#32 tok (ix3 n l (0 : Fin 1))).toInt.toNat (30 - 1) = (tok (ix2 n l)).toNat
  rw [colB_apply, wrapB_apply _ _ _ (by have := ht (ix2 n l); omega)]
  exact clamp_of_lt _ 30 (ht (ix2 n l)) (by decide)

/-! ## Indexed by a vector of 16384 words (the charge) -/

/-- A small non-negative word is not wrapped. -/
theorem wrapA_apply (n : BitVec 32) (idx : (⟨S16384, .i32⟩ : BufTy).Contents (Elt Ideal)) (j : S16384.Idx) (h : (idx j).toNat < 2147483648) :
    wrapA (F := Ideal) n idx j = idx j := by
  unfold wrapA
  change Scalar.select (IntOp.cmpi .slt (idx j) 0#32) _ (idx j) = idx j
  rw [slt_zero_of_small (idx j) h, select_zero]

/-- The index column at (a, ·) is the wrapped index at a. -/
theorem colA_apply (n : BitVec 32) (idx : (⟨S16384, .i32⟩ : BufTy).Contents (Elt Ideal)) (a : Fin 16384) (u : Fin 1) :
    colA (F := Ideal) n idx (ix2 a u) = wrapA (F := Ideal) n idx (ix1 a) := by
  unfold colA
  exact broadcastInDim_apply _ _ _ _ (ix1 a) (fun d => by match d with | ⟨0, _⟩ => rfl)

/-- With every word at most `hi` (a small bound) the in-range mask is 1 everywhere. -/
theorem okA_apply (hi n : BitVec 32) (idx : (⟨S16384, .i32⟩ : BufTy).Contents (Elt Ideal)) (hh : hi.toNat < 2147483648)
    (h : ∀ j, (idx j).toNat ≤ hi.toNat) (j : S16384.Idx) :
    okA (F := Ideal) hi (colA (F := Ideal) n idx) j = 1#1 := by
  unfold okA
  refine reduce_andi_one _ _ _ _ rfl (fun i => ?_) j
  obtain ⟨a, u, rfl⟩ : ∃ (a : Fin 16384) (u : Fin 1), i = ix2 a u := ⟨i 0, i 1, eq_ix2 i⟩
  change IntOp.andi (IntOp.cmpi .sge (colA (F := Ideal) n idx (ix2 a u)) 0#32)
    (IntOp.cmpi .sle (colA (F := Ideal) n idx (ix2 a u)) hi) = 1#1
  have hw := h (ix1 a)
  rw [colA_apply, wrapA_apply n idx _ (by omega), sge_zero_of_small _ (by omega), sle_of_small _ _ hh hw]
  decide

/-- The lookup of the ten-row table at (n, c): row `chg n`, column c. -/
theorem tk0_apply (C : (⟨S10x128, .f32⟩ : BufTy).Contents (Elt Ideal)) (chg : (⟨S16384, .i32⟩ : BufTy).Contents (Elt Ideal)) (hc : ∀ j, (chg j).toNat < 10)
    (n : Fin 16384) (c : Fin 128) :
    tk0 (F := Ideal) C chg (ix2 n c) = Cert.Spec.rowAt C (chg (ix1 n)) c := by
  unfold tk0
  rw [select_apply]
  have hm : broadcastInDim S16384x128 ![0] bcast_S16384_S16384x128_0
      (okA (F := Ideal) 9#32 (colA (F := Ideal) 10#32 chg)) (ix2 n c) = 1#1 := by
    rw [broadcastInDim_apply _ _ _ _ (ix1 n) (fun d => by match d with | ⟨0, _⟩ => rfl)]
    exact okA_apply 9#32 10#32 chg (by decide) (fun j => by have := hc j; show (chg j).toNat ≤ 9; omega) _
  rw [hm, select_one]
  rw [show gather_S10x128_S16384x1_S16384x128_1_0_n_n_0_1_1128
      = rowDims2 10 16384 gather_S10x128_S16384x1_S16384x128_1_0_n_n_0_1_1128_wf from rfl]
  rw [gather_row2_apply (by decide)]
  unfold Cert.Spec.rowAt
  rw [dif_pos (hc (ix1 n))]
  refine congrArg (fun r => C (ix2 r c)) (Fin.ext ?_)
  show min (colA (F := Ideal) 10#32 chg (ix2 n (0 : Fin 1))).toInt.toNat (10 - 1) = (chg (ix1 n)).toNat
  rw [colA_apply, wrapA_apply _ _ _ (by have := hc (ix1 n); omega)]
  exact clamp_of_lt _ 10 (hc (ix1 n)) (by decide)

/-- The charge rows repeated over the positions, at (n, l, c): the lookup at (n, c). -/
theorem eC_apply (C : (⟨S10x128, .f32⟩ : BufTy).Contents (Elt Ideal)) (chg : (⟨S16384, .i32⟩ : BufTy).Contents (Elt Ideal)) (n : Fin 16384) (l : Fin 50) (c : Fin 128) :
    eC (F := Ideal) C chg (ix3 n l c) = tk0 (F := Ideal) C chg (ix2 n c) := by
  unfold eC
  rw [broadcastInDim_apply _ _ _ _ (ix3 n (0 : Fin 1) c)
    (fun d => by match d with | ⟨0, _⟩ => rfl | ⟨1, _⟩ => rfl | ⟨2, _⟩ => rfl)]
  exact broadcastInDim_apply _ _ _ _ (ix2 n c) (fun d => by match d with | ⟨0, _⟩ => rfl | ⟨1, _⟩ => rfl)

/-! ## The position table indexed by 0, 1, …, 49 -/

/-- A small non-negative word is not wrapped. -/
theorem wrapC_apply (n : BitVec 32) (idx : (⟨S50, .i32⟩ : BufTy).Contents (Elt Ideal)) (j : S50.Idx) (h : (idx j).toNat < 2147483648) :
    wrapC (F := Ideal) n idx j = idx j := by
  unfold wrapC
  change Scalar.select (IntOp.cmpi .slt (idx j) 0#32) _ (idx j) = idx j
  rw [slt_zero_of_small (idx j) h, select_zero]

/-- The index column at (a, ·) is the wrapped index at a. -/
theorem colC_apply (n : BitVec 32) (idx : (⟨S50, .i32⟩ : BufTy).Contents (Elt Ideal)) (a : Fin 50) (u : Fin 1) :
    colC (F := Ideal) n idx (ix2 a u) = wrapC (F := Ideal) n idx (ix1 a) := by
  unfold colC
  exact broadcastInDim_apply _ _ _ _ (ix1 a) (fun d => by match d with | ⟨0, _⟩ => rfl)

/-- With every word at most `hi` (a small bound) the in-range mask is 1 everywhere. -/
theorem okC_apply (hi n : BitVec 32) (idx : (⟨S50, .i32⟩ : BufTy).Contents (Elt Ideal)) (hh : hi.toNat < 2147483648)
    (h : ∀ j, (idx j).toNat ≤ hi.toNat) (j : S50.Idx) :
    okC (F := Ideal) hi (colC (F := Ideal) n idx) j = 1#1 := by
  unfold okC
  refine reduce_andi_one _ _ _ _ rfl (fun i => ?_) j
  obtain ⟨a, u, rfl⟩ : ∃ (a : Fin 50) (u : Fin 1), i = ix2 a u := ⟨i 0, i 1, eq_ix2 i⟩
  change IntOp.andi (IntOp.cmpi .sge (colC (F := Ideal) n idx (ix2 a u)) 0#32)
    (IntOp.cmpi .sle (colC (F := Ideal) n idx (ix2 a u)) hi) = 1#1
  have hw := h (ix1 a)
  rw [colC_apply, wrapC_apply n idx _ (by omega), sge_zero_of_small _ (by omega), sle_of_small _ _ hh hw]
  decide

/-- The position l as a word has unsigned value l. -/
theorem iota_toNat (l : Fin 50) : (iotaInDim S50 32 0 (ix1 l)).toNat = l.val := by
  show (BitVec.ofNat 32 l.val).toNat = l.val
  rw [BitVec.toNat_ofNat]
  have := l.isLt
  omega

/-- The lookup of the position table by 0, 1, …, 49 at (l, c): row l, column c. -/
theorem tk3_apply (pos : (⟨S512x128, .f32⟩ : BufTy).Contents (Elt Ideal)) (l : Fin 50) (c : Fin 128) :
    tk3 (F := Ideal) pos (iotaInDim S50 32 0) (ix2 l c) = pos (ix2 ⟨l.val, by have := l.isLt; omega⟩ c) := by
  have hi : ∀ j : S50.Idx, (iotaInDim S50 32 0 j).toNat < 50 := fun j => by
    obtain ⟨a, rfl⟩ : ∃ a : Fin 50, j = ix1 a := ⟨j 0, eq_ix1 j⟩
    rw [iota_toNat]; exact a.isLt
  unfold tk3
  rw [select_apply]
  have hm : broadcastInDim S50x128 ![0] bcast_S50_S50x128_0
      (okC (F := Ideal) 511#32 (colC (F := Ideal) 512#32 (iotaInDim S50 32 0))) (ix2 l c) = 1#1 := by
    rw [broadcastInDim_apply _ _ _ _ (ix1 l) (fun d => by match d with | ⟨0, _⟩ => rfl)]
    exact okC_apply 511#32 512#32 _ (by decide) (fun j => by have := hi j; show (iotaInDim S50 32 0 j).toNat ≤ 511; omega) _
  rw [hm, select_one]
  rw [show gather_S512x128_S50x1_S50x128_1_0_n_n_0_1_1128
      = rowDims2 512 50 gather_S512x128_S50x1_S50x128_1_0_n_n_0_1_1128_wf from rfl]
  rw [gather_row2_apply (by decide)]
  refine congrArg (fun r => pos (ix2 r c)) (Fin.ext ?_)
  show min (colC (F := Ideal) 512#32 (iotaInDim S50 32 0) (ix2 l (0 : Fin 1))).toInt.toNat (512 - 1) = l.val
  rw [colC_apply, wrapC_apply _ _ _ (by have := hi (ix1 l); omega),
    clamp_of_lt _ 512 (by have := hi (ix1 l); omega) (by decide), iota_toNat]

/-- The position rows with a unit leading axis, at (·, l, c): row l of the position table, column c. -/
theorem ePos_apply (pos : (⟨S512x128, .f32⟩ : BufTy).Contents (Elt Ideal)) (u : Fin 1) (l : Fin 50) (c : Fin 128) :
    ePos (F := Ideal) pos (ix3 u l c) = pos (ix2 ⟨l.val, by have := l.isLt; omega⟩ c) := by
  unfold ePos
  rw [broadcastInDim_apply _ _ _ _ (ix2 l c) (fun d => by match d with | ⟨0, _⟩ => rfl | ⟨1, _⟩ => rfl)]
  exact tk3_apply pos l c

/-! ## The sum -/

/-- The summed embedding at (n, l, c) is the specification's. -/
theorem embAll_apply (tok dec : (⟨S16384x50, .i32⟩ : BufTy).Contents (Elt Ideal)) (chg : (⟨S16384, .i32⟩ : BufTy).Contents (Elt Ideal)) (A : (⟨S30x128, .f32⟩ : BufTy).Contents (Elt Ideal))
    (P C : (⟨S10x128, .f32⟩ : BufTy).Contents (Elt Ideal)) (pos : (⟨S512x128, .f32⟩ : BufTy).Contents (Elt Ideal)) (h : Cert.Spec.InRange tok dec chg)
    (n : Fin 16384) (l : Fin 50) (c : Fin 128) :
    embAll (F := Ideal) tok dec chg A P C pos (ix3 n l c) = Cert.Spec.emb tok dec chg A P C pos n l c := by
  unfold embAll embd Cert.Spec.emb
  rw [addf_apply, addf_apply, addf_apply, tk2_apply A tok h.1, tk1_apply P dec h.2.1, eC_apply, tk0_apply C chg h.2.2,
    broadcastInDim_apply _ _ _ _ (ix3 (0 : Fin 1) l c)
      (fun d => by match d with | ⟨0, _⟩ => rfl | ⟨1, _⟩ => rfl | ⟨2, _⟩ => rfl),
    ePos_apply]

end Cert.RefSide

end
-- ==== Proof.RefRead2.lean ====
/-
  The normalization, read at an index, and the reference's result against the specification.

  The sum over the last axis at (n, l) is the sum over c of the entries (n, l, c): the initial value is the zero word. The
  mean is that sum over 128. The variance's divisor is 128 minus the integer 0 converted, that is 128, which is positive,
  so the select takes the mean squared deviation. The result at (n, l, c) is the deviation over the square root of the
  variance plus the small constant, times the scale at c, plus the shift at c: the specification's layer normalization of
  the row c ↦ embedding (n, l, c).
-/
import proofs.«131727_g78563541778773_cont_9to1c4b_168_6_alg».proof.Proof.RefRead1

noncomputable section

open scoped BigOperators

namespace Cert.RefSide

open Cert.ReferenceIdeal Cert.ReferenceIdeal.Gen Idealize.ShloMosaic Idealize.ShloMosaic.ValueIdx

/-! ## Broadcasts at an index -/

/-- A unit last axis added: (n, l, ·) reads (n, l). -/
theorem bc_keep {α : Type} (x : S16384x50.Idx → α) (n : Fin 16384) (l : Fin 50) (u : Fin 1) :
    broadcastInDim S16384x50x1 ![0, 1] bcast_S16384x50_S16384x50x1_0_1 x (ix3 n l u) = x (ix2 n l) :=
  broadcastInDim_apply _ _ _ _ (ix2 n l) (fun d => by match d with | ⟨0, _⟩ => rfl | ⟨1, _⟩ => rfl)

/-- A unit last axis repeated 128 times: (n, l, c) reads (n, l, 0). -/
theorem bc_last {α : Type} (x : S16384x50x1.Idx → α) (n : Fin 16384) (l : Fin 50) (c : Fin 128) :
    broadcastInDim S16384x50x128 ![0, 1, 2] bcast_S16384x50x1_S16384x50x128_0_1_2 x (ix3 n l c) = x (ix3 n l (0 : Fin 1)) :=
  broadcastInDim_apply _ _ _ _ (ix3 n l (0 : Fin 1))
    (fun d => by match d with | ⟨0, _⟩ => rfl | ⟨1, _⟩ => rfl | ⟨2, _⟩ => rfl)

/-- A vector over the last axis repeated over the first two: (n, l, c) reads c. -/
theorem bc_vec {α : Type} (x : S128.Idx → α) (n : Fin 16384) (l : Fin 50) (c : Fin 128) :
    broadcastInDim S16384x50x128 ![0, 1, 2] bcast_S1x1x128_S16384x50x128_0_1_2
      (broadcastInDim S1x1x128 ![2] bcast_S128_S1x1x128_2 x) (ix3 n l c) = x (ix1 c) := by
  rw [broadcastInDim_apply _ _ _ _ (ix3 (0 : Fin 1) (0 : Fin 1) c)
    (fun d => by match d with | ⟨0, _⟩ => rfl | ⟨1, _⟩ => rfl | ⟨2, _⟩ => rfl)]
  exact broadcastInDim_apply _ _ _ _ (ix1 c) (fun d => by match d with | ⟨0, _⟩ => rfl)

/-! ## Host float operations at an index, at the extended reals -/

/-- The host's quotient at an index is the quotient of the elements. -/
theorem hostDivf_apply {s : Shape} (a b : FVec Ideal s .f32) (i : s.Idx) : Host.divf a b i = Ideal.div (a i) (b i) := rfl
/-- The host's square root at an index is the square root of the element. -/
theorem hostSqrt_apply {s : Shape} (a : FVec Ideal s .f32) (i : s.Idx) : Host.sqrt a i = Ideal.sqrt (a i) := rfl

/-! ## The sum over the last axis -/

/-- The source index over (n, l) with k on the summed axis is (n, l, k). -/
theorem lift_last (h : Shape.Reduces S16384x50x128 [2] S16384x50) (n : Fin 16384) (l : Fin 50) (k : Fin 128) :
    h.lift (ix2 n l) k = ix3 n l k := by
  funext d
  refine Fin.ext ?_
  match d with
  | ⟨0, _⟩ => rfl
  | ⟨1, _⟩ => rfl
  | ⟨2, _⟩ => rfl

/-- The sum over the last axis from the zero word, at (n, l): the sum of the 128 entries. -/
theorem rowSum_apply (x : (⟨S16384x50x128, .f32⟩ : BufTy).Contents (Elt Ideal)) (n : Fin 16384) (l : Fin 50) :
    Host.reduceAdd x (constant (F := Ideal) S_ .f32 0x00000000#32) reducesTo_S16384x50x128_S16384x50_d2 h_S_ (ix2 n l)
      = ∑ c : Fin 128, x (ix3 n l c) := by
  have hR : Shape.Reduces S16384x50x128 [2] S16384x50 := by decide
  rw [hostReduceAdd_apply, Ideal.hostReduceAdd_single _ hR, constant_apply, Ideal.ofBits_zero_f32, zero_add]
  exact Finset.sum_congr rfl (fun k _ => congrArg x (lift_last hR n l k))

/-! ## Mean, deviation, variance -/

/-- The mean at (n, l, ·) is the specification's mean of the row. -/
theorem meanOf_apply (e : (⟨S16384x50x128, .f32⟩ : BufTy).Contents (Elt Ideal)) (n : Fin 16384) (l : Fin 50) (u : Fin 1) :
    meanOf (F := Ideal) e (ix3 n l u) = Cert.Spec.mu (fun c => e (ix3 n l c)) := by
  unfold meanOf Cert.Spec.mu
  rw [hostDivf_apply, bc_keep, rowSum_apply, broadcastInDim_scalar_apply, constant_apply]

/-- The deviation at (n, l, c) is the specification's. -/
theorem devOf_apply (e : (⟨S16384x50x128, .f32⟩ : BufTy).Contents (Elt Ideal)) (n : Fin 16384) (l : Fin 50) (c : Fin 128) :
    devOf (F := Ideal) e (ix3 n l c) = Cert.Spec.dev (fun c => e (ix3 n l c)) c := by
  unfold devOf Cert.Spec.dev
  rw [subf_apply, bc_last, meanOf_apply]

/-- The variance's divisor is 128. -/
theorem cntOf_apply (j : S_.Idx) : cntOf (F := Ideal) j = Cert.Spec.K128 := by
  unfold cntOf
  rw [subf_apply, constant_apply]
  show Ideal.ofBits .f32 0x43000000#32 - (((0#32 : BitVec 32).toInt : ℝ) : EReal) = Ideal.ofBits .f32 0x43000000#32
  simp

/-- The divisor is positive: the comparison is the bit 1. -/
theorem cnt_pos (j : S_.Idx) :
    cmpf .ogt (cntOf (F := Ideal)) (constant (F := Ideal) S_ .f32 0x00000000#32) j = 1#1 := by
  show Ideal.cmp .ogt (cntOf (F := Ideal) j) (Ideal.ofBits .f32 0x00000000#32) = 1#1
  rw [cntOf_apply, Ideal.ofBits_zero_f32]
  show BitVec.ofBool (decide ((0 : EReal) < Ideal.ofBits .f32 0x43000000#32)) = 1#1
  rw [ofBits_128_f32]
  have : (0 : EReal) < ((128 : ℝ) : EReal) := by exact_mod_cast (by norm_num : (0 : ℝ) < 128)
  simp [this]

/-- The variance at (n, l, ·) is the specification's variance of the row. -/
theorem varOf_apply (e : (⟨S16384x50x128, .f32⟩ : BufTy).Contents (Elt Ideal)) (n : Fin 16384) (l : Fin 50) (u : Fin 1) :
    varOf (F := Ideal) e (ix3 n l u) = Cert.Spec.var (fun c => e (ix3 n l c)) := by
  unfold varOf Cert.Spec.var
  rw [select_apply, broadcastInDim_scalar_apply, cnt_pos, select_one, hostDivf_apply, bc_keep, rowSum_apply,
    broadcastInDim_scalar_apply, cntOf_apply]
  refine congrArg (fun s => Ideal.div s Cert.Spec.K128) (Finset.sum_congr rfl (fun c _ => ?_))
  rw [mulf_apply, devOf_apply]

/-! ## The result -/

/-- The normalized array at (n, l, c), from the sum, its mean, its variance, the scale and the shift. -/
theorem outOf_apply (e : (⟨S16384x50x128, .f32⟩ : BufTy).Contents (Elt Ideal)) (mu va : (⟨S16384x50x1, .f32⟩ : BufTy).Contents (Elt Ideal)) (g b : (⟨S128, .f32⟩ : BufTy).Contents (Elt Ideal))
    (n : Fin 16384) (l : Fin 50) (c : Fin 128) :
    outOf (F := Ideal) e mu va g b (ix3 n l c)
      = Ideal.div (e (ix3 n l c) - mu (ix3 n l (0 : Fin 1)))
          (Ideal.sqrt (va (ix3 n l (0 : Fin 1)) + Cert.Spec.Keps)) * g (ix1 c) + b (ix1 c) := by
  unfold outOf
  rw [addf_apply, mulf_apply, hostDivf_apply, subf_apply, bc_last, bc_last, hostSqrt_apply, addf_apply,
    broadcastInDim_scalar_apply, constant_apply, bc_vec, bc_vec]

/-- THE REFERENCE'S RESULT IS THE SPECIFICATION'S, when every index word is inside its table. -/
theorem result_eq (tok dec : (⟨S16384x50, .i32⟩ : BufTy).Contents (Elt Ideal)) (chg : (⟨S16384, .i32⟩ : BufTy).Contents (Elt Ideal)) (A : (⟨S30x128, .f32⟩ : BufTy).Contents (Elt Ideal))
    (P C : (⟨S10x128, .f32⟩ : BufTy).Contents (Elt Ideal)) (pos : (⟨S512x128, .f32⟩ : BufTy).Contents (Elt Ideal)) (g b : (⟨S128, .f32⟩ : BufTy).Contents (Elt Ideal))
    (h : Cert.Spec.InRange tok dec chg) :
    res (F := Ideal) tok dec chg A P C pos g b = Cert.Spec.G tok dec chg A P C pos g b := by
  funext i
  obtain ⟨n, l, c, rfl⟩ : ∃ (n : Fin 16384) (l : Fin 50) (c : Fin 128), i = ix3 n l c := ⟨i 0, i 1, i 2, eq_ix3 i⟩
  have he : (fun c' => embAll (F := Ideal) tok dec chg A P C pos (ix3 n l c'))
      = fun c' => Cert.Spec.emb tok dec chg A P C pos n l c' :=
    funext fun c' => embAll_apply tok dec chg A P C pos h n l c'
  unfold res
  rw [outOf_apply, meanOf_apply, varOf_apply, he, embAll_apply tok dec chg A P C pos h]
  rfl

end Cert.RefSide

end
-- ==== Proof.lean ====
/-
  The kernel and its reference compute one function over the extended reals.

  For sequence n, position l and feature c both programs form the embedding
      e = a_emb[token] + phos_emb[decoration] + charge_emb[charge] + pos_emb[l]
  and normalize it along the feature axis (mean, mean squared deviation, division by the square root of the latter
  plus a small constant, scale and shift): the function `Cert.Spec.G`.

  The reference looks the three rows up; the kernel stacks the three tables into one of 128 rows, builds for 128
  lanes at a time the sum of three indicator columns (of the token, of the decoration shifted by 30, of the charge
  shifted by 40) and contracts it with the stacked table. The two agree when every token lies in [0, 30) and every
  decoration and charge in [0, 10), which the precondition states: the three indicators then sit at three distinct
  rows, and a sum over 128 rows weighted by them is the sum of those three rows. The kernel multiplies by the
  reciprocal square root where the reference divides by the square root; the argument of the root is positive (a
  mean of squares plus a positive constant), where the two agree. Neither law needs the float inputs to be finite.

  The three frames: each program runs to its end, faults nowhere and leaves its nine argument arrays as they were;
  the kernel's region is run at every grid point against the pipeline's launch rule with the body's 25 stores
  covering the output block, the reference as its list of host operations.
-/
import proofs.«131727_g78563541778773_cont_9to1c4b_168_6_alg».proof.Defs
import proofs.«131727_g78563541778773_cont_9to1c4b_168_6_alg».proof.Proof.Gen.Kernel
import proofs.«131727_g78563541778773_cont_9to1c4b_168_6_alg».proof.Proof.Gen.KernelIdeal
import proofs.«131727_g78563541778773_cont_9to1c4b_168_6_alg».proof.Proof.Gen.ReferenceIdeal
import proofs.«131727_g78563541778773_cont_9to1c4b_168_6_alg».proof.Proof.Gen.Pre_finite_inputs
import proofs.«131727_g78563541778773_cont_9to1c4b_168_6_alg».proof.Proof.KRun
import proofs.«131727_g78563541778773_cont_9to1c4b_168_6_alg».proof.Proof.KIValue
import proofs.«131727_g78563541778773_cont_9to1c4b_168_6_alg».proof.Proof.PreDecode
import proofs.«131727_g78563541778773_cont_9to1c4b_168_6_alg».proof.Proof.RefRun
import proofs.«131727_g78563541778773_cont_9to1c4b_168_6_alg».proof.Proof.RefRead2
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel (hKernel := Cert.Kernel.Gen.facts) (hPre_finite_inputs := Cert.Pre_finite_inputs.Gen.facts) :=
  fun m ρ _ => Cert.Kernel.Hand.frame m ρ

/-- So does its idealization. -/
theorem frame_kernelIdeal : Cert.frame_KernelIdeal (hKernelIdeal := Cert.KernelIdeal.Gen.facts)
    (hPre_finite_inputs := Cert.Pre_finite_inputs.Gen.facts) :=
  fun m ρ _ => Cert.KernelIdeal.Hand.frame m ρ

/-- The reference runs and keeps its arguments: its run with the result dropped. -/
theorem frame_reference : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2)
    (Cert.RefSide.run (F := Ideal) m ρ)

/-- From memories agreeing on the arguments both idealized programs end with the specification of the arguments in
    their result arrays: the kernel's by its value run, the reference's by its run read at an index; the ranges of the
    integer inputs come from the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hR : ∀ c : Dev Cert.KernelIdeal.nD,
      Cert.Spec.InRange (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) :=
    fun c => @Cert.PreDecode.inRange Cert.Pre_finite_inputs.Gen.facts Ideal _ _ _ _ _ _ _ _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Glue.kernel_value m ρ hR, ?_⟩
  refine (θ_run (Cert.ReferenceIdeal.defs (F := Ideal)) _ _).mono (fun _ h c => ⟨(h c).1.trans ?_, (h c).2⟩)
    (Cert.RefSide.run (F := Ideal) m' ρ')
  obtain ⟨e0, e1, e2, e3, e4, e5, e6, e7, e8⟩ := hagree c
  rw [e0, e1, e2, e3, e4, e5, e6, e7, e8]
  exact Cert.RefSide.result_eq _ _ _ _ _ _ _ _ _ (hR c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
